-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x1024 : Shape := ⟨3, ![4096, 3, 1024]⟩
abbrev S4096 : Shape := ⟨1, ![4096]⟩
abbrev S_ : Shape := ⟨0, ![]⟩

class Facts : Prop where
  bcast_S_S4096x3x1024 : S_.BroadcastsInDim S4096x3x1024 (![] : Fin 0 → Fin S4096x3x1024.rank)
  reducesTo_S4096x3x1024_S_d0_1_2 : S4096x3x1024.ReducesTo [0, 1, 2] S_
  h_S_ : 0 < S_.numel

variable [Facts]

def fn {F : FTy → Type} [FloatOps F] (main_arg0 : FVec F S4096x3x1024 .f32) (main_arg1 : IVec S4096 32) (main_arg2 : IVec S4096 32) : IVec S_ 1 :=
  let main_v0 : FVec F S4096x3x1024 .f32 := Host.absf main_arg0
  let main_cst : FVec F S_ .f32 := constant S_ .f32 0x7F800000#32
  let main_v1 : FVec F S4096x3x1024 .f32 := broadcastInDim S4096x3x1024 ![] bcast_S_S4096x3x1024 main_cst
  let main_v2 : IVec S4096x3x1024 1 := cmpf .olt main_v0 main_v1
  let main_c : IVec S_ 1 := constantI S_ 1 1#1
  let main_v3 : IVec S_ 1 := (fun x v => Host.reduce IntOp.andi x v reducesTo_S4096x3x1024_S_d0_1_2 h_S_) main_v2 main_c
  main_v3
-- ==== Kernel.lean ====
abbrev S4096x3x1024 : Shape := ⟨3, ![4096, 3, 1024]⟩
abbrev S4096 : Shape := ⟨1, ![4096]⟩
abbrev S4096x1x1024 : Shape := ⟨3, ![4096, 1, 1024]⟩
abbrev S4096x1024 : Shape := ⟨2, ![4096, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩
abbrev S1x4096 : Shape := ⟨2, ![1, 4096]⟩
abbrev S8x8x128 : Shape := ⟨3, ![8, 8, 128]⟩
abbrev S1x512 : Shape := ⟨2, ![1, 512]⟩
abbrev S1x8x128 : Shape := ⟨3, ![1, 8, 128]⟩
abbrev S8x128 : Shape := ⟨2, ![8, 128]⟩
abbrev S1024x512 : Shape := ⟨2, ![1024, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩
abbrev S8x1 : Shape := ⟨2, ![8, 1]⟩
abbrev S_ : Shape := ⟨0, ![]⟩
abbrev S8 : Shape := ⟨1, ![8]⟩

abbrev nBuf : Space → Nat
  | .hbm => 58
  | .vmem => 28
  | .smem => 0
  | _ => 0

abbrev bufTy : (tb : Table) → Fin (tcTables nBuf tb) → BufTy
  | .hbm, ⟨0, _⟩ => ⟨S4096x3x1024, .f32⟩
  | .hbm, ⟨1, _⟩ => ⟨S4096, .i32⟩
  | .hbm, ⟨2, _⟩ => ⟨S4096, .i32⟩
  | .hbm, ⟨3, _⟩ => ⟨S4096x1x1024, .f32⟩
  | .hbm, ⟨4, _⟩ => ⟨S4096x1024, .f32⟩
  | .hbm, ⟨5, _⟩ => ⟨S4096x1x1024, .f32⟩
  | .hbm, ⟨6, _⟩ => ⟨S4096x1024, .f32⟩
  | .hbm, ⟨7, _⟩ => ⟨S4096x1x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x1, .f32⟩
  | .hbm, ⟨12, _⟩ => ⟨S4096x1, .f32⟩
  | .hbm, ⟨13, _⟩ => ⟨S4096x1, .i32⟩
  | .hbm, ⟨14, _⟩ => ⟨S1x4096, .i32⟩
  | .hbm, ⟨15, _⟩ => ⟨S1x4096, .i32⟩
  | .hbm, ⟨16, _⟩ => ⟨S8x8x128, .f32⟩
  | .hbm, ⟨17, _⟩ => ⟨S_, .f32⟩
  | .hbm, ⟨18, _⟩ => ⟨S8x128, .f32⟩
  | .hbm, ⟨19, _⟩ => ⟨S8x1, .f32⟩
  | .hbm, ⟨20, _⟩ => ⟨S8, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1, .i32⟩
  | .local _ .vmem, ⟨21, _⟩ => ⟨S512x1, .i32⟩
  | .local _ .vmem, ⟨22, _⟩ => ⟨S1x512, .i32⟩
  | .local _ .vmem, ⟨23, _⟩ => ⟨S1x512, .i32⟩
  | .local _ .vmem, ⟨24, _⟩ => ⟨S1x512, .i32⟩
  | .local _ .vmem, ⟨25, _⟩ => ⟨S1x512, .i32⟩
  | .local _ .vmem, ⟨26, _⟩ => ⟨S1x8x128, .f32⟩
  | .local _ .vmem, ⟨27, _⟩ => ⟨S1x8x128, .f32⟩
  | _, _ => ⟨S4096x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_call0_cst : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let arg0 : BitVec 32 := BitVec.ofNat 32 (i 0).val
  let v3 : BitVec 1 := Scalar.cmpi .sge arg1 arg0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S4096x3x1024_S4096x1x1024_0_0_0 : S4096x3x1024.Slices ![0, 0, 0] S4096x1x1024
  shapeCasts_S4096x1x1024_S4096x1024 : S4096x1x1024.ShapeCasts S4096x1024
  slices_S4096x3x1024_S4096x1x1024_0_1_0 : S4096x3x1024.Slices ![0, 1, 0] S4096x1x1024
  slices_S4096x3x1024_S4096x1x1024_0_2_0 : S4096x3x1024.Slices ![0, 2, 0] S4096x1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S4096_S4096x1 : S4096.ShapeCasts S4096x1
  shapeCasts_S4096_S1x4096 : S4096.ShapeCasts S1x4096
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  transposes_S512x1024_p1_0_S1024x512 : S512x1024.Transposes [1, 0] S1024x512
  iota_S512x512_d0_w32 : S512x512.Iotas .tc 32 [0]
  iota_S512x512_d1_w32 : S512x512.Iotas .tc 32 [1]
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  concatenates_S1x1_S1x1_S1x1_S1x1_S1x1_S1x1_S1x1_S1x1_S8x1_d0 : Shape.Concatenates [S1x1, S1x1, S1x1, S1x1, S1x1, S1x1, S1x1, S1x1] S8x1 0
  shapeCasts_S8x1_S8x1 : S8x1.ShapeCasts S8x1
  broadcasts_S8x1_S8x128 : S8x1.Broadcasts S8x128
  reducesTo_S8x8x128_S8x128_d0 : S8x8x128.ReducesTo [0] S8x128
  h_S_ : 0 < S_.numel
  slices_S8x128_S8x1_0_0 : S8x128.Slices ![0, 0] S8x1
  shapeCasts_S8x1_S8 : S8x1.ShapeCasts S8
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  slices_S8_S1_6 : S8.Slices ![6] S1
  slices_S8_S1_7 : S8.Slices ![7] S1
  reducesTo_S4096x1_S_d0_1 : S4096x1.ReducesTo [0, 1] S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .i32 = 32 ∨ (Rect.block (s := S4096x1) S512x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .i32 = 32 ∨ (Rect.block (s := S1x4096) S1x512.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .i32 = 32 ∨ (Rect.block (s := S1x4096) S1x512.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128.size a ≤ S8x8x128.size a
  hwx1_6 : ∀ i : grid1.Coords, EltTy.bits .f32 = 32 ∨ (Rect.block (s := S8x8x128) S1x8x128.size (cc1_transform_6 i) (hinb1_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_3) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond1 i == 1#1) && !(k1_cond2 i == 1#1) | ⟨_ + 7, h⟩ => absurd h (Nat.not_lt.2 (Nat.le_add_left _ _))

class Facts : Prop extends Facts₀ where

variable [Facts]
-- ==== ReferenceIdeal.lean ====
abbrev S4096x3x1024 : Shape := ⟨3, ![4096, 3, 1024]⟩
abbrev S4096 : Shape := ⟨1, ![4096]⟩
abbrev S4096x1x1024 : Shape := ⟨3, ![4096, 1, 1024]⟩
abbrev S4096x1024 : Shape := ⟨2, ![4096, 1024]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 143
  | .vmem => 0
  | .smem => 0
  | _ => 0

abbrev hbmTy0_0 (i : Nat) : BufTy := match i % 128 with
  | 0 => ⟨S4096x3x1024, .f32⟩
  | 1 => ⟨S4096, .i32⟩
  | 2 => ⟨S4096, .i32⟩
  | 3 => ⟨S4096x1x1024, .f32⟩
  | 4 => ⟨S4096x1024, .f32⟩
  | 5 => ⟨S4096x1x1024, .f32⟩
  | 6 => ⟨S4096x1024, .f32⟩
  | 7 => ⟨S4096x1x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S_, .f32⟩
  | 43 => ⟨S4096, .f32⟩
  | 44 => ⟨S4096, .f32⟩
  | 45 => ⟨S4096x1024, .f32⟩
  | 46 => ⟨S_, .f32⟩
  | 47 => ⟨S4096, .f32⟩
  | 48 => ⟨S_, .f32⟩
  | 49 => ⟨S4096, .f32⟩
  | 50 => ⟨S4096, .f32⟩
  | 51 => ⟨S1024x4096, .f32⟩
  | 52 => ⟨S4096x4096, .f32⟩
  | 53 => ⟨S_, .f32⟩
  | 54 => ⟨S4096x4096, .f32⟩
  | 55 => ⟨S4096x4096, .f32⟩
  | 56 => ⟨S1024x4096, .f32⟩
  | 57 => ⟨S4096x4096, .f32⟩
  | 58 => ⟨S_, .f32⟩
  | 59 => ⟨S4096x4096, .f32⟩
  | 60 => ⟨S4096x4096, .f32⟩
  | 61 => ⟨S_, .i1⟩
  | 62 => ⟨S4096x4096, .i1⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S4096x4096, .i1⟩
  | 69 => ⟨S_, .i1⟩
  | 70 => ⟨S4096x4096, .i1⟩
  | 71 => ⟨S4096x4096, .i1⟩
  | 72 => ⟨S4096x1, .i32⟩
  | 73 => ⟨S1x4096, .i32⟩
  | 74 => ⟨S4096x4096, .i32⟩
  | 75 => ⟨S4096x4096, .i32⟩
  | 76 => ⟨S4096x4096, .i1⟩
  | 77 => ⟨S4096x1, .i32⟩
  | 78 => ⟨S1x4096, .i32⟩
  | 79 => ⟨S4096x4096, .i32⟩
  | 80 => ⟨S4096x4096, .i32⟩
  | 81 => ⟨S4096x4096, .i1⟩
  | 82 => ⟨S4096x4096, .i1⟩
  | 83 => ⟨S4096x4096, .i1⟩
  | 84 => ⟨S4096x4096, .i1⟩
  | 85 => ⟨S4096x4096, .i1⟩
  | 86 => ⟨S4096x4096, .i1⟩
  | 87 => ⟨S4096x4096, .i1⟩
  | 88 => ⟨S_, .f32⟩
  | 89 => ⟨S_, .f32⟩
  | 90 => ⟨S_, .f32⟩
  | 91 => ⟨S4096x4096, .f32⟩
  | 92 => ⟨S4096x4096, .f32⟩
  | 93 => ⟨S_, .f32⟩
  | 94 => ⟨S_, .f32⟩
  | 95 => ⟨S_, .f32⟩
  | 96 => ⟨S_, .f32⟩
  | 97 => ⟨S4096x4096, .f32⟩
  | 98 => ⟨S4096x4096, .f32⟩
  | 99 => ⟨S_, .f32⟩
  | 100 => ⟨S_, .f32⟩
  | 101 => ⟨S_, .f32⟩
  | 102 => ⟨S4096x4096, .i32⟩
  | 103 => ⟨S_, .i32⟩
  | 104 => ⟨S_, .i32⟩
  | 105 => ⟨S_, .i32⟩
  | 106 => ⟨S_, .i32⟩
  | 107 => ⟨S4096x4096, .i32⟩
  | 108 => ⟨S_, .i32⟩
  | 109 => ⟨S_, .i32⟩
  | 110 => ⟨S_, .i32⟩
  | 111 => ⟨S_, .f32⟩
  | 112 => ⟨S_, .f32⟩
  | 113 => ⟨S_, .f32⟩
  | 114 => ⟨S4096x4096, .f32⟩
  | 115 => ⟨S4096x4096, .f32⟩
  | 116 => ⟨S_, .f32⟩
  | 117 => ⟨S_, .f32⟩
  | 118 => ⟨S_, .f32⟩
  | 119 => ⟨S_, .f32⟩
  | 120 => ⟨S4096x4096, .f32⟩
  | 121 => ⟨S4096x4096, .f32⟩
  | 122 => ⟨S_, .f32⟩
  | 123 => ⟨S_, .f32⟩
  | 124 => ⟨S_, .f32⟩
  | 125 => ⟨S4096x4096, .i32⟩
  | 126 => ⟨S_, .i32⟩
  | 127 => ⟨S_, .i32⟩
  | _ => ⟨S4096x3x1024, .f32⟩

abbrev hbmTy0_1 (i : Nat) : BufTy := match i % 128 with
  | 0 => ⟨S_, .i32⟩
  | 1 => ⟨S_, .i32⟩
  | 2 => ⟨S4096x4096, .i32⟩
  | 3 => ⟨S_, .i32⟩
  | 4 => ⟨S_, .i32⟩
  | 5 => ⟨S_, .i32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S4096x3x1024, .f32⟩

abbrev hbmTy (i : Nat) : BufTy := match i / 128 with
  | 0 => hbmTy0_0 i
  | 1 => hbmTy0_1 i
  | _ => ⟨S4096x3x1024, .f32⟩

abbrev bufTy : (tb : Table) → Fin (tcTables nBuf tb) → BufTy
  | .hbm, ⟨i, _⟩ => hbmTy i
  | _, _ => ⟨S4096x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_cst_12 : Ref sig .tc := ⟨.hbm, 90, rfl⟩
abbrev main_call1_v0 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_call2_v0 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_cst_19 : Ref sig .tc := ⟨.hbm, 111, rfl⟩
abbrev main_v77 : Ref sig .tc := ⟨.hbm, 112, rfl⟩
abbrev main_cst_20 : Ref sig .tc := ⟨.hbm, 113, rfl⟩
abbrev main_call3_v0 : Ref sig .tc := ⟨.hbm, 114, rfl⟩
abbrev main_v78 : Ref sig .tc := ⟨.hbm, 115, rfl⟩
abbrev main_cst_21 : Ref sig .tc := ⟨.hbm, 116, rfl⟩
abbrev main_v79 : Ref sig .tc := ⟨.hbm, 117, rfl⟩
abbrev main_v80 : Ref sig .tc := ⟨.hbm, 118, rfl⟩
abbrev main_cst_22 : Ref sig .tc := ⟨.hbm, 119, rfl⟩
abbrev main_call4_v0 : Ref sig .tc := ⟨.hbm, 120, rfl⟩
abbrev main_v81 : Ref sig .tc := ⟨.hbm, 121, rfl⟩
abbrev main_cst_23 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_24 : Ref sig .tc := ⟨.hbm, 126, rfl⟩
abbrev main_v85 : Ref sig .tc := ⟨.hbm, 127, rfl⟩
abbrev main_c_25 : Ref sig .tc := ⟨.hbm, 128, rfl⟩
abbrev main_v86 : Ref sig .tc := ⟨.hbm, 129, rfl⟩
abbrev main_v87 : Ref sig .tc := ⟨.hbm, 130, rfl⟩
abbrev main_c_26 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_27 : Ref sig .tc := ⟨.hbm, 139, rfl⟩
abbrev main_v95 : Ref sig .tc := ⟨.hbm, 140, rfl⟩
abbrev main_call5_cst : Ref sig .tc := ⟨.hbm, 141, rfl⟩
abbrev main_v96 : Ref sig .tc := ⟨.hbm, 142, rfl⟩

abbrev nD : Nat := 1
abbrev τ : Topo := Topo.v7x

variable {F : FTy → Type} [FloatOps F]

class Facts₀ : Prop where
  slices_S4096x3x1024_S4096x1x1024_0_0_0 : S4096x3x1024.Slices ![0, 0, 0] S4096x1x1024
  shapeCasts_S4096x1x1024_S4096x1024 : S4096x1x1024.ShapeCasts S4096x1024
  slices_S4096x3x1024_S4096x1x1024_0_1_0 : S4096x3x1024.Slices ![0, 1, 0] S4096x1x1024
  slices_S4096x3x1024_S4096x1x1024_0_2_0 : S4096x3x1024.Slices ![0, 2, 0] S4096x1x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096 : S_.BroadcastsInDim S4096 (![] : Fin 0 → Fin S4096.rank)
  transposes_S4096x1024_S1024x4096_1_0 : S4096x1024.Transposes [1, 0] S1024x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096_S_d0 : S4096.ReducesTo [0] S_
  reducesTo_S4096x4096_S_d0_1 : S4096x4096.ReducesTo [0, 1] S_
  natLt_1_32 : 1 < 32
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Region0Bits.lean ====
/-
  The first of the kernel program's two regions: the prologue. On a grid of eight points it takes a block of 512 rows of
  each of the three feature arrays (anchors, positives, negatives; 1024 entries a row), divides every row by its
  Euclidean norm clamped below, and leaves four blocks: the anchors' and the negatives' directions in half precision,
  and for every row one minus the inner product of the anchor's direction with the positive's, and with the negative's.

  Stated once for every float instance: what each window's staging buffer holds after the body at a point (the three
  fetched blocks as found; each written buffer as the one whole-buffer store of the body's payload over the fetched
  blocks), the proof data of the region at given entry contents of the arrays, and the body obligation at every point.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 by 1024 elements: the structural check recurses once per coordinate of the long axis
set_option maxRecDepth 16384

noncomputable section

namespace Cert.Kernel.Region0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at these
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchors' staging buffer holds its block at every point, for any proof data whose array is the entry contents
    and whose body leaves the block in place: the window is not cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the positives' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the negatives' staging buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 512 by 1024 buffer. -/
abbrev rWide : Rect S512x1024 := Rect.unit (s := S512x1024) ![0, 0] S512x1024.size inb_S512x1024_S512x1024_0_0
/-- The whole of a 512 by 1 buffer. -/
abbrev rCol : Rect S512x1 := Rect.unit (s := S512x1) ![0, 0] S512x1.size inb_S512x1_S512x1_0_0

/-! ## What the body leaves in each written window's buffer -/

/-- The anchors' directions in half precision, from the three fetched blocks: the body's one store into window 3. -/
def out0_3 (x0 x1 x2 : Vec F S512x1024 .f32) : Vec F S512x1024 .bf16 :=
  View.canon [⟨rWide, k0_pay6 (View.ld x0 rWide)⟩]

/-- The one store is the whole buffer, so it covers it. -/
theorem cover0_3 (p0 : Vec F S512x1024 .bf16) (y : S512x1024.Idx) :
    ∃ pc ∈ ([⟨rWide, p0⟩] : List (View.Piece (Elt F) S512x1024 .bf16)), y ∈ pc.1.set :=
  View.cover_of_tiled [⟨rWide, p0⟩] S512x1024.size (by rfl) y

/-- The negatives' directions in half precision: the body's one store into window 4. -/
def out0_4 (x0 x1 x2 : Vec F S512x1024 .f32) : Vec F S512x1024 .bf16 :=
  View.canon [⟨rWide, k0_pay1 (k0_pay3 (View.ld x2 rWide))⟩]

/-- The one store is the whole buffer, so it covers it. -/
theorem cover0_4 (p0 : Vec F S512x1024 .bf16) (y : S512x1024.Idx) :
    ∃ pc ∈ ([⟨rWide, p0⟩] : List (View.Piece (Elt F) S512x1024 .bf16)), y ∈ pc.1.set :=
  View.cover_of_tiled [⟨rWide, p0⟩] S512x1024.size (by rfl) y

/-- One minus the inner product of each anchor's direction with its positive's: the body's one store into window 5. -/
def out0_5 (x0 x1 x2 : Vec F S512x1024 .f32) : Vec F S512x1 .f32 :=
  View.canon [⟨rCol, k0_pay4 (View.ld x0 rWide) (View.ld x1 rWide)⟩]

/-- The one store is the whole buffer, so it covers it. -/
theorem cover0_5 (p0 : Vec F S512x1 .f32) (y : S512x1.Idx) :
    ∃ pc ∈ ([⟨rCol, p0⟩] : List (View.Piece (Elt F) S512x1 .f32)), y ∈ pc.1.set :=
  View.cover_of_tiled [⟨rCol, p0⟩] S512x1.size (by rfl) y

/-- One minus the inner product of each anchor's direction with its negative's: the body's one store into window 6. -/
def out0_6 (x0 x1 x2 : Vec F S512x1024 .f32) : Vec F S512x1 .f32 :=
  View.canon [⟨rCol, k0_pay5 (View.ld x0 rWide) (View.ld x2 rWide)⟩]

/-- The one store is the whole buffer, so it covers it. -/
theorem cover0_6 (p0 : Vec F S512x1 .f32) (y : S512x1.Idx) :
    ∃ pc ∈ ([⟨rCol, p0⟩] : List (View.Piece (Elt F) S512x1 .f32)), y ∈ pc.1.set :=
  View.cover_of_tiled [⟨rCol, p0⟩] S512x1.size (by rfl) y

/-! ## The body's triple -/

set_option maxHeartbeats 1000000 in
/-- The body on whole staging memrefs, the three fetched buffers at contents `x0 x1 x2` and the four written ones at
    anything, runs to the continuation holding the fetched buffers as they were and each written buffer at its
    `out0_w` of the three. -/
theorem sound_kernel0 (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1 .f32) (harg6 : arg6.IsWhole)
    (arg7 : Memref sig .tc .vmem S512x1 .f32) (harg7 : arg7.IsWhole)
    (x0 x1 x2 : Vec F S512x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E
          (cc0__prologue_kernel i arg1 harg1 arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_unfold [cc0__prologue_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The region's proof data -/

/-- The proof data of the region on core `c`: the arrays as the region finds them; after the body at point `t` each
    fetched buffer at its block and each written buffer at its `out0_w` of the three fetched blocks; the invariant the
    scoped buffers that are not this region's and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) := by dsimp only [dat0]

/-- Each fetched buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the fetched buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region0

end
-- ==== Proof.Region1KitBits.lean ====
/-
  The second kernel region (the pairwise mining over an 8 x 8 grid of 512 x 512 blocks of row pairs), as far as its
  run needs before the body is opened: each window's block at a grid point, read off the array the region finds; the
  fact that an input's staging buffer holds its block at every point; the two conditions of the body in closed form over
  the 64 points — "the column block is the first" (point ≡ 0 mod 8) and "the column block is not before the row
  block" (point / 8 ≤ point % 8) —; where the accumulator's window is idle (neither condition holds), and where
  its staging buffer is fresh (the first column block of each row block: the previous point wrote it back).
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, the idle points and the fresh points -/

/-- The body resets the accumulator: the column block is the first. -/
abbrev cond1_1 (i : grid1.Coords) : Prop := k1_cond1 i = 1#1
/-- The body adds this block's sums: the column block is not before the row block. -/
abbrev cond1_2 (i : grid1.Coords) : Prop := k1_cond2 i = 1#1

/-- The reset happens at the points ≡ 0 (mod 8) — decided over the grid. -/
theorem hcond1_1 : ∀ t : Fin cfg1.N, cond1_1 (grid1.coords t) ↔ t.val % 8 = 0 :=
  (by decide +kernel : ∀ t : Fin grid1.N, cond1_1 (grid1.coords t) ↔ t.val % 8 = 0)
/-- The block's sums are added at the points whose column block is not before the row block. -/
theorem hcond1_2 : ∀ t : Fin cfg1.N, cond1_2 (grid1.coords t) ↔ t.val / 8 ≤ t.val % 8 :=
  (by decide +kernel : ∀ t : Fin grid1.N, cond1_2 (grid1.coords t) ↔ t.val / 8 ≤ t.val % 8)
/-- The accumulator's window is idle exactly where neither happens. -/
theorem hidle1_6 : ∀ t : Fin cfg1.N, cfg1.idle 6 (grid1.coords t) = (!decide (t.val % 8 = 0) && !decide (t.val / 8 ≤ t.val % 8)) :=
  (by decide +kernel : ∀ t : Fin grid1.N, idle1 6 (grid1.coords t) = (!decide (t.val % 8 = 0) && !decide (t.val / 8 ≤ t.val % 8)))
/-- Its staging buffer holds nothing of the body's at the points ≡ 0 (mod 8), and only there. -/
theorem hfresh1_6 : ∀ t : Fin cfg1.N, cfg1.fresh 6 t.val = decide (t.val % 8 = 0) :=
  (by decide +kernel : ∀ t : Fin grid1.N, cfg1.fresh 6 t.val = decide (t.val % 8 = 0))

/-! ## The staging memrefs -/

/-- One staging buffer of the accumulator's window, through which its contents are stated. -/
abbrev VO1_6 : View sig .tc .vmem S1x8x128 .f32 := (Memref.whole cc1_stg6_0 : Memref sig .tc .vmem S1x8x128 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8x128 .f32 := win1_6.stage (cfg1.slots t 6)
abbrev hs1_6 (t : Fin cfg1.N) : (ms1_6 t).IsWhole := hstage1_6 ((cfg1.slots t 6).cast nbuf1_6)

end Cert.Kernel.Region1

end
-- ==== Proof.Region1RunBABits.lean ====
/-
  The mining body at a grid point where the column block is not the first and is not before the row block: the
  accumulator is not reset; the block's eight sums are computed from the three direction blocks and the three label
  blocks and added, each spread along its row of the 8 x 128 accumulator, to what the accumulator held.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region1KitBits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's one store leaves in the accumulator's staging memref, as pieces, at a point that does not reset
    and does add — with the proof that on whole staging memrefs, the inputs' at their contents and the accumulator's
    at its running contents `xo6`, the body runs to the continuation holding the inputs' as they were and the
    accumulator's buffer with those pieces written. -/
noncomputable def kernelRun1_BA (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i)
    (x0 x1 x2 : Vec F S512x1024 .bf16) (x3 : Vec F S512x1 .i32) (x4 x5 : Vec F S1x512 .i32) (xo6 : Vec F S1x8x128 .f32) :
    { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__pair_mine_kernel i arg2 harg2 arg3 harg3 arg4 harg4 arg5 harg5 arg6 harg6 arg7 harg7 arg8 harg8) K } := by
  refine ⟨?_, fun E K => ?run⟩
  case run =>
    haveI : Fact (cond1_2 i) := ⟨hc2⟩
    simp only [cc1__pair_mine_kernel_eq_skeleton]; unfold cc1__pair_mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Region1

end
-- ==== Proof.Region1RunAABits.lean ====
/-
  The mining body at the one grid point where the column block is the first and is not before the row block (the
  first point of all): the accumulator is reset to zero, then the block's eight sums, each spread along its row of the
  8 x 128 accumulator, are added to the zeros just stored.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region1RunBABits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's two stores leave in the accumulator's staging memref, as pieces (last first), at the point that both
    resets and adds — with the proof that on whole staging memrefs, the inputs' at their contents and the accumulator's
    at anything, the body runs to the continuation holding the inputs' as they were and the accumulator's buffer with
    those pieces written. -/
noncomputable def kernelRun1_AA (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i)
    (x0 x1 x2 : Vec F S512x1024 .bf16) (x3 : Vec F S512x1 .i32) (x4 x5 : Vec F S1x512 .i32) :
    { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__pair_mine_kernel i arg2 harg2 arg3 harg3 arg4 harg4 arg5 harg5 arg6 harg6 arg7 harg7 arg8 harg8) K } := by
  refine ⟨?_, fun E K => ?run⟩
  case run =>
    haveI : Fact (cond1_1 i) := ⟨hc1⟩
    haveI : Fact (cond1_2 i) := ⟨hc2⟩
    simp only [cc1__pair_mine_kernel_eq_skeleton]; unfold cc1__pair_mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Region1

end
-- ==== Proof.Region1RunABBits.lean ====
/-
  The mining body at a grid point where the column block is the first but lies before the row block: the accumulator
  is reset to zero and nothing is added (every pair of the block has its column before its row).
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region1RunAABits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's one store leaves in the accumulator's staging memref, as pieces, at a point that resets and does not
    add — with the proof that on whole staging memrefs, the inputs' at their contents and the accumulator's at anything,
    the body runs to the continuation holding the inputs' as they were and the accumulator's buffer with those pieces
    written. -/
noncomputable def kernelRun1_AB (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i)
    (x0 x1 x2 : Vec F S512x1024 .bf16) (x3 : Vec F S512x1 .i32) (x4 x5 : Vec F S1x512 .i32) :
    { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__pair_mine_kernel i arg2 harg2 arg3 harg3 arg4 harg4 arg5 harg5 arg6 harg6 arg7 harg7 arg8 harg8) K } := by
  refine ⟨?_, fun E K => ?run⟩
  case run =>
    haveI : Fact (cond1_1 i) := ⟨hc1⟩
    simp only [cc1__pair_mine_kernel_eq_skeleton]; unfold cc1__pair_mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Region1

end
-- ==== Proof.Region1RunBBBits.lean ====
/-
  The mining body at a grid point where the column block is neither the first nor at or after the row block: neither
  branch is taken, no memory is touched, and whatever is held passes through to the continuation.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region1RunABBits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point that neither resets nor adds the body does nothing: any resource passes through it. -/
theorem kernelRun1_BB (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : ¬cond1_2 i)
    (E : Set ℕ) (K : PUnit → sProp 𝕄) (R : sProp 𝕄) :
    iprop(R ∗ (R -∗ K ⟨⟩)) ⊢ wp frame (wpE (defs₀ (F := F)) Variants.none c none) E (cc1__pair_mine_kernel i arg2 harg2 arg3 harg3 arg4 harg4 arg5 harg5 arg6 harg6 arg7 harg7 arg8 harg8) K := by
  simp only [cc1__pair_mine_kernel_eq_skeleton]; unfold cc1__pair_mine_kernel_skel
  iintro ⟨HR, Hk⟩
  sl_exec (disch := first | exact hc1 | exact hc2)
  sl_step
  iapply Hk
  iexact HR

end Cert.Kernel.Region1

end
-- ==== Proof.Region1Bits.lean ====
/-
  The second kernel region, point by point. What the accumulator's staging buffer holds after the body at each of the
  64 grid points is one recursion over the points: at the first column block of a row block the reset (and, at the
  very first point, the first block's sums added to it); at a later column block not before the row block, the
  block's sums added to what the point before left; at a column block before the row block, what the point before
  left, untouched. With it the region's proof data — every input window's buffer at its block, the accumulator's at
  that recursion, the two input windows that read the same array each holding half of it — and the body obligation at
  every point: the point's case is read off its number, and the case's run applies.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region1RunBBBits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator's staging buffer -/

/-- The two stores of the reset-and-add case tile the accumulator's block, so they cover it. -/
theorem cover1_AA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i)
    (x0 x1 x2 : Vec F S512x1024 .bf16) (x3 : Vec F S512x1 .i32) (x4 x5 : Vec F S1x512 .i32) (y : S1x8x128.Idx) :
    ∃ pc ∈ (kernelRun1_AA (F := F) c i arg2 harg2 arg3 harg3 arg4 harg4 arg5 harg5 arg6 harg6 arg7 harg7 arg8 harg8 hc1 hc2 x0 x1 x2 x3 x4 x5).1, y ∈ pc.1.set :=
  View.cover_of_tiledL (kernelRun1_AA (F := F) c i arg2 harg2 arg3 harg3 arg4 harg4 arg5 harg5 arg6 harg6 arg7 harg7 arg8 harg8 hc1 hc2 x0 x1 x2 x3 x4 x5).1 S1x8x128.size (by sl_kernel_rfl) y

/-- What the reset-and-add case leaves: its pieces read back. -/
def out1_AA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i)
    (x0 x1 x2 : Vec F S512x1024 .bf16) (x3 : Vec F S512x1 .i32) (x4 x5 : Vec F S1x512 .i32) : Vec F S1x8x128 .f32 :=
  VO1_6.read (Elt F) (VO1_6.writes (Elt F) VO1_6.junk (kernelRun1_AA (F := F) c i arg2 harg2 arg3 harg3 arg4 harg4 arg5 harg5 arg6 harg6 arg7 harg7 arg8 harg8 hc1 hc2 x0 x1 x2 x3 x4 x5).1)

/-- The one store of the reset-only case covers the accumulator's block. -/
theorem cover1_AB_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i)
    (x0 x1 x2 : Vec F S512x1024 .bf16) (x3 : Vec F S512x1 .i32) (x4 x5 : Vec F S1x512 .i32) (y : S1x8x128.Idx) :
    ∃ pc ∈ (kernelRun1_AB (F := F) c i arg2 harg2 arg3 harg3 arg4 harg4 arg5 harg5 arg6 harg6 arg7 harg7 arg8 harg8 hc1 hc2 x0 x1 x2 x3 x4 x5).1, y ∈ pc.1.set :=
  View.cover_of_tiledL (kernelRun1_AB (F := F) c i arg2 harg2 arg3 harg3 arg4 harg4 arg5 harg5 arg6 harg6 arg7 harg7 arg8 harg8 hc1 hc2 x0 x1 x2 x3 x4 x5).1 S1x8x128.size (by sl_kernel_rfl) y

/-- What the reset-only case leaves: its pieces read back. -/
def out1_AB_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i)
    (x0 x1 x2 : Vec F S512x1024 .bf16) (x3 : Vec F S512x1 .i32) (x4 x5 : Vec F S1x512 .i32) : Vec F S1x8x128 .f32 :=
  VO1_6.read (Elt F) (VO1_6.writes (Elt F) VO1_6.junk (kernelRun1_AB (F := F) c i arg2 harg2 arg3 harg3 arg4 harg4 arg5 harg5 arg6 harg6 arg7 harg7 arg8 harg8 hc1 hc2 x0 x1 x2 x3 x4 x5).1)

/-- The one store of the add-only case covers the accumulator's block. -/
theorem cover1_BA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i)
    (x0 x1 x2 : Vec F S512x1024 .bf16) (x3 : Vec F S512x1 .i32) (x4 x5 : Vec F S1x512 .i32) (xo6 : Vec F S1x8x128 .f32) (y : S1x8x128.Idx) :
    ∃ pc ∈ (kernelRun1_BA (F := F) c i arg2 harg2 arg3 harg3 arg4 harg4 arg5 harg5 arg6 harg6 arg7 harg7 arg8 harg8 hc1 hc2 x0 x1 x2 x3 x4 x5 xo6).1, y ∈ pc.1.set :=
  View.cover_of_tiledL (kernelRun1_BA (F := F) c i arg2 harg2 arg3 harg3 arg4 harg4 arg5 harg5 arg6 harg6 arg7 harg7 arg8 harg8 hc1 hc2 x0 x1 x2 x3 x4 x5 xo6).1 S1x8x128.size (by sl_kernel_rfl) y

/-- What the add-only case leaves over the running contents `xo6`: its pieces read back. -/
def out1_BA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i)
    (x0 x1 x2 : Vec F S512x1024 .bf16) (x3 : Vec F S512x1 .i32) (x4 x5 : Vec F S1x512 .i32) (xo6 : Vec F S1x8x128 .f32) : Vec F S1x8x128 .f32 :=
  VO1_6.read (Elt F) (VO1_6.writes (Elt F) VO1_6.junk (kernelRun1_BA (F := F) c i arg2 harg2 arg3 harg3 arg4 harg4 arg5 harg5 arg6 harg6 arg7 harg7 arg8 harg8 hc1 hc2 x0 x1 x2 x3 x4 x5 xo6).1)

/-! ## The accumulation, point by point -/

/-- One point's step: from what the point before left (`prev`) to what this point leaves, by the point's case. -/
def step1 (c : Dev nD) (t : Fin cfg1.N) (prev : Vec F S1x8x128 .f32) : Vec F S1x8x128 .f32 :=
  if h1 : t.val % 8 = 0 then
    if h2 : t.val / 8 ≤ t.val % 8 then
      out1_AA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) ((hcond1_2 t).mpr h2) (iblk1 V c 0 t) (iblk1 V c 1 t) (iblk1 V c 2 t) (iblk1 V c 3 t) (iblk1 V c 4 t) (iblk1 V c 5 t)
    else
      out1_AB_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) (fun h => h2 ((hcond1_2 t).mp h)) (iblk1 V c 0 t) (iblk1 V c 1 t) (iblk1 V c 2 t) (iblk1 V c 3 t) (iblk1 V c 4 t) (iblk1 V c 5 t)
  else
    if h2 : t.val / 8 ≤ t.val % 8 then
      out1_BA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h1 ((hcond1_1 t).mp h)) ((hcond1_2 t).mpr h2) (iblk1 V c 0 t) (iblk1 V c 1 t) (iblk1 V c 2 t) (iblk1 V c 3 t) (iblk1 V c 4 t) (iblk1 V c 5 t) prev
    else prev

/-- THE ACCUMULATION: what the accumulator's staging buffer holds after the body at position `n`. (At position 0 the
    case resets, so what it is handed does not matter: the zero block stands in.) -/
def outsAt1 (c : Dev nD) : (n : ℕ) → n < cfg1.N → Vec F S1x8x128 .f32
  | 0, hn => step1 V c ⟨0, hn⟩ (k1_pay1 (F := F))
  | n + 1, hn => step1 V c ⟨n + 1, hn⟩ (outsAt1 c n (Nat.lt_of_succ_lt hn))

/-- At a later point the accumulation is one step from the point before. -/
theorem outsAt1_succ (c : Dev nD) (t : Fin cfg1.N) (ht : t.val ≠ 0) :
    outsAt1 V c t.val t.isLt = step1 V c t (outsAt1 V c (t.val - 1) (Nat.lt_of_le_of_lt (Nat.sub_le _ _) t.isLt)) := by
  obtain ⟨n, hn⟩ := t
  cases n with
  | zero => exact absurd rfl ht
  | succ n => rfl

/-- At a point that resets and adds. -/
theorem outsAt1_AA (c : Dev nD) (t : Fin cfg1.N) (h1 : t.val % 8 = 0) (h2 : t.val / 8 ≤ t.val % 8) :
    outsAt1 V c t.val t.isLt = out1_AA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) ((hcond1_2 t).mpr h2) (iblk1 V c 0 t) (iblk1 V c 1 t) (iblk1 V c 2 t) (iblk1 V c 3 t) (iblk1 V c 4 t) (iblk1 V c 5 t) := by
  obtain ⟨n, hn⟩ := t
  cases n with
  | zero => exact (show outsAt1 V c 0 hn = step1 V c ⟨0, hn⟩ _ from rfl).trans (by unfold step1; rw [dif_pos h1, dif_pos h2])
  | succ n => exact (show outsAt1 V c (n + 1) hn = step1 V c ⟨n + 1, hn⟩ _ from rfl).trans (by unfold step1; rw [dif_pos h1, dif_pos h2])

/-- At a point that only resets. -/
theorem outsAt1_AB (c : Dev nD) (t : Fin cfg1.N) (h1 : t.val % 8 = 0) (h2 : ¬ t.val / 8 ≤ t.val % 8) :
    outsAt1 V c t.val t.isLt = out1_AB_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) (fun h => h2 ((hcond1_2 t).mp h)) (iblk1 V c 0 t) (iblk1 V c 1 t) (iblk1 V c 2 t) (iblk1 V c 3 t) (iblk1 V c 4 t) (iblk1 V c 5 t) := by
  obtain ⟨n, hn⟩ := t
  cases n with
  | zero => exact (show outsAt1 V c 0 hn = step1 V c ⟨0, hn⟩ _ from rfl).trans (by unfold step1; rw [dif_pos h1, dif_neg h2])
  | succ n => exact (show outsAt1 V c (n + 1) hn = step1 V c ⟨n + 1, hn⟩ _ from rfl).trans (by unfold step1; rw [dif_pos h1, dif_neg h2])

/-- At a point that only adds: over what the point before left. -/
theorem outsAt1_BA (c : Dev nD) (t : Fin cfg1.N) (h1 : ¬ t.val % 8 = 0) (h2 : t.val / 8 ≤ t.val % 8) :
    outsAt1 V c t.val t.isLt = out1_BA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h1 ((hcond1_1 t).mp h)) ((hcond1_2 t).mpr h2) (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)) := by
  rw [outsAt1_succ V c t (fun h0 => h1 (by rw [h0]))]; unfold step1; rw [dif_neg h1, dif_pos h2]

/-- At a point that does neither: what the point before left. -/
theorem outsAt1_BB (c : Dev nD) (t : Fin cfg1.N) (h1 : ¬ t.val % 8 = 0) (h2 : ¬ t.val / 8 ≤ t.val % 8) :
    outsAt1 V c t.val t.isLt = outsAt1 V c (t.val - 1) (Nat.lt_of_le_of_lt (Nat.sub_le _ _) t.isLt) := by
  rw [outsAt1_succ V c t (fun h0 => h1 (by rw [h0]))]; unfold step1; rw [dif_neg h1, dif_neg h2]

/-! ## The region's proof data -/

/-- The proof data of the region on core `c`: the arrays as the region finds them; after the body at point `t` each
    input's buffer at its block and the accumulator's at the accumulation; the invariant the plain one (the scoped rest
    and the generator register); nothing owed. The two direction windows that read one array hold a half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Past the first column block of a row block the accumulator's staging buffer holds what the body left at the point
    before: it was not written back in between, and through the points that leave it alone the accumulation carries. -/
theorem before1_6_B (c : Dev nD) (t : Fin cfg1.N) (h1 : ¬ t.val % 8 = 0) (d) :
    (dat1 V c).before 6 t d = outsAt1 V c (t.val - 1) (Nat.lt_of_le_of_lt (Nat.sub_le _ _) t.isLt) := by
  have hcarry : ∀ (t : Fin cfg1.N) (_ : t.val ≠ 0), cfg1.idle 6 (cfg1.grid.coords t) = true → cfg1.fresh 6 t.val = false →
      (dat1 V c).after 6 t = (dat1 V c).after 6 ⟨t.val - 1, by omega⟩ := fun t ht hi _ => by
    have hi' := hidle1_6 t
    rw [show cfg1.idle 6 (grid1.coords t) = cfg1.idle 6 (cfg1.grid.coords t) from rfl, hi] at hi'
    have hh : ¬ t.val % 8 = 0 ∧ ¬ t.val / 8 ≤ t.val % 8 := by
      by_cases a : t.val % 8 = 0 <;> by_cases b : t.val / 8 ≤ t.val % 8 <;> simp [a, b] at hi' ⊢
    rw [after1_6, after1_6]
    exact outsAt1_BB V c t hh.1 hh.2
  rw [(dat1 V c).before_out_traj 6 rfl (fun _ _ => rfl) hcarry t.val t rfl d, hfresh1_6 t,
    if_neg (by simpa using h1), after1_6]

/-! ## The body obligation, at a generic point -/

section Obligation

variable (V : (c : Dev nD) → (b : Ref sig .tc) → Buf (Elt F) ((c : Thread nD τ).loc b))

/-- What the body is called with at point `t`: the invariant, nothing owed, every window's current staging buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What the body leaves in the accumulator's current staging buffer at point `t`: the accumulation — or, at a point
    that leaves the buffer alone and does not write it back, the buffer as it was handed. -/
def leaves6 (c : Dev nD) (t : Fin cfg1.N) : sProp 𝕄 :=
  match cfg1.idle 6 (cfg1.grid.coords t) with
  | true =>
    match (cfg1.win 6).flush t with
    | false => iprop(∃ d, owns (c : Thread nD τ) (ms1_6 t) fullShare ((dat1 V c).before 6 t d))
    | true => owns (c : Thread nD τ) (ms1_6 t) fullShare ((dat1 V c).after 6 t)
  | false => owns (c : Thread nD τ) (ms1_6 t) fullShare ((dat1 V c).after 6 t)

/-- At a point that stores into the accumulator: the accumulation. -/
theorem leaves6_live (c : Dev nD) (t : Fin cfg1.N) (hi : cfg1.idle 6 (cfg1.grid.coords t) = false) :
    leaves6 V c t = owns (c : Thread nD τ) (ms1_6 t) fullShare ((dat1 V c).after 6 t) := by
  unfold leaves6; rw [hi]

/-- At a point that leaves it alone and does not write it back: as handed. -/
theorem leaves6_idle (c : Dev nD) (t : Fin cfg1.N) (hi : cfg1.idle 6 (cfg1.grid.coords t) = true) (hf : (cfg1.win 6).flush t = false) :
    leaves6 V c t = iprop(∃ d, owns (c : Thread nD τ) (ms1_6 t) fullShare ((dat1 V c).before 6 t d)) := by
  unfold leaves6; rw [hi, hf]

/-- What it returns: every input's buffer at its block; the accumulator's as `leaves6` says. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ leaves6 V c t)

set_option maxHeartbeats 1600000 in
/-- The body at any point: the inputs' memrefs hold their blocks; the point's number says which of the four cases it
    is in; where the case reads the accumulator before overwriting it, the accumulator holds what the point before left;
    so the case's run applies. The invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h1 : t.val % 8 = 0
  · have hi : cfg1.idle 6 (cfg1.grid.coords t) = false := (hidle1_6 t).trans (by simp [h1])
    rw [leaves6_live V c t hi, after1_6]
    by_cases h2 : t.val / 8 ≤ t.val % 8
    · rw [outsAt1_AA V c t h1 h2]
      unfold out1_AA_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_AA (F := F) c (grid1.coords t) _ _ _ _ _ _ _ _ _ _ _ _ _ _ ((hcond1_1 t).mpr h1) ((hcond1_2 t).mpr h2) (iblk1 V c 0 t) (iblk1 V c 1 t) (iblk1 V c 2 t) (iblk1 V c 3 t) (iblk1 V c 4 t) (iblk1 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_AA_6 (F := F) c _ _ _ _ _ _ _ _ _ _ _ _ _ _ _ _ _ _ _ _ _ _ _)
    · rw [outsAt1_AB V c t h1 h2]
      unfold out1_AB_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_AB (F := F) c (grid1.coords t) _ _ _ _ _ _ _ _ _ _ _ _ _ _ ((hcond1_1 t).mpr h1) (fun h => h2 ((hcond1_2 t).mp h)) (iblk1 V c 0 t) (iblk1 V c 1 t) (iblk1 V c 2 t) (iblk1 V c 3 t) (iblk1 V c 4 t) (iblk1 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_AB_6 (F := F) c _ _ _ _ _ _ _ _ _ _ _ _ _ _ _ _ _ _ _ _ _ _ _)
  · by_cases h2 : t.val / 8 ≤ t.val % 8
    · have hi : cfg1.idle 6 (cfg1.grid.coords t) = false := (hidle1_6 t).trans (by simp [h2])
      rw [leaves6_live V c t hi, after1_6, outsAt1_BA V c t h1 h2]
      simp only [before1_6_B V c t h1]
      unfold out1_BA_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_BA (F := F) c (grid1.coords t) _ _ _ _ _ _ _ _ _ _ _ _ _ _ (fun h => h1 ((hcond1_1 t).mp h)) ((hcond1_2 t).mpr h2) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_BA_6 (F := F) c _ _ _ _ _ _ _ _ _ _ _ _ _ _ _ _ _ _ _ _ _ _ _ _)
    · have hi : cfg1.idle 6 (cfg1.grid.coords t) = true := (hidle1_6 t).trans (by simp [h1, h2])
      have hN : t.val < 64 := lt_of_lt_of_eq t.isLt (show cfg1.N = 64 from N_1)
      have hf : (cfg1.win 6).flush t = false := Bool.eq_false_iff.mpr fun h => by
        have := (flush1_6 t).mp h; omega
      rw [leaves6_idle V c t hi hf]
      iintro H
      iapply (kernelRun1_BB (F := F) c (grid1.coords t) _ _ _ _ _ _ _ _ _ _ _ _ _ _ (fun h => h1 ((hcond1_1 t).mp h)) (fun h => h2 ((hcond1_2 t).mp h)) Set.univ _ _)
      isplitl [H]; · iexact H
      iintro ⟨HΦ, Ho, ⟨%d0, H0⟩, ⟨%d1, H1⟩, ⟨%d2, H2⟩, ⟨%d3, H3⟩, ⟨%d4, H4⟩, ⟨%d5, H5⟩, ⟨%d6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Obligation

end Cert.Kernel.Region1

end
-- ==== Proof.Region1ArraysBits.lean ====
/-
  The second kernel region's arrays and the buffers behind them. Seven windows, six buffers: the two direction
  windows that feed the row block and the column block of anchors read ONE array. Outside the region each of the six
  buffers is held whole; inside, each window holds its array at the share the region's proof data gives it — a half
  each for the two that share, the whole for the others. Dealing the six buffers among the seven windows halves the
  shared one; gathering them joins the halves again.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region1Bits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows' arrays: six of them. -/
theorem image_arr1 : Finset.univ.image (Pipeline.arrRef spec1)
    = ({main_v6_0, main_v6_1, main_v7, main_v8, main_v9, main_v10} : Finset (Ref sig .tc)) := by decide

/-- The region's arrays as plain holdings of whole buffers, each at its window's share. -/
theorem arrays1_congr (c : Dev nD) (G : (w : Fin cfg1.W) → Buf (Elt F) ((cfg1.win w).arr.view.loc (c.tc : Thread nD τ))) :
    ((dat1 V c).arrays G : sProp 𝕄)
      = bigSep Finset.univ fun w => (((c.tc : Thread nD τ).loc (Pipeline.arrRef spec1 w)) ↦{(dat1 V c).share w} G w : sProp 𝕄) := by
  unfold Dat.arrays
  exact bigSep_congr fun w _ => by rw [(arr_whole1 w).set_eq_univ]

theorem share1_0 (c : Dev nD) : (dat1 V c).share (0 : Fin 7) = fullShare.left := rfl
theorem share1_1 (c : Dev nD) : (dat1 V c).share (1 : Fin 7) = fullShare.right := rfl
theorem share1_2 (c : Dev nD) : (dat1 V c).share (2 : Fin 7) = fullShare := rfl
theorem share1_3 (c : Dev nD) : (dat1 V c).share (3 : Fin 7) = fullShare := rfl
theorem share1_4 (c : Dev nD) : (dat1 V c).share (4 : Fin 7) = fullShare := rfl
theorem share1_5 (c : Dev nD) : (dat1 V c).share (5 : Fin 7) = fullShare := rfl
theorem share1_6 (c : Dev nD) : (dat1 V c).share (6 : Fin 7) = fullShare := rfl

/-- The same, window by window. (Windows 0 and 1 hold a half each of the buffer they both read — `share1_0`,
    `share1_1` —, every other window its whole buffer.) -/
theorem arrays1_eq (c : Dev nD) (G : (w : Fin cfg1.W) → Buf (Elt F) ((cfg1.win w).arr.view.loc (c.tc : Thread nD τ))) :
    ((dat1 V c).arrays G : sProp 𝕄)
      = iprop((((c.tc : Thread nD τ).loc (Pipeline.arrRef spec1 (0 : Fin 7))) ↦{(dat1 V c).share (0 : Fin 7)} G (0 : Fin 7))
          ∗ (((c.tc : Thread nD τ).loc (Pipeline.arrRef spec1 (1 : Fin 7))) ↦{(dat1 V c).share (1 : Fin 7)} G (1 : Fin 7))
          ∗ (((c.tc : Thread nD τ).loc (Pipeline.arrRef spec1 (2 : Fin 7))) ↦{(dat1 V c).share (2 : Fin 7)} G (2 : Fin 7))
          ∗ (((c.tc : Thread nD τ).loc (Pipeline.arrRef spec1 (3 : Fin 7))) ↦{(dat1 V c).share (3 : Fin 7)} G (3 : Fin 7))
          ∗ (((c.tc : Thread nD τ).loc (Pipeline.arrRef spec1 (4 : Fin 7))) ↦{(dat1 V c).share (4 : Fin 7)} G (4 : Fin 7))
          ∗ (((c.tc : Thread nD τ).loc (Pipeline.arrRef spec1 (5 : Fin 7))) ↦{(dat1 V c).share (5 : Fin 7)} G (5 : Fin 7))
          ∗ (((c.tc : Thread nD τ).loc (Pipeline.arrRef spec1 (6 : Fin 7))) ↦{(dat1 V c).share (6 : Fin 7)} G (6 : Fin 7))) :=
  (arrays1_congr V c G).trans (bigSep_W1 _)

/-- The six buffers behind the arrays, each whole, written out. -/
theorem arrBufs1_eq (c : Dev nD) (Wv : (b : Ref sig .tc) → Buf (Elt F) ((c.tc : Thread nD τ).loc b)) :
    (Pipeline.arrBufs (Ix := Unit) (Name := ℕ) (U := UR sig nD τ) (Lvl := ℕ) spec1 c Wv : sProp 𝕄)
      = iprop((((c.tc : Thread nD τ).loc main_v6_0) ↦{fullShare} Wv main_v6_0) ∗ (((c.tc : Thread nD τ).loc main_v6_1) ↦{fullShare} Wv main_v6_1)
          ∗ (((c.tc : Thread nD τ).loc main_v7) ↦{fullShare} Wv main_v7) ∗ (((c.tc : Thread nD τ).loc main_v8) ↦{fullShare} Wv main_v8)
          ∗ (((c.tc : Thread nD τ).loc main_v9) ↦{fullShare} Wv main_v9) ∗ (((c.tc : Thread nD τ).loc main_v10) ↦{fullShare} Wv main_v10)) := by
  unfold Pipeline.arrBufs
  rw [image_arr1, bigSep_insert (by decide), bigSep_insert (by decide), bigSep_insert (by decide), bigSep_insert (by decide),
    bigSep_insert (by decide), bigSep_singleton]
  rfl

/-- DEALING: the six buffers, each whole at contents `Wv`, are the seven windows' arrays at the same contents — the
    buffer two windows read is halved between them. -/
theorem deal1 (c : Dev nD) (Wv : (b : Ref sig .tc) → Buf (Elt F) ((c.tc : Thread nD τ).loc b))
    (G : (w : Fin cfg1.W) → Buf (Elt F) ((cfg1.win w).arr.view.loc (c.tc : Thread nD τ))) (hG : ∀ w, G w = Wv (Pipeline.arrRef spec1 w)) :
    (Pipeline.arrBufs (Ix := Unit) (Name := ℕ) (U := UR sig nD τ) (Lvl := ℕ) spec1 c Wv : sProp 𝕄) ⊢ (dat1 V c).arrays G := by
  rw [arrBufs1_eq, arrays1_eq, hG (0 : Fin 7), hG (1 : Fin 7), hG (2 : Fin 7), hG (3 : Fin 7), hG (4 : Fin 7), hG (5 : Fin 7), hG (6 : Fin 7)]
  iintro ⟨H0, H1, H2, H3, H4, H5⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- GATHERING: the seven windows' arrays at contents read off `Wv` are the six buffers whole at `Wv` — the two halves
    of the shared buffer, at the same contents, join. -/
theorem gather1 (c : Dev nD) (Wv : (b : Ref sig .tc) → Buf (Elt F) ((c.tc : Thread nD τ).loc b))
    (G : (w : Fin cfg1.W) → Buf (Elt F) ((cfg1.win w).arr.view.loc (c.tc : Thread nD τ))) (hG : ∀ w, G w = Wv (Pipeline.arrRef spec1 w)) :
    (dat1 V c).arrays G ⊢ (Pipeline.arrBufs (Ix := Unit) (Name := ℕ) (U := UR sig nD τ) (Lvl := ℕ) spec1 c Wv : sProp 𝕄) := by
  rw [arrBufs1_eq, arrays1_eq, hG (0 : Fin 7), hG (1 : Fin 7), hG (2 : Fin 7), hG (3 : Fin 7), hG (4 : Fin 7), hG (5 : Fin 7), hG (6 : Fin 7)]
  iintro ⟨Hl, Hr, H1, H2, H3, H4, H5⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  isplitl [H4]; · iexact H4
  iexact H5

end Cert.Kernel.Region1

end
-- ==== Proof.BoundariesBits.lean ====
/-
  The contents of the program's buffers at each boundary of its run: at launch; after the host lines that slice the
  three vectors out of the feature array; after the first kernel region, whose four output arrays hold what its
  write-backs leave; after the host lines that recast the two label arrays; after the second kernel region, whose one
  output array holds what its write-backs leave; and after the closing host lines. With them, the facts each region's
  exit needs: its arrays at their exit contents, every other buffer as it was found.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.Region0Bits
import proofs.«135219_j66666482368607_2_alg».proof.Proof.Region1ArraysBits
import proofs.«135219_j66666482368607_2_alg».proof.Proof.Gen.Kernel.Regions
import Idealize.ShloMosaic.Lib.Pipeline.FrameSuffix
import Idealize.ShloMosaic.Lib.Pipeline.RegionsLoop
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Assemble

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Region0 Cert.Kernel.Region1

variable (m : (ℓ : Loc nD τ sig) → Buf (Elt F) ℓ)

/-- Core `c`'s buffers at launch. -/
abbrev W0 : Dev nD → Valuation τ sig (Elt F) := fun c b => m ((c : Dev nD), b)
/-- After the slicing lines: the first region's entry. -/
abbrev W1 : Dev nD → Valuation τ sig (Elt F) := fun c => StableHlo.after hostOps0 (W0 m c)
/-- The same read at the core's own references. -/
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the label recasts: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its one output array at what its write-backs leave, every other buffer as entered
    (its six input arrays among them: the region only reads them). -/
def W4 (c : Dev nD) : Valuation τ sig (Elt F) :=
  Function.update (W3 m c) (Proc.devRef .tc main_v10) ((dat1 (V3 m) c).arrAt 6 cfg1.N)
abbrev V4 : (c : Dev nD) → (b : Ref sig .tc) → Buf (Elt F) ((c : Thread nD τ).loc b) := fun c b => W4 m c b
theorem W4_out (c : Dev nD) : W4 m c (Proc.devRef .tc main_v10) = (dat1 (V3 m) c).arrAt 6 cfg1.N := by
  unfold W4; exact Function.update_self _ _ _
theorem W4_of_ne (c : Dev nD) (b : Ref sig .tc) (hb : b ≠ main_v10) :
    W4 m c (Proc.devRef .tc b) = W3 m c (Proc.devRef .tc b) := by
  unfold W4; exact Function.update_of_ne (fun e => hb (Proc.devRef_injective _ e)) _ _

/-- At the second region's exit every one of its arrays holds what the region's proof data computes for it: the output
    by definition, an input because an input's array is never written. -/
theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c _ (by decide)).symm
  | ⟨1, _⟩ => exact (((dat1 (V3 m) c).arrAt_in 1 rfl _).trans (A_eq1 (V3 m) c 1)).trans (W4_of_ne m c _ (by decide)).symm
  | ⟨2, _⟩ => exact (((dat1 (V3 m) c).arrAt_in 2 rfl _).trans (A_eq1 (V3 m) c 2)).trans (W4_of_ne m c _ (by decide)).symm
  | ⟨3, _⟩ => exact (((dat1 (V3 m) c).arrAt_in 3 rfl _).trans (A_eq1 (V3 m) c 3)).trans (W4_of_ne m c _ (by decide)).symm
  | ⟨4, _⟩ => exact (((dat1 (V3 m) c).arrAt_in 4 rfl _).trans (A_eq1 (V3 m) c 4)).trans (W4_of_ne m c _ (by decide)).symm
  | ⟨5, _⟩ => exact (((dat1 (V3 m) c).arrAt_in 5 rfl _).trans (A_eq1 (V3 m) c 5)).trans (W4_of_ne m c _ (by decide)).symm
  | ⟨6, _⟩ => exact (W4_out m c).symm
/-- Every buffer that is no array of the second region is as the region found it. -/
theorem hrest1 (c : Dev nD) : ∀ b, b ∉ Finset.univ.image (Pipeline.arrRef spec1) → V4 m c b = V3 m c b :=
  fun b hb => W4_of_ne m c b fun e => hb (by rw [image_arr1, e]; decide)

/-- After the closing host lines, and after the rectifier's two lines: the end of the run. -/
abbrev W5 : Dev nD → Valuation τ sig (Elt F) := fun c => StableHlo.after hostOps2 (W4 m c)
abbrev W6 : Dev nD → Valuation τ sig (Elt F) := fun c => StableHlo.after hostOps2_1 (W5 m c)

/-! ## What each stretch of host lines leaves alone -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h

/-- `main_arg0` reaches the end as launched: no host line writes it, no region changes it. -/
theorem W6_main_arg0 (c : Dev nD) : W6 m c (Proc.devRef .tc main_arg0) = m ((c : Thread nD τ).loc main_arg0) :=
  (W6_of m c main_arg0 (by decide)).trans <| (W5_of m c main_arg0 (by decide)).trans <| (W4_of_ne m c main_arg0 (by decide)).trans <|
    (W3_of m c main_arg0 (by decide)).trans <| (W2_of_ne m c main_arg0 (by decide)).trans <| (W1_of m c main_arg0 (by decide)).trans rfl

/-- `main_arg1` reaches the end as launched: no host line writes it, no region changes it. -/
theorem W6_main_arg1 (c : Dev nD) : W6 m c (Proc.devRef .tc main_arg1) = m ((c : Thread nD τ).loc main_arg1) :=
  (W6_of m c main_arg1 (by decide)).trans <| (W5_of m c main_arg1 (by decide)).trans <| (W4_of_ne m c main_arg1 (by decide)).trans <|
    (W3_of m c main_arg1 (by decide)).trans <| (W2_of_ne m c main_arg1 (by decide)).trans <| (W1_of m c main_arg1 (by decide)).trans rfl

/-- `main_arg2` reaches the end as launched: no host line writes it, no region changes it. -/
theorem W6_main_arg2 (c : Dev nD) : W6 m c (Proc.devRef .tc main_arg2) = m ((c : Thread nD τ).loc main_arg2) :=
  (W6_of m c main_arg2 (by decide)).trans <| (W5_of m c main_arg2 (by decide)).trans <| (W4_of_ne m c main_arg2 (by decide)).trans <|
    (W3_of m c main_arg2 (by decide)).trans <| (W2_of_ne m c main_arg2 (by decide)).trans <| (W1_of m c main_arg2 (by decide)).trans rfl

end Cert.Kernel.Assemble

end
-- ==== Proof.AssembleBits.lean ====
/-
  The whole run of the program, assembled: its two kernel regions, each entered from the buffers' contents at its
  boundary and left at the next boundary's, between straight lines of host operations. The first region's arrays are
  seven distinct buffers, split out of the core's buffers and put back as the library does it. The second region's
  seven arrays are six buffers: they are dealt among the windows at entry and gathered at exit. The run ends with every
  buffer at the last boundary's contents — the result and the three arguments among them.
-/
import proofs.«135219_j66666482368607_2_alg».proof.Proof.Gen.Kernel.Launch
import proofs.«135219_j66666482368607_2_alg».proof.Proof.Gen.Kernel.Skeleton
import proofs.«135219_j66666482368607_2_alg».proof.Proof.Gen.Kernel.Points
import proofs.«135219_j66666482368607_2_alg».proof.Proof.BoundariesBits
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.Kernel.Assemble

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Region0 Cert.Kernel.Region1

variable (m : (ℓ : Loc nD τ sig) → Buf (Elt F) ℓ) (ρ : Dev nD → PrngReg)

/-! ## The proof data family and the thread state -/

/-- Each region's proof data at its entry contents — a literal match on the region. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST REGION over the thread state: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Every buffer at `W3` is the second region's arrays at their entry contents — the buffer behind two of them halved —
    and the buffers that are none of its arrays. -/
theorem enter1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c),
    Pipeline.unscopedBufs_split₀ cfgs (1 : Fin 2) winFacts₀1.arr_unscoped c (V3 m c)]
  exact sep_mono (deal1 (V3 m) c (V3 m c) _ fun w => A_eq1 (V3 m) c w) .rfl

/-- The second region's arrays at their exit contents and the buffers that are none of its arrays, as found, are every
    buffer at `W4`: the two halves join, and off the output array `W4` is `W3`. -/
theorem leave1 (c : Dev nD) :
    iprop((dat1 (V3 m) c).arrays ((dat1 (V3 m) c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs (1 : Fin 2) winFacts₀1.arr_unscoped c (V4 m c)]
  refine sep_mono (gather1 (V3 m) c (V4 m c) _ fun w => hF1 m c w) (Entails.of_eq ?_)
  unfold Pipeline.unscopedRest
  exact bigSep_congr fun b hb => by rw [hrest1 m c b (Finset.mem_sdiff.mp hb).2]

set_option backward.isDefEq.respectTransparency.types false in
/-- THE SECOND REGION over the thread state: entered from every buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

/-! ## The program as segments, and the run -/

/-- The program's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)) ]

/-- The last thread state without the `owes`: every buffer at the last boundary's contents. -/
abbrev Tₙ (c : Dev nD) : sProp 𝕄 := StableHlo.held (c : Thread nD τ) (Pipeline.ucRefs τ sig) (W6 m c)

set_option backward.isDefEq.respectTransparency.types false in
/-- THE RUN: from any memory with zero counters every weakly fair execution of the program terminates, nothing
    faulting, and every final state holds each of the core's buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun c => sep_mono .rfl (show R c ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      unfold Tₙ StableHlo.held
      iintro ⟨Hh, HSI⟩
      imodintro
      iapply (pointsTo_read_all (Pipeline.ucRefs τ sig) (fun b => (((c : Thread nD τ)).1, b)) (W6 m c) s')
      isplitl [Hh]; · iexact Hh
      iexact HSI)
    (hQ := fun s h c => h c)

end Cert.Kernel.Assemble

end
-- ==== Proof.Region0.lean ====
/-
  The first of the kernel program's two regions: the prologue. On a grid of eight points it takes a block of 512 rows of
  each of the three feature arrays (anchors, positives, negatives; 1024 entries a row), divides every row by its
  Euclidean norm clamped below, and leaves four blocks: the anchors' and the negatives' directions in half precision,
  and for every row one minus the inner product of the anchor's direction with the positive's, and with the negative's.

  Stated once for every float instance: what each window's staging buffer holds after the body at a point (the three
  fetched blocks as found; each written buffer as the one whole-buffer store of the body's payload over the fetched
  blocks), the proof data of the region at given entry contents of the arrays, and the body obligation at every point.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 by 1024 elements: the structural check recurses once per coordinate of the long axis
set_option maxRecDepth 16384

noncomputable section

namespace Cert.KernelIdeal.Region0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at these
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchors' staging buffer holds its block at every point, for any proof data whose array is the entry contents
    and whose body leaves the block in place: the window is not cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the positives' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the negatives' staging buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 512 by 1024 buffer. -/
abbrev rWide : Rect S512x1024 := Rect.unit (s := S512x1024) ![0, 0] S512x1024.size inb_S512x1024_S512x1024_0_0
/-- The whole of a 512 by 1 buffer. -/
abbrev rCol : Rect S512x1 := Rect.unit (s := S512x1) ![0, 0] S512x1.size inb_S512x1_S512x1_0_0

/-! ## What the body leaves in each written window's buffer -/

/-- The anchors' directions in half precision, from the three fetched blocks: the body's one store into window 3. -/
def out0_3 (x0 x1 x2 : Vec F S512x1024 .f32) : Vec F S512x1024 .bf16 :=
  View.canon [⟨rWide, k0_pay6 (View.ld x0 rWide)⟩]

/-- The one store is the whole buffer, so it covers it. -/
theorem cover0_3 (p0 : Vec F S512x1024 .bf16) (y : S512x1024.Idx) :
    ∃ pc ∈ ([⟨rWide, p0⟩] : List (View.Piece (Elt F) S512x1024 .bf16)), y ∈ pc.1.set :=
  View.cover_of_tiled [⟨rWide, p0⟩] S512x1024.size (by rfl) y

/-- The negatives' directions in half precision: the body's one store into window 4. -/
def out0_4 (x0 x1 x2 : Vec F S512x1024 .f32) : Vec F S512x1024 .bf16 :=
  View.canon [⟨rWide, k0_pay1 (k0_pay3 (View.ld x2 rWide))⟩]

/-- The one store is the whole buffer, so it covers it. -/
theorem cover0_4 (p0 : Vec F S512x1024 .bf16) (y : S512x1024.Idx) :
    ∃ pc ∈ ([⟨rWide, p0⟩] : List (View.Piece (Elt F) S512x1024 .bf16)), y ∈ pc.1.set :=
  View.cover_of_tiled [⟨rWide, p0⟩] S512x1024.size (by rfl) y

/-- One minus the inner product of each anchor's direction with its positive's: the body's one store into window 5. -/
def out0_5 (x0 x1 x2 : Vec F S512x1024 .f32) : Vec F S512x1 .f32 :=
  View.canon [⟨rCol, k0_pay4 (View.ld x0 rWide) (View.ld x1 rWide)⟩]

/-- The one store is the whole buffer, so it covers it. -/
theorem cover0_5 (p0 : Vec F S512x1 .f32) (y : S512x1.Idx) :
    ∃ pc ∈ ([⟨rCol, p0⟩] : List (View.Piece (Elt F) S512x1 .f32)), y ∈ pc.1.set :=
  View.cover_of_tiled [⟨rCol, p0⟩] S512x1.size (by rfl) y

/-- One minus the inner product of each anchor's direction with its negative's: the body's one store into window 6. -/
def out0_6 (x0 x1 x2 : Vec F S512x1024 .f32) : Vec F S512x1 .f32 :=
  View.canon [⟨rCol, k0_pay5 (View.ld x0 rWide) (View.ld x2 rWide)⟩]

/-- The one store is the whole buffer, so it covers it. -/
theorem cover0_6 (p0 : Vec F S512x1 .f32) (y : S512x1.Idx) :
    ∃ pc ∈ ([⟨rCol, p0⟩] : List (View.Piece (Elt F) S512x1 .f32)), y ∈ pc.1.set :=
  View.cover_of_tiled [⟨rCol, p0⟩] S512x1.size (by rfl) y

/-! ## The body's triple -/

set_option maxHeartbeats 1000000 in
/-- The body on whole staging memrefs, the three fetched buffers at contents `x0 x1 x2` and the four written ones at
    anything, runs to the continuation holding the fetched buffers as they were and each written buffer at its
    `out0_w` of the three. -/
theorem sound_kernel0 (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1 .f32) (harg6 : arg6.IsWhole)
    (arg7 : Memref sig .tc .vmem S512x1 .f32) (harg7 : arg7.IsWhole)
    (x0 x1 x2 : Vec F S512x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E
          (cc0__prologue_kernel i arg1 harg1 arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_unfold [cc0__prologue_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The region's proof data -/

/-- The proof data of the region on core `c`: the arrays as the region finds them; after the body at point `t` each
    fetched buffer at its block and each written buffer at its `out0_w` of the three fetched blocks; the invariant the
    scoped buffers that are not this region's and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) := by dsimp only [dat0]

/-- Each fetched buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the fetched buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region0

end
-- ==== Proof.Region1Kit.lean ====
/-
  The second kernel region (the pairwise mining over an 8 x 8 grid of 512 x 512 blocks of row pairs), as far as its
  run needs before the body is opened: each window's block at a grid point, read off the array the region finds; the
  fact that an input's staging buffer holds its block at every point; the two conditions of the body in closed form over
  the 64 points — "the column block is the first" (point ≡ 0 mod 8) and "the column block is not before the row
  block" (point / 8 ≤ point % 8) —; where the accumulator's window is idle (neither condition holds), and where
  its staging buffer is fresh (the first column block of each row block: the previous point wrote it back).
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, the idle points and the fresh points -/

/-- The body resets the accumulator: the column block is the first. -/
abbrev cond1_1 (i : grid1.Coords) : Prop := k1_cond1 i = 1#1
/-- The body adds this block's sums: the column block is not before the row block. -/
abbrev cond1_2 (i : grid1.Coords) : Prop := k1_cond2 i = 1#1

/-- The reset happens at the points ≡ 0 (mod 8) — decided over the grid. -/
theorem hcond1_1 : ∀ t : Fin cfg1.N, cond1_1 (grid1.coords t) ↔ t.val % 8 = 0 :=
  (by decide +kernel : ∀ t : Fin grid1.N, cond1_1 (grid1.coords t) ↔ t.val % 8 = 0)
/-- The block's sums are added at the points whose column block is not before the row block. -/
theorem hcond1_2 : ∀ t : Fin cfg1.N, cond1_2 (grid1.coords t) ↔ t.val / 8 ≤ t.val % 8 :=
  (by decide +kernel : ∀ t : Fin grid1.N, cond1_2 (grid1.coords t) ↔ t.val / 8 ≤ t.val % 8)
/-- The accumulator's window is idle exactly where neither happens. -/
theorem hidle1_6 : ∀ t : Fin cfg1.N, cfg1.idle 6 (grid1.coords t) = (!decide (t.val % 8 = 0) && !decide (t.val / 8 ≤ t.val % 8)) :=
  (by decide +kernel : ∀ t : Fin grid1.N, idle1 6 (grid1.coords t) = (!decide (t.val % 8 = 0) && !decide (t.val / 8 ≤ t.val % 8)))
/-- Its staging buffer holds nothing of the body's at the points ≡ 0 (mod 8), and only there. -/
theorem hfresh1_6 : ∀ t : Fin cfg1.N, cfg1.fresh 6 t.val = decide (t.val % 8 = 0) :=
  (by decide +kernel : ∀ t : Fin grid1.N, cfg1.fresh 6 t.val = decide (t.val % 8 = 0))

/-! ## The staging memrefs -/

/-- One staging buffer of the accumulator's window, through which its contents are stated. -/
abbrev VO1_6 : View sig .tc .vmem S1x8x128 .f32 := (Memref.whole cc1_stg6_0 : Memref sig .tc .vmem S1x8x128 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8x128 .f32 := win1_6.stage (cfg1.slots t 6)
abbrev hs1_6 (t : Fin cfg1.N) : (ms1_6 t).IsWhole := hstage1_6 ((cfg1.slots t 6).cast nbuf1_6)

end Cert.KernelIdeal.Region1

end
-- ==== Proof.Region1RunBA.lean ====
/-
  The mining body at a grid point where the column block is not the first and is not before the row block: the
  accumulator is not reset; the block's eight sums are computed from the three direction blocks and the three label
  blocks and added, each spread along its row of the 8 x 128 accumulator, to what the accumulator held.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region1Kit
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's one store leaves in the accumulator's staging memref, as pieces, at a point that does not reset
    and does add — with the proof that on whole staging memrefs, the inputs' at their contents and the accumulator's
    at its running contents `xo6`, the body runs to the continuation holding the inputs' as they were and the
    accumulator's buffer with those pieces written. -/
noncomputable def kernelRun1_BA (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i)
    (x0 x1 x2 : Vec F S512x1024 .bf16) (x3 : Vec F S512x1 .i32) (x4 x5 : Vec F S1x512 .i32) (xo6 : Vec F S1x8x128 .f32) :
    { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__pair_mine_kernel i arg2 harg2 arg3 harg3 arg4 harg4 arg5 harg5 arg6 harg6 arg7 harg7 arg8 harg8) K } := by
  refine ⟨?_, fun E K => ?run⟩
  case run =>
    haveI : Fact (cond1_2 i) := ⟨hc2⟩
    simp only [cc1__pair_mine_kernel_eq_skeleton]; unfold cc1__pair_mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Region1

end
-- ==== Proof.Region1RunAA.lean ====
/-
  The mining body at the one grid point where the column block is the first and is not before the row block (the
  first point of all): the accumulator is reset to zero, then the block's eight sums, each spread along its row of the
  8 x 128 accumulator, are added to the zeros just stored.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region1RunBA
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's two stores leave in the accumulator's staging memref, as pieces (last first), at the point that both
    resets and adds — with the proof that on whole staging memrefs, the inputs' at their contents and the accumulator's
    at anything, the body runs to the continuation holding the inputs' as they were and the accumulator's buffer with
    those pieces written. -/
noncomputable def kernelRun1_AA (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i)
    (x0 x1 x2 : Vec F S512x1024 .bf16) (x3 : Vec F S512x1 .i32) (x4 x5 : Vec F S1x512 .i32) :
    { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__pair_mine_kernel i arg2 harg2 arg3 harg3 arg4 harg4 arg5 harg5 arg6 harg6 arg7 harg7 arg8 harg8) K } := by
  refine ⟨?_, fun E K => ?run⟩
  case run =>
    haveI : Fact (cond1_1 i) := ⟨hc1⟩
    haveI : Fact (cond1_2 i) := ⟨hc2⟩
    simp only [cc1__pair_mine_kernel_eq_skeleton]; unfold cc1__pair_mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Region1

end
-- ==== Proof.Region1RunAB.lean ====
/-
  The mining body at a grid point where the column block is the first but lies before the row block: the accumulator
  is reset to zero and nothing is added (every pair of the block has its column before its row).
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region1RunAA
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's one store leaves in the accumulator's staging memref, as pieces, at a point that resets and does not
    add — with the proof that on whole staging memrefs, the inputs' at their contents and the accumulator's at anything,
    the body runs to the continuation holding the inputs' as they were and the accumulator's buffer with those pieces
    written. -/
noncomputable def kernelRun1_AB (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i)
    (x0 x1 x2 : Vec F S512x1024 .bf16) (x3 : Vec F S512x1 .i32) (x4 x5 : Vec F S1x512 .i32) :
    { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__pair_mine_kernel i arg2 harg2 arg3 harg3 arg4 harg4 arg5 harg5 arg6 harg6 arg7 harg7 arg8 harg8) K } := by
  refine ⟨?_, fun E K => ?run⟩
  case run =>
    haveI : Fact (cond1_1 i) := ⟨hc1⟩
    simp only [cc1__pair_mine_kernel_eq_skeleton]; unfold cc1__pair_mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Region1

end
-- ==== Proof.Region1RunBB.lean ====
/-
  The mining body at a grid point where the column block is neither the first nor at or after the row block: neither
  branch is taken, no memory is touched, and whatever is held passes through to the continuation.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region1RunAB
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point that neither resets nor adds the body does nothing: any resource passes through it. -/
theorem kernelRun1_BB (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : ¬cond1_2 i)
    (E : Set ℕ) (K : PUnit → sProp 𝕄) (R : sProp 𝕄) :
    iprop(R ∗ (R -∗ K ⟨⟩)) ⊢ wp frame (wpE (defs₀ (F := F)) Variants.none c none) E (cc1__pair_mine_kernel i arg2 harg2 arg3 harg3 arg4 harg4 arg5 harg5 arg6 harg6 arg7 harg7 arg8 harg8) K := by
  simp only [cc1__pair_mine_kernel_eq_skeleton]; unfold cc1__pair_mine_kernel_skel
  iintro ⟨HR, Hk⟩
  sl_exec (disch := first | exact hc1 | exact hc2)
  sl_step
  iapply Hk
  iexact HR

end Cert.KernelIdeal.Region1

end
-- ==== Proof.Region1.lean ====
/-
  The second kernel region, point by point. What the accumulator's staging buffer holds after the body at each of the
  64 grid points is one recursion over the points: at the first column block of a row block the reset (and, at the
  very first point, the first block's sums added to it); at a later column block not before the row block, the
  block's sums added to what the point before left; at a column block before the row block, what the point before
  left, untouched. With it the region's proof data — every input window's buffer at its block, the accumulator's at
  that recursion, the two input windows that read the same array each holding half of it — and the body obligation at
  every point: the point's case is read off its number, and the case's run applies.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region1RunBB
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator's staging buffer -/

/-- The two stores of the reset-and-add case tile the accumulator's block, so they cover it. -/
theorem cover1_AA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i)
    (x0 x1 x2 : Vec F S512x1024 .bf16) (x3 : Vec F S512x1 .i32) (x4 x5 : Vec F S1x512 .i32) (y : S1x8x128.Idx) :
    ∃ pc ∈ (kernelRun1_AA (F := F) c i arg2 harg2 arg3 harg3 arg4 harg4 arg5 harg5 arg6 harg6 arg7 harg7 arg8 harg8 hc1 hc2 x0 x1 x2 x3 x4 x5).1, y ∈ pc.1.set :=
  View.cover_of_tiledL (kernelRun1_AA (F := F) c i arg2 harg2 arg3 harg3 arg4 harg4 arg5 harg5 arg6 harg6 arg7 harg7 arg8 harg8 hc1 hc2 x0 x1 x2 x3 x4 x5).1 S1x8x128.size (by sl_kernel_rfl) y

/-- What the reset-and-add case leaves: its pieces read back. -/
def out1_AA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i)
    (x0 x1 x2 : Vec F S512x1024 .bf16) (x3 : Vec F S512x1 .i32) (x4 x5 : Vec F S1x512 .i32) : Vec F S1x8x128 .f32 :=
  VO1_6.read (Elt F) (VO1_6.writes (Elt F) VO1_6.junk (kernelRun1_AA (F := F) c i arg2 harg2 arg3 harg3 arg4 harg4 arg5 harg5 arg6 harg6 arg7 harg7 arg8 harg8 hc1 hc2 x0 x1 x2 x3 x4 x5).1)

/-- The one store of the reset-only case covers the accumulator's block. -/
theorem cover1_AB_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i)
    (x0 x1 x2 : Vec F S512x1024 .bf16) (x3 : Vec F S512x1 .i32) (x4 x5 : Vec F S1x512 .i32) (y : S1x8x128.Idx) :
    ∃ pc ∈ (kernelRun1_AB (F := F) c i arg2 harg2 arg3 harg3 arg4 harg4 arg5 harg5 arg6 harg6 arg7 harg7 arg8 harg8 hc1 hc2 x0 x1 x2 x3 x4 x5).1, y ∈ pc.1.set :=
  View.cover_of_tiledL (kernelRun1_AB (F := F) c i arg2 harg2 arg3 harg3 arg4 harg4 arg5 harg5 arg6 harg6 arg7 harg7 arg8 harg8 hc1 hc2 x0 x1 x2 x3 x4 x5).1 S1x8x128.size (by sl_kernel_rfl) y

/-- What the reset-only case leaves: its pieces read back. -/
def out1_AB_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i)
    (x0 x1 x2 : Vec F S512x1024 .bf16) (x3 : Vec F S512x1 .i32) (x4 x5 : Vec F S1x512 .i32) : Vec F S1x8x128 .f32 :=
  VO1_6.read (Elt F) (VO1_6.writes (Elt F) VO1_6.junk (kernelRun1_AB (F := F) c i arg2 harg2 arg3 harg3 arg4 harg4 arg5 harg5 arg6 harg6 arg7 harg7 arg8 harg8 hc1 hc2 x0 x1 x2 x3 x4 x5).1)

/-- The one store of the add-only case covers the accumulator's block. -/
theorem cover1_BA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i)
    (x0 x1 x2 : Vec F S512x1024 .bf16) (x3 : Vec F S512x1 .i32) (x4 x5 : Vec F S1x512 .i32) (xo6 : Vec F S1x8x128 .f32) (y : S1x8x128.Idx) :
    ∃ pc ∈ (kernelRun1_BA (F := F) c i arg2 harg2 arg3 harg3 arg4 harg4 arg5 harg5 arg6 harg6 arg7 harg7 arg8 harg8 hc1 hc2 x0 x1 x2 x3 x4 x5 xo6).1, y ∈ pc.1.set :=
  View.cover_of_tiledL (kernelRun1_BA (F := F) c i arg2 harg2 arg3 harg3 arg4 harg4 arg5 harg5 arg6 harg6 arg7 harg7 arg8 harg8 hc1 hc2 x0 x1 x2 x3 x4 x5 xo6).1 S1x8x128.size (by sl_kernel_rfl) y

/-- What the add-only case leaves over the running contents `xo6`: its pieces read back. -/
def out1_BA_6 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i)
    (x0 x1 x2 : Vec F S512x1024 .bf16) (x3 : Vec F S512x1 .i32) (x4 x5 : Vec F S1x512 .i32) (xo6 : Vec F S1x8x128 .f32) : Vec F S1x8x128 .f32 :=
  VO1_6.read (Elt F) (VO1_6.writes (Elt F) VO1_6.junk (kernelRun1_BA (F := F) c i arg2 harg2 arg3 harg3 arg4 harg4 arg5 harg5 arg6 harg6 arg7 harg7 arg8 harg8 hc1 hc2 x0 x1 x2 x3 x4 x5 xo6).1)

/-! ## The accumulation, point by point -/

/-- One point's step: from what the point before left (`prev`) to what this point leaves, by the point's case. -/
def step1 (c : Dev nD) (t : Fin cfg1.N) (prev : Vec F S1x8x128 .f32) : Vec F S1x8x128 .f32 :=
  if h1 : t.val % 8 = 0 then
    if h2 : t.val / 8 ≤ t.val % 8 then
      out1_AA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) ((hcond1_2 t).mpr h2) (iblk1 V c 0 t) (iblk1 V c 1 t) (iblk1 V c 2 t) (iblk1 V c 3 t) (iblk1 V c 4 t) (iblk1 V c 5 t)
    else
      out1_AB_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) (fun h => h2 ((hcond1_2 t).mp h)) (iblk1 V c 0 t) (iblk1 V c 1 t) (iblk1 V c 2 t) (iblk1 V c 3 t) (iblk1 V c 4 t) (iblk1 V c 5 t)
  else
    if h2 : t.val / 8 ≤ t.val % 8 then
      out1_BA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h1 ((hcond1_1 t).mp h)) ((hcond1_2 t).mpr h2) (iblk1 V c 0 t) (iblk1 V c 1 t) (iblk1 V c 2 t) (iblk1 V c 3 t) (iblk1 V c 4 t) (iblk1 V c 5 t) prev
    else prev

/-- THE ACCUMULATION: what the accumulator's staging buffer holds after the body at position `n`. (At position 0 the
    case resets, so what it is handed does not matter: the zero block stands in.) -/
def outsAt1 (c : Dev nD) : (n : ℕ) → n < cfg1.N → Vec F S1x8x128 .f32
  | 0, hn => step1 V c ⟨0, hn⟩ (k1_pay1 (F := F))
  | n + 1, hn => step1 V c ⟨n + 1, hn⟩ (outsAt1 c n (Nat.lt_of_succ_lt hn))

/-- At a later point the accumulation is one step from the point before. -/
theorem outsAt1_succ (c : Dev nD) (t : Fin cfg1.N) (ht : t.val ≠ 0) :
    outsAt1 V c t.val t.isLt = step1 V c t (outsAt1 V c (t.val - 1) (Nat.lt_of_le_of_lt (Nat.sub_le _ _) t.isLt)) := by
  obtain ⟨n, hn⟩ := t
  cases n with
  | zero => exact absurd rfl ht
  | succ n => rfl

/-- At a point that resets and adds. -/
theorem outsAt1_AA (c : Dev nD) (t : Fin cfg1.N) (h1 : t.val % 8 = 0) (h2 : t.val / 8 ≤ t.val % 8) :
    outsAt1 V c t.val t.isLt = out1_AA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) ((hcond1_2 t).mpr h2) (iblk1 V c 0 t) (iblk1 V c 1 t) (iblk1 V c 2 t) (iblk1 V c 3 t) (iblk1 V c 4 t) (iblk1 V c 5 t) := by
  obtain ⟨n, hn⟩ := t
  cases n with
  | zero => exact (show outsAt1 V c 0 hn = step1 V c ⟨0, hn⟩ _ from rfl).trans (by unfold step1; rw [dif_pos h1, dif_pos h2])
  | succ n => exact (show outsAt1 V c (n + 1) hn = step1 V c ⟨n + 1, hn⟩ _ from rfl).trans (by unfold step1; rw [dif_pos h1, dif_pos h2])

/-- At a point that only resets. -/
theorem outsAt1_AB (c : Dev nD) (t : Fin cfg1.N) (h1 : t.val % 8 = 0) (h2 : ¬ t.val / 8 ≤ t.val % 8) :
    outsAt1 V c t.val t.isLt = out1_AB_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) (fun h => h2 ((hcond1_2 t).mp h)) (iblk1 V c 0 t) (iblk1 V c 1 t) (iblk1 V c 2 t) (iblk1 V c 3 t) (iblk1 V c 4 t) (iblk1 V c 5 t) := by
  obtain ⟨n, hn⟩ := t
  cases n with
  | zero => exact (show outsAt1 V c 0 hn = step1 V c ⟨0, hn⟩ _ from rfl).trans (by unfold step1; rw [dif_pos h1, dif_neg h2])
  | succ n => exact (show outsAt1 V c (n + 1) hn = step1 V c ⟨n + 1, hn⟩ _ from rfl).trans (by unfold step1; rw [dif_pos h1, dif_neg h2])

/-- At a point that only adds: over what the point before left. -/
theorem outsAt1_BA (c : Dev nD) (t : Fin cfg1.N) (h1 : ¬ t.val % 8 = 0) (h2 : t.val / 8 ≤ t.val % 8) :
    outsAt1 V c t.val t.isLt = out1_BA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h1 ((hcond1_1 t).mp h)) ((hcond1_2 t).mpr h2) (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)) := by
  rw [outsAt1_succ V c t (fun h0 => h1 (by rw [h0]))]; unfold step1; rw [dif_neg h1, dif_pos h2]

/-- At a point that does neither: what the point before left. -/
theorem outsAt1_BB (c : Dev nD) (t : Fin cfg1.N) (h1 : ¬ t.val % 8 = 0) (h2 : ¬ t.val / 8 ≤ t.val % 8) :
    outsAt1 V c t.val t.isLt = outsAt1 V c (t.val - 1) (Nat.lt_of_le_of_lt (Nat.sub_le _ _) t.isLt) := by
  rw [outsAt1_succ V c t (fun h0 => h1 (by rw [h0]))]; unfold step1; rw [dif_neg h1, dif_neg h2]

/-! ## The region's proof data -/

/-- The proof data of the region on core `c`: the arrays as the region finds them; after the body at point `t` each
    input's buffer at its block and the accumulator's at the accumulation; the invariant the plain one (the scoped rest
    and the generator register); nothing owed. The two direction windows that read one array hold a half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Past the first column block of a row block the accumulator's staging buffer holds what the body left at the point
    before: it was not written back in between, and through the points that leave it alone the accumulation carries. -/
theorem before1_6_B (c : Dev nD) (t : Fin cfg1.N) (h1 : ¬ t.val % 8 = 0) (d) :
    (dat1 V c).before 6 t d = outsAt1 V c (t.val - 1) (Nat.lt_of_le_of_lt (Nat.sub_le _ _) t.isLt) := by
  have hcarry : ∀ (t : Fin cfg1.N) (_ : t.val ≠ 0), cfg1.idle 6 (cfg1.grid.coords t) = true → cfg1.fresh 6 t.val = false →
      (dat1 V c).after 6 t = (dat1 V c).after 6 ⟨t.val - 1, by omega⟩ := fun t ht hi _ => by
    have hi' := hidle1_6 t
    rw [show cfg1.idle 6 (grid1.coords t) = cfg1.idle 6 (cfg1.grid.coords t) from rfl, hi] at hi'
    have hh : ¬ t.val % 8 = 0 ∧ ¬ t.val / 8 ≤ t.val % 8 := by
      by_cases a : t.val % 8 = 0 <;> by_cases b : t.val / 8 ≤ t.val % 8 <;> simp [a, b] at hi' ⊢
    rw [after1_6, after1_6]
    exact outsAt1_BB V c t hh.1 hh.2
  rw [(dat1 V c).before_out_traj 6 rfl (fun _ _ => rfl) hcarry t.val t rfl d, hfresh1_6 t,
    if_neg (by simpa using h1), after1_6]

/-! ## The body obligation, at a generic point -/

section Obligation

variable (V : (c : Dev nD) → (b : Ref sig .tc) → Buf (Elt F) ((c : Thread nD τ).loc b))

/-- What the body is called with at point `t`: the invariant, nothing owed, every window's current staging buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What the body leaves in the accumulator's current staging buffer at point `t`: the accumulation — or, at a point
    that leaves the buffer alone and does not write it back, the buffer as it was handed. -/
def leaves6 (c : Dev nD) (t : Fin cfg1.N) : sProp 𝕄 :=
  match cfg1.idle 6 (cfg1.grid.coords t) with
  | true =>
    match (cfg1.win 6).flush t with
    | false => iprop(∃ d, owns (c : Thread nD τ) (ms1_6 t) fullShare ((dat1 V c).before 6 t d))
    | true => owns (c : Thread nD τ) (ms1_6 t) fullShare ((dat1 V c).after 6 t)
  | false => owns (c : Thread nD τ) (ms1_6 t) fullShare ((dat1 V c).after 6 t)

/-- At a point that stores into the accumulator: the accumulation. -/
theorem leaves6_live (c : Dev nD) (t : Fin cfg1.N) (hi : cfg1.idle 6 (cfg1.grid.coords t) = false) :
    leaves6 V c t = owns (c : Thread nD τ) (ms1_6 t) fullShare ((dat1 V c).after 6 t) := by
  unfold leaves6; rw [hi]

/-- At a point that leaves it alone and does not write it back: as handed. -/
theorem leaves6_idle (c : Dev nD) (t : Fin cfg1.N) (hi : cfg1.idle 6 (cfg1.grid.coords t) = true) (hf : (cfg1.win 6).flush t = false) :
    leaves6 V c t = iprop(∃ d, owns (c : Thread nD τ) (ms1_6 t) fullShare ((dat1 V c).before 6 t d)) := by
  unfold leaves6; rw [hi, hf]

/-- What it returns: every input's buffer at its block; the accumulator's as `leaves6` says. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ leaves6 V c t)

set_option maxHeartbeats 1600000 in
/-- The body at any point: the inputs' memrefs hold their blocks; the point's number says which of the four cases it
    is in; where the case reads the accumulator before overwriting it, the accumulator holds what the point before left;
    so the case's run applies. The invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h1 : t.val % 8 = 0
  · have hi : cfg1.idle 6 (cfg1.grid.coords t) = false := (hidle1_6 t).trans (by simp [h1])
    rw [leaves6_live V c t hi, after1_6]
    by_cases h2 : t.val / 8 ≤ t.val % 8
    · rw [outsAt1_AA V c t h1 h2]
      unfold out1_AA_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_AA (F := F) c (grid1.coords t) _ _ _ _ _ _ _ _ _ _ _ _ _ _ ((hcond1_1 t).mpr h1) ((hcond1_2 t).mpr h2) (iblk1 V c 0 t) (iblk1 V c 1 t) (iblk1 V c 2 t) (iblk1 V c 3 t) (iblk1 V c 4 t) (iblk1 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_AA_6 (F := F) c _ _ _ _ _ _ _ _ _ _ _ _ _ _ _ _ _ _ _ _ _ _ _)
    · rw [outsAt1_AB V c t h1 h2]
      unfold out1_AB_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_AB (F := F) c (grid1.coords t) _ _ _ _ _ _ _ _ _ _ _ _ _ _ ((hcond1_1 t).mpr h1) (fun h => h2 ((hcond1_2 t).mp h)) (iblk1 V c 0 t) (iblk1 V c 1 t) (iblk1 V c 2 t) (iblk1 V c 3 t) (iblk1 V c 4 t) (iblk1 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_AB_6 (F := F) c _ _ _ _ _ _ _ _ _ _ _ _ _ _ _ _ _ _ _ _ _ _ _)
  · by_cases h2 : t.val / 8 ≤ t.val % 8
    · have hi : cfg1.idle 6 (cfg1.grid.coords t) = false := (hidle1_6 t).trans (by simp [h2])
      rw [leaves6_live V c t hi, after1_6, outsAt1_BA V c t h1 h2]
      simp only [before1_6_B V c t h1]
      unfold out1_BA_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_BA (F := F) c (grid1.coords t) _ _ _ _ _ _ _ _ _ _ _ _ _ _ (fun h => h1 ((hcond1_1 t).mp h)) ((hcond1_2 t).mpr h2) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_BA_6 (F := F) c _ _ _ _ _ _ _ _ _ _ _ _ _ _ _ _ _ _ _ _ _ _ _ _)
    · have hi : cfg1.idle 6 (cfg1.grid.coords t) = true := (hidle1_6 t).trans (by simp [h1, h2])
      have hN : t.val < 64 := lt_of_lt_of_eq t.isLt (show cfg1.N = 64 from N_1)
      have hf : (cfg1.win 6).flush t = false := Bool.eq_false_iff.mpr fun h => by
        have := (flush1_6 t).mp h; omega
      rw [leaves6_idle V c t hi hf]
      iintro H
      iapply (kernelRun1_BB (F := F) c (grid1.coords t) _ _ _ _ _ _ _ _ _ _ _ _ _ _ (fun h => h1 ((hcond1_1 t).mp h)) (fun h => h2 ((hcond1_2 t).mp h)) Set.univ _ _)
      isplitl [H]; · iexact H
      iintro ⟨HΦ, Ho, ⟨%d0, H0⟩, ⟨%d1, H1⟩, ⟨%d2, H2⟩, ⟨%d3, H3⟩, ⟨%d4, H4⟩, ⟨%d5, H5⟩, ⟨%d6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Obligation

end Cert.KernelIdeal.Region1

end
-- ==== Proof.Region1Arrays.lean ====
/-
  The second kernel region's arrays and the buffers behind them. Seven windows, six buffers: the two direction
  windows that feed the row block and the column block of anchors read ONE array. Outside the region each of the six
  buffers is held whole; inside, each window holds its array at the share the region's proof data gives it — a half
  each for the two that share, the whole for the others. Dealing the six buffers among the seven windows halves the
  shared one; gathering them joins the halves again.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region1
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows' arrays: six of them. -/
theorem image_arr1 : Finset.univ.image (Pipeline.arrRef spec1)
    = ({main_v6_0, main_v6_1, main_v7, main_v8, main_v9, main_v10} : Finset (Ref sig .tc)) := by decide

/-- The region's arrays as plain holdings of whole buffers, each at its window's share. -/
theorem arrays1_congr (c : Dev nD) (G : (w : Fin cfg1.W) → Buf (Elt F) ((cfg1.win w).arr.view.loc (c.tc : Thread nD τ))) :
    ((dat1 V c).arrays G : sProp 𝕄)
      = bigSep Finset.univ fun w => (((c.tc : Thread nD τ).loc (Pipeline.arrRef spec1 w)) ↦{(dat1 V c).share w} G w : sProp 𝕄) := by
  unfold Dat.arrays
  exact bigSep_congr fun w _ => by rw [(arr_whole1 w).set_eq_univ]

theorem share1_0 (c : Dev nD) : (dat1 V c).share (0 : Fin 7) = fullShare.left := rfl
theorem share1_1 (c : Dev nD) : (dat1 V c).share (1 : Fin 7) = fullShare.right := rfl
theorem share1_2 (c : Dev nD) : (dat1 V c).share (2 : Fin 7) = fullShare := rfl
theorem share1_3 (c : Dev nD) : (dat1 V c).share (3 : Fin 7) = fullShare := rfl
theorem share1_4 (c : Dev nD) : (dat1 V c).share (4 : Fin 7) = fullShare := rfl
theorem share1_5 (c : Dev nD) : (dat1 V c).share (5 : Fin 7) = fullShare := rfl
theorem share1_6 (c : Dev nD) : (dat1 V c).share (6 : Fin 7) = fullShare := rfl

/-- The same, window by window. (Windows 0 and 1 hold a half each of the buffer they both read — `share1_0`,
    `share1_1` —, every other window its whole buffer.) -/
theorem arrays1_eq (c : Dev nD) (G : (w : Fin cfg1.W) → Buf (Elt F) ((cfg1.win w).arr.view.loc (c.tc : Thread nD τ))) :
    ((dat1 V c).arrays G : sProp 𝕄)
      = iprop((((c.tc : Thread nD τ).loc (Pipeline.arrRef spec1 (0 : Fin 7))) ↦{(dat1 V c).share (0 : Fin 7)} G (0 : Fin 7))
          ∗ (((c.tc : Thread nD τ).loc (Pipeline.arrRef spec1 (1 : Fin 7))) ↦{(dat1 V c).share (1 : Fin 7)} G (1 : Fin 7))
          ∗ (((c.tc : Thread nD τ).loc (Pipeline.arrRef spec1 (2 : Fin 7))) ↦{(dat1 V c).share (2 : Fin 7)} G (2 : Fin 7))
          ∗ (((c.tc : Thread nD τ).loc (Pipeline.arrRef spec1 (3 : Fin 7))) ↦{(dat1 V c).share (3 : Fin 7)} G (3 : Fin 7))
          ∗ (((c.tc : Thread nD τ).loc (Pipeline.arrRef spec1 (4 : Fin 7))) ↦{(dat1 V c).share (4 : Fin 7)} G (4 : Fin 7))
          ∗ (((c.tc : Thread nD τ).loc (Pipeline.arrRef spec1 (5 : Fin 7))) ↦{(dat1 V c).share (5 : Fin 7)} G (5 : Fin 7))
          ∗ (((c.tc : Thread nD τ).loc (Pipeline.arrRef spec1 (6 : Fin 7))) ↦{(dat1 V c).share (6 : Fin 7)} G (6 : Fin 7))) :=
  (arrays1_congr V c G).trans (bigSep_W1 _)

/-- The six buffers behind the arrays, each whole, written out. -/
theorem arrBufs1_eq (c : Dev nD) (Wv : (b : Ref sig .tc) → Buf (Elt F) ((c.tc : Thread nD τ).loc b)) :
    (Pipeline.arrBufs (Ix := Unit) (Name := ℕ) (U := UR sig nD τ) (Lvl := ℕ) spec1 c Wv : sProp 𝕄)
      = iprop((((c.tc : Thread nD τ).loc main_v6_0) ↦{fullShare} Wv main_v6_0) ∗ (((c.tc : Thread nD τ).loc main_v6_1) ↦{fullShare} Wv main_v6_1)
          ∗ (((c.tc : Thread nD τ).loc main_v7) ↦{fullShare} Wv main_v7) ∗ (((c.tc : Thread nD τ).loc main_v8) ↦{fullShare} Wv main_v8)
          ∗ (((c.tc : Thread nD τ).loc main_v9) ↦{fullShare} Wv main_v9) ∗ (((c.tc : Thread nD τ).loc main_v10) ↦{fullShare} Wv main_v10)) := by
  unfold Pipeline.arrBufs
  rw [image_arr1, bigSep_insert (by decide), bigSep_insert (by decide), bigSep_insert (by decide), bigSep_insert (by decide),
    bigSep_insert (by decide), bigSep_singleton]
  rfl

/-- DEALING: the six buffers, each whole at contents `Wv`, are the seven windows' arrays at the same contents — the
    buffer two windows read is halved between them. -/
theorem deal1 (c : Dev nD) (Wv : (b : Ref sig .tc) → Buf (Elt F) ((c.tc : Thread nD τ).loc b))
    (G : (w : Fin cfg1.W) → Buf (Elt F) ((cfg1.win w).arr.view.loc (c.tc : Thread nD τ))) (hG : ∀ w, G w = Wv (Pipeline.arrRef spec1 w)) :
    (Pipeline.arrBufs (Ix := Unit) (Name := ℕ) (U := UR sig nD τ) (Lvl := ℕ) spec1 c Wv : sProp 𝕄) ⊢ (dat1 V c).arrays G := by
  rw [arrBufs1_eq, arrays1_eq, hG (0 : Fin 7), hG (1 : Fin 7), hG (2 : Fin 7), hG (3 : Fin 7), hG (4 : Fin 7), hG (5 : Fin 7), hG (6 : Fin 7)]
  iintro ⟨H0, H1, H2, H3, H4, H5⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- GATHERING: the seven windows' arrays at contents read off `Wv` are the six buffers whole at `Wv` — the two halves
    of the shared buffer, at the same contents, join. -/
theorem gather1 (c : Dev nD) (Wv : (b : Ref sig .tc) → Buf (Elt F) ((c.tc : Thread nD τ).loc b))
    (G : (w : Fin cfg1.W) → Buf (Elt F) ((cfg1.win w).arr.view.loc (c.tc : Thread nD τ))) (hG : ∀ w, G w = Wv (Pipeline.arrRef spec1 w)) :
    (dat1 V c).arrays G ⊢ (Pipeline.arrBufs (Ix := Unit) (Name := ℕ) (U := UR sig nD τ) (Lvl := ℕ) spec1 c Wv : sProp 𝕄) := by
  rw [arrBufs1_eq, arrays1_eq, hG (0 : Fin 7), hG (1 : Fin 7), hG (2 : Fin 7), hG (3 : Fin 7), hG (4 : Fin 7), hG (5 : Fin 7), hG (6 : Fin 7)]
  iintro ⟨Hl, Hr, H1, H2, H3, H4, H5⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  isplitl [H4]; · iexact H4
  iexact H5

end Cert.KernelIdeal.Region1

end
-- ==== Proof.Boundaries.lean ====
/-
  The contents of the program's buffers at each boundary of its run: at launch; after the host lines that slice the
  three vectors out of the feature array; after the first kernel region, whose four output arrays hold what its
  write-backs leave; after the host lines that recast the two label arrays; after the second kernel region, whose one
  output array holds what its write-backs leave; and after the closing host lines. With them, the facts each region's
  exit needs: its arrays at their exit contents, every other buffer as it was found.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Region0
import proofs.«135219_j66666482368607_2_alg».proof.Proof.Region1Arrays
import proofs.«135219_j66666482368607_2_alg».proof.Proof.Gen.KernelIdeal.Regions
import Idealize.ShloMosaic.Lib.Pipeline.FrameSuffix
import Idealize.ShloMosaic.Lib.Pipeline.RegionsLoop
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Assemble

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Region0 Cert.KernelIdeal.Region1

variable (m : (ℓ : Loc nD τ sig) → Buf (Elt F) ℓ)

/-- Core `c`'s buffers at launch. -/
abbrev W0 : Dev nD → Valuation τ sig (Elt F) := fun c b => m ((c : Dev nD), b)
/-- After the slicing lines: the first region's entry. -/
abbrev W1 : Dev nD → Valuation τ sig (Elt F) := fun c => StableHlo.after hostOps0 (W0 m c)
/-- The same read at the core's own references. -/
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the label recasts: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its one output array at what its write-backs leave, every other buffer as entered
    (its six input arrays among them: the region only reads them). -/
def W4 (c : Dev nD) : Valuation τ sig (Elt F) :=
  Function.update (W3 m c) (Proc.devRef .tc main_v10) ((dat1 (V3 m) c).arrAt 6 cfg1.N)
abbrev V4 : (c : Dev nD) → (b : Ref sig .tc) → Buf (Elt F) ((c : Thread nD τ).loc b) := fun c b => W4 m c b
theorem W4_out (c : Dev nD) : W4 m c (Proc.devRef .tc main_v10) = (dat1 (V3 m) c).arrAt 6 cfg1.N := by
  unfold W4; exact Function.update_self _ _ _
theorem W4_of_ne (c : Dev nD) (b : Ref sig .tc) (hb : b ≠ main_v10) :
    W4 m c (Proc.devRef .tc b) = W3 m c (Proc.devRef .tc b) := by
  unfold W4; exact Function.update_of_ne (fun e => hb (Proc.devRef_injective _ e)) _ _

/-- At the second region's exit every one of its arrays holds what the region's proof data computes for it: the output
    by definition, an input because an input's array is never written. -/
theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c _ (by decide)).symm
  | ⟨1, _⟩ => exact (((dat1 (V3 m) c).arrAt_in 1 rfl _).trans (A_eq1 (V3 m) c 1)).trans (W4_of_ne m c _ (by decide)).symm
  | ⟨2, _⟩ => exact (((dat1 (V3 m) c).arrAt_in 2 rfl _).trans (A_eq1 (V3 m) c 2)).trans (W4_of_ne m c _ (by decide)).symm
  | ⟨3, _⟩ => exact (((dat1 (V3 m) c).arrAt_in 3 rfl _).trans (A_eq1 (V3 m) c 3)).trans (W4_of_ne m c _ (by decide)).symm
  | ⟨4, _⟩ => exact (((dat1 (V3 m) c).arrAt_in 4 rfl _).trans (A_eq1 (V3 m) c 4)).trans (W4_of_ne m c _ (by decide)).symm
  | ⟨5, _⟩ => exact (((dat1 (V3 m) c).arrAt_in 5 rfl _).trans (A_eq1 (V3 m) c 5)).trans (W4_of_ne m c _ (by decide)).symm
  | ⟨6, _⟩ => exact (W4_out m c).symm
/-- Every buffer that is no array of the second region is as the region found it. -/
theorem hrest1 (c : Dev nD) : ∀ b, b ∉ Finset.univ.image (Pipeline.arrRef spec1) → V4 m c b = V3 m c b :=
  fun b hb => W4_of_ne m c b fun e => hb (by rw [image_arr1, e]; decide)

/-- After the closing host lines, and after the rectifier's two lines: the end of the run. -/
abbrev W5 : Dev nD → Valuation τ sig (Elt F) := fun c => StableHlo.after hostOps2 (W4 m c)
abbrev W6 : Dev nD → Valuation τ sig (Elt F) := fun c => StableHlo.after hostOps2_1 (W5 m c)

/-! ## What each stretch of host lines leaves alone -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h

/-- `main_arg0` reaches the end as launched: no host line writes it, no region changes it. -/
theorem W6_main_arg0 (c : Dev nD) : W6 m c (Proc.devRef .tc main_arg0) = m ((c : Thread nD τ).loc main_arg0) :=
  (W6_of m c main_arg0 (by decide)).trans <| (W5_of m c main_arg0 (by decide)).trans <| (W4_of_ne m c main_arg0 (by decide)).trans <|
    (W3_of m c main_arg0 (by decide)).trans <| (W2_of_ne m c main_arg0 (by decide)).trans <| (W1_of m c main_arg0 (by decide)).trans rfl

/-- `main_arg1` reaches the end as launched: no host line writes it, no region changes it. -/
theorem W6_main_arg1 (c : Dev nD) : W6 m c (Proc.devRef .tc main_arg1) = m ((c : Thread nD τ).loc main_arg1) :=
  (W6_of m c main_arg1 (by decide)).trans <| (W5_of m c main_arg1 (by decide)).trans <| (W4_of_ne m c main_arg1 (by decide)).trans <|
    (W3_of m c main_arg1 (by decide)).trans <| (W2_of_ne m c main_arg1 (by decide)).trans <| (W1_of m c main_arg1 (by decide)).trans rfl

/-- `main_arg2` reaches the end as launched: no host line writes it, no region changes it. -/
theorem W6_main_arg2 (c : Dev nD) : W6 m c (Proc.devRef .tc main_arg2) = m ((c : Thread nD τ).loc main_arg2) :=
  (W6_of m c main_arg2 (by decide)).trans <| (W5_of m c main_arg2 (by decide)).trans <| (W4_of_ne m c main_arg2 (by decide)).trans <|
    (W3_of m c main_arg2 (by decide)).trans <| (W2_of_ne m c main_arg2 (by decide)).trans <| (W1_of m c main_arg2 (by decide)).trans rfl

end Cert.KernelIdeal.Assemble

end
-- ==== Proof.Assemble.lean ====
/-
  The whole run of the program, assembled: its two kernel regions, each entered from the buffers' contents at its
  boundary and left at the next boundary's, between straight lines of host operations. The first region's arrays are
  seven distinct buffers, split out of the core's buffers and put back as the library does it. The second region's
  seven arrays are six buffers: they are dealt among the windows at entry and gathered at exit. The run ends with every
  buffer at the last boundary's contents — the result and the three arguments among them.
-/
import proofs.«135219_j66666482368607_2_alg».proof.Proof.Gen.KernelIdeal.Launch
import proofs.«135219_j66666482368607_2_alg».proof.Proof.Gen.KernelIdeal.Skeleton
import proofs.«135219_j66666482368607_2_alg».proof.Proof.Gen.KernelIdeal.Points
import proofs.«135219_j66666482368607_2_alg».proof.Proof.Boundaries
import Idealize.ShloMosaic.Lib.Pipeline.FrameBody
import Idealize.ShloMosaic.Lib.Pipeline.TableIdle
import Idealize.ShloMosaic.Lib.Ring
import Idealize.ShloMosaic.Lib.Tactic

-- membership in a rectangle with a long axis is decided structurally, one step per coordinate
set_option maxRecDepth 16384

noncomputable section

namespace Cert.KernelIdeal.Assemble

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Region0 Cert.KernelIdeal.Region1

variable (m : (ℓ : Loc nD τ sig) → Buf (Elt F) ℓ) (ρ : Dev nD → PrngReg)

/-! ## The proof data family and the thread state -/

/-- Each region's proof data at its entry contents — a literal match on the region. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST REGION over the thread state: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Every buffer at `W3` is the second region's arrays at their entry contents — the buffer behind two of them halved —
    and the buffers that are none of its arrays. -/
theorem enter1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c),
    Pipeline.unscopedBufs_split₀ cfgs (1 : Fin 2) winFacts₀1.arr_unscoped c (V3 m c)]
  exact sep_mono (deal1 (V3 m) c (V3 m c) _ fun w => A_eq1 (V3 m) c w) .rfl

/-- The second region's arrays at their exit contents and the buffers that are none of its arrays, as found, are every
    buffer at `W4`: the two halves join, and off the output array `W4` is `W3`. -/
theorem leave1 (c : Dev nD) :
    iprop((dat1 (V3 m) c).arrays ((dat1 (V3 m) c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs (1 : Fin 2) winFacts₀1.arr_unscoped c (V4 m c)]
  refine sep_mono (gather1 (V3 m) c (V4 m c) _ fun w => hF1 m c w) (Entails.of_eq ?_)
  unfold Pipeline.unscopedRest
  exact bigSep_congr fun b hb => by rw [hrest1 m c b (Finset.mem_sdiff.mp hb).2]

set_option backward.isDefEq.respectTransparency.types false in
/-- THE SECOND REGION over the thread state: entered from every buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

/-! ## The program as segments, and the run -/

/-- The program's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)) ]

/-- The last thread state without the `owes`: every buffer at the last boundary's contents. -/
abbrev Tₙ (c : Dev nD) : sProp 𝕄 := StableHlo.held (c : Thread nD τ) (Pipeline.ucRefs τ sig) (W6 m c)

set_option backward.isDefEq.respectTransparency.types false in
/-- THE RUN: from any memory with zero counters every weakly fair execution of the program terminates, nothing
    faulting, and every final state holds each of the core's buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun c => sep_mono .rfl (show R c ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      unfold Tₙ StableHlo.held
      iintro ⟨Hh, HSI⟩
      imodintro
      iapply (pointsTo_read_all (Pipeline.ucRefs τ sig) (fun b => (((c : Thread nD τ)).1, b)) (W6 m c) s')
      isplitl [Hh]; · iexact Hh
      iexact HSI)
    (hQ := fun s h c => h c)

end Cert.KernelIdeal.Assemble

end
-- ==== Proof.Entry.lean ====
/-
  The host lines before each kernel region, read at an index, and the arrays one region hands to the next. The three
  vectors of a feature row are sliced out of the feature array and recast as matrices: entry `(r, k)` of each is the
  feature at `(r, slot, k)`. The label array is recast as a column and as a row, the negative-label array as a row:
  each entry is the label of its row or column. The second region's direction arrays are the first region's outputs,
  and the per-row distance columns the closing lines sum are the first region's other two outputs: no line in between
  writes them.
-/
import proofs.«135219_j66666482368607_2_alg».proof.Proof.Boundaries
import Idealize.ShloMosaic.Lib.StableHlo.Run
import Idealize.ShloMosaic.Lib.Pipeline.Value
import Idealize.ShloMosaic.Lib.ValueIdx

noncomputable section

namespace Cert.KernelIdeal.Assemble

open Cert.KernelIdeal Cert.KernelIdeal.Gen Cert.KernelIdeal.Region0 Cert.KernelIdeal.Region1
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## The three vectors of a feature row -/

/-- Row `r`, entry `k` of the array sliced out of slot 0 of the features is the feature at `(r, 0, k)`. -/
theorem entry_v1 (c : Dev nD) (r : Fin 4096) (k : Fin 1024) :
    (W1 m c (Proc.devRef .tc main_v1) : S4096x1024.Idx → EReal) (ix2 r k)
      = (m ((c : Thread nD τ).loc main_arg0) : S4096x3x1024.Idx → EReal) (ix3 r (0 : Fin 3) k) := by
  dsimp only [W1, W0, hostOps0]
  after_results
  show shapeCast S4096x1024 (extractStridedSlice S4096x1x1024 ![0, 0, 0] (m ((c : Thread nD τ).loc main_arg0) : S4096x3x1024.Idx → EReal)
    slices_S4096x3x1024_S4096x1x1024_0_0_0) shapeCasts_S4096x1x1024_S4096x1024 (ix2 r k) = _
  rw [shapeCast_apply _ shapeCasts_S4096x1x1024_S4096x1024 (ix2 r k) (ix3 r (0 : Fin 1) k)
    (by rw [Shape.rowMajor_val_three, Shape.rowMajor_val_two]; show (r.val * 1 + 0) * 1024 + k.val = r.val * 1024 + k.val; omega)]
  exact extractStridedSlice_apply ![0, 0, 0] _ slices_S4096x3x1024_S4096x1x1024_0_0_0 (ix3 r (0 : Fin 1) k) (ix3 r (0 : Fin 3) k)
    (fun a => match a with
      | ⟨0, _⟩ => by show r.val = 0 + r.val; omega
      | ⟨1, _⟩ => by show (0 : ℕ) = 0 + 0; omega
      | ⟨2, _⟩ => by show k.val = 0 + k.val; omega)

/-- Row `r`, entry `k` of the array sliced out of slot 1 of the features is the feature at `(r, 1, k)`. -/
theorem entry_v3 (c : Dev nD) (r : Fin 4096) (k : Fin 1024) :
    (W1 m c (Proc.devRef .tc main_v3) : S4096x1024.Idx → EReal) (ix2 r k)
      = (m ((c : Thread nD τ).loc main_arg0) : S4096x3x1024.Idx → EReal) (ix3 r (1 : Fin 3) k) := by
  dsimp only [W1, W0, hostOps0]
  after_results
  show shapeCast S4096x1024 (extractStridedSlice S4096x1x1024 ![0, 1, 0] (m ((c : Thread nD τ).loc main_arg0) : S4096x3x1024.Idx → EReal)
    slices_S4096x3x1024_S4096x1x1024_0_1_0) shapeCasts_S4096x1x1024_S4096x1024 (ix2 r k) = _
  rw [shapeCast_apply _ shapeCasts_S4096x1x1024_S4096x1024 (ix2 r k) (ix3 r (0 : Fin 1) k)
    (by rw [Shape.rowMajor_val_three, Shape.rowMajor_val_two]; show (r.val * 1 + 0) * 1024 + k.val = r.val * 1024 + k.val; omega)]
  exact extractStridedSlice_apply ![0, 1, 0] _ slices_S4096x3x1024_S4096x1x1024_0_1_0 (ix3 r (0 : Fin 1) k) (ix3 r (1 : Fin 3) k)
    (fun a => match a with
      | ⟨0, _⟩ => by show r.val = 0 + r.val; omega
      | ⟨1, _⟩ => by show (1 : ℕ) = 1 + 0; omega
      | ⟨2, _⟩ => by show k.val = 0 + k.val; omega)

/-- Row `r`, entry `k` of the array sliced out of slot 2 of the features is the feature at `(r, 2, k)`. -/
theorem entry_v5 (c : Dev nD) (r : Fin 4096) (k : Fin 1024) :
    (W1 m c (Proc.devRef .tc main_v5) : S4096x1024.Idx → EReal) (ix2 r k)
      = (m ((c : Thread nD τ).loc main_arg0) : S4096x3x1024.Idx → EReal) (ix3 r (2 : Fin 3) k) := by
  dsimp only [W1, W0, hostOps0]
  after_results
  show shapeCast S4096x1024 (extractStridedSlice S4096x1x1024 ![0, 2, 0] (m ((c : Thread nD τ).loc main_arg0) : S4096x3x1024.Idx → EReal)
    slices_S4096x3x1024_S4096x1x1024_0_2_0) shapeCasts_S4096x1x1024_S4096x1024 (ix2 r k) = _
  rw [shapeCast_apply _ shapeCasts_S4096x1x1024_S4096x1024 (ix2 r k) (ix3 r (0 : Fin 1) k)
    (by rw [Shape.rowMajor_val_three, Shape.rowMajor_val_two]; show (r.val * 1 + 0) * 1024 + k.val = r.val * 1024 + k.val; omega)]
  exact extractStridedSlice_apply ![0, 2, 0] _ slices_S4096x3x1024_S4096x1x1024_0_2_0 (ix3 r (0 : Fin 1) k) (ix3 r (2 : Fin 3) k)
    (fun a => match a with
      | ⟨0, _⟩ => by show r.val = 0 + r.val; omega
      | ⟨1, _⟩ => by show (2 : ℕ) = 2 + 0; omega
      | ⟨2, _⟩ => by show k.val = 0 + k.val; omega)

/-! ## The labels, as the second region finds them -/

/-- Neither the slicing lines nor the first region touch the label array: at the first region's exit it is as launched. -/
theorem W2_labels (c : Dev nD) : W2 m c (Proc.devRef .tc main_arg1) = m ((c : Thread nD τ).loc main_arg1) :=
  (W2_of_ne m c main_arg1 (by decide)).trans ((W1_of m c main_arg1 (by decide)).trans rfl)
/-- Nor the negative-label array. -/
theorem W2_neglabels (c : Dev nD) : W2 m c (Proc.devRef .tc main_arg2) = m ((c : Thread nD τ).loc main_arg2) :=
  (W2_of_ne m c main_arg2 (by decide)).trans ((W1_of m c main_arg2 (by decide)).trans rfl)

/-- The label column: row `r` holds the label of row `r`. -/
theorem entry_v7 (c : Dev nD) (r : Fin 4096) :
    (W3 m c (Proc.devRef .tc main_v7) : S4096x1.Idx → BitVec 32) (ix2 r (0 : Fin 1))
      = (m ((c : Thread nD τ).loc main_arg1) : S4096.Idx → BitVec 32) (ix1 r) := by
  dsimp only [W3, hostOps1]
  after_results
  show shapeCast S4096x1 (W2 m c (Proc.devRef .tc main_arg1) : S4096.Idx → BitVec 32) shapeCasts_S4096_S4096x1 (ix2 r (0 : Fin 1)) = _
  rw [shapeCast_apply _ shapeCasts_S4096_S4096x1 (ix2 r (0 : Fin 1)) (ix1 r)
    (by rw [Shape.rowMajor_val_one, Shape.rowMajor_val_two]; show r.val = r.val * 1 + 0; omega), W2_labels]

/-- The label row: column `q` holds the label of row `q`. -/
theorem entry_v8 (c : Dev nD) (q : Fin 4096) :
    (W3 m c (Proc.devRef .tc main_v8) : S1x4096.Idx → BitVec 32) (ix2 (0 : Fin 1) q)
      = (m ((c : Thread nD τ).loc main_arg1) : S4096.Idx → BitVec 32) (ix1 q) := by
  dsimp only [W3, hostOps1]
  after_results
  show shapeCast S1x4096 (W2 m c (Proc.devRef .tc main_arg1) : S4096.Idx → BitVec 32) shapeCasts_S4096_S1x4096 (ix2 (0 : Fin 1) q) = _
  rw [shapeCast_apply _ shapeCasts_S4096_S1x4096 (ix2 (0 : Fin 1) q) (ix1 q)
    (by rw [Shape.rowMajor_val_one, Shape.rowMajor_val_two]; show q.val = 0 * 4096 + q.val; omega), W2_labels]

/-- The negative-label row: column `q` holds the negative-label of row `q`. -/
theorem entry_v9 (c : Dev nD) (q : Fin 4096) :
    (W3 m c (Proc.devRef .tc main_v9) : S1x4096.Idx → BitVec 32) (ix2 (0 : Fin 1) q)
      = (m ((c : Thread nD τ).loc main_arg2) : S4096.Idx → BitVec 32) (ix1 q) := by
  dsimp only [W3, hostOps1]
  after_results
  show shapeCast S1x4096 (W2 m c (Proc.devRef .tc main_arg2) : S4096.Idx → BitVec 32) shapeCasts_S4096_S1x4096 (ix2 (0 : Fin 1) q) = _
  rw [shapeCast_apply _ shapeCasts_S4096_S1x4096 (ix2 (0 : Fin 1) q) (ix1 q)
    (by rw [Shape.rowMajor_val_one, Shape.rowMajor_val_two]; show q.val = 0 * 4096 + q.val; omega), W2_neglabels]

/-! ## What one region hands to the next -/

/-- The anchor directions the second region reads are what the first region's write-backs left. -/
theorem W3_anchor_dirs (c : Dev nD) : W3 m c (Proc.devRef .tc main_v6_0) = (dat0 (V1 m) c).arrAt 3 cfg0.N :=
  (W3_of m c main_v6_0 (by decide)).trans (W2_arr m c 3)
/-- Likewise the negative directions. -/
theorem W3_negative_dirs (c : Dev nD) : W3 m c (Proc.devRef .tc main_v6_1) = (dat0 (V1 m) c).arrAt 4 cfg0.N :=
  (W3_of m c main_v6_1 (by decide)).trans (W2_arr m c 4)
/-- The column of anchor-to-positive distances the closing lines sum is what the first region left. -/
theorem W4_pos_col (c : Dev nD) : W4 m c (Proc.devRef .tc main_v6_2) = (dat0 (V1 m) c).arrAt 5 cfg0.N :=
  (W4_of_ne m c main_v6_2 (by decide)).trans ((W3_of m c main_v6_2 (by decide)).trans (W2_arr m c 5))
/-- Likewise the column of anchor-to-negative distances. -/
theorem W4_neg_col (c : Dev nD) : W4 m c (Proc.devRef .tc main_v6_3) = (dat0 (V1 m) c).arrAt 6 cfg0.N :=
  (W4_of_ne m c main_v6_3 (by decide)).trans ((W3_of m c main_v6_3 (by decide)).trans (W2_arr m c 6))

end Cert.KernelIdeal.Assemble

end
-- ==== Proof.Spec.lean ====
/-
  The triplet loss with pairwise mining, as one closed formula of the three argument arrays, over the extended reals.

  Row `r` of the feature array holds three vectors of length 1024: slot 0 the anchor, slot 1 the positive, slot 2 the
  negative. Each vector is divided by its Euclidean norm clamped below at the constant `eps`. The cosine distance of two
  such directions is one minus their inner product. The loss collects

    * the distance from anchor `r` to its own positive (a positive pair) and to its own negative (a negative pair),
    * for every ordered pair of rows `r < c`: the distance from anchor `r` to anchor `c`, a positive pair when the two
      labels agree and a negative pair otherwise, and the distance from anchor `r` to negative `c`, a positive pair when
      the label of `r` equals the negative-label of `c` and a negative pair otherwise,

  and is `max (mean of positive pairs - mean of negative pairs + margin) 0`, each mean a sum of distances over the
  number of pairs.
-/
import Idealize.ShloMosaic.PureOps.Ideal
import Idealize.ShloMosaic.Lib.ValueIdx

noncomputable section

open scoped BigOperators

namespace Cert.TripletSpec

open Idealize.ShloMosaic Idealize.ShloMosaic.ValueIdx

/-- The feature array's shape: 4096 rows of three vectors of length 1024. -/
abbrev SFeat : Shape := ⟨3, ![4096, 3, 1024]⟩
/-- A label array's shape. -/
abbrev SLab : Shape := ⟨1, ![4096]⟩

/-- The lower clamp of a norm: the single-precision pattern nearest 1e-8, read exactly. -/
def eps : EReal := Ideal.ofBits .f32 0x322BCC77#32
/-- One. -/
def one : EReal := Ideal.ofBits .f32 0x3F800000#32
/-- The margin, five. -/
def margin : EReal := Ideal.ofBits .f32 0x40A00000#32
/-- Zero, as the single-precision pattern. -/
def zero : EReal := Ideal.ofBits .f32 0x00000000#32

variable (x : SFeat.Idx → EReal) (lab neg : SLab.Idx → BitVec 32)

/-- Entry `k` of the vector in slot `s` of row `r`. -/
def ent (s : Fin 3) (r : Fin 4096) (k : Fin 1024) : EReal := x (ix3 r s k)

/-- The norm of a row's vector, clamped below at `eps`. -/
def clampNorm (s : Fin 3) (r : Fin 4096) : EReal :=
  max (Ideal.sqrt (∑ k : Fin 1024, ent x s r k * ent x s r k)) eps

/-- Entry `k` of the direction of the vector in slot `s` of row `r`. -/
def dir (s : Fin 3) (r : Fin 4096) (k : Fin 1024) : EReal := Ideal.div (ent x s r k) (clampNorm x s r)

/-- The cosine distance from the anchor of row `r` to the vector in slot `s` of row `c`. -/
def dist (s : Fin 3) (r c : Fin 4096) : EReal := one - ∑ k : Fin 1024, dir x 0 r k * dir x s c k

/-- Row `r` comes strictly before row `c`. -/
def before (r c : Fin 4096) : Prop := r.val < c.val
/-- Rows `r` and `c` carry the same label. -/
def sameLab (r c : Fin 4096) : Prop := lab (ix1 r) = lab (ix1 c)
/-- The label of row `r` is the negative-label of row `c`. -/
def sameNeg (r c : Fin 4096) : Prop := lab (ix1 r) = neg (ix1 c)

open Classical in
/-- The sum, over the pairs of rows selected by `P`, of the distance from anchor `r` to slot `s` of row `c`. -/
def pairSum (P : Fin 4096 → Fin 4096 → Prop) (s : Fin 3) : EReal :=
  ∑ r : Fin 4096, ∑ c : Fin 4096, if P r c then dist x s r c else 0

open Classical in
/-- The number of pairs of rows selected by `P`. -/
def pairCount (P : Fin 4096 → Fin 4096 → Prop) : ℕ :=
  ∑ r : Fin 4096, ∑ c : Fin 4096, if P r c then 1 else 0

/-- The sum of the distances of all positive pairs. -/
def posSum : EReal :=
  (∑ r : Fin 4096, dist x 1 r r) + pairSum x (fun r c => before r c ∧ sameLab lab r c) 0
    + pairSum x (fun r c => before r c ∧ sameNeg lab neg r c) 2
/-- The number of positive pairs. -/
def posCount : ℕ :=
  4096 + pairCount (fun r c => before r c ∧ sameLab lab r c) + pairCount (fun r c => before r c ∧ sameNeg lab neg r c)
/-- The sum of the distances of all negative pairs. -/
def negSum : EReal :=
  (∑ r : Fin 4096, dist x 2 r r) + pairSum x (fun r c => before r c ∧ ¬ sameLab lab r c) 0
    + pairSum x (fun r c => before r c ∧ ¬ sameNeg lab neg r c) 2
/-- The number of negative pairs. -/
def negCount : ℕ :=
  4096 + pairCount (fun r c => before r c ∧ ¬ sameLab lab r c) + pairCount (fun r c => before r c ∧ ¬ sameNeg lab neg r c)

/-- The loss. -/
def loss : EReal :=
  max (Ideal.div (posSum x lab neg) ((posCount lab neg : ℝ) : EReal)
        - Ideal.div (negSum x lab neg) ((negCount lab neg : ℝ) : EReal) + margin) zero

end Cert.TripletSpec

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.Region0Value.lean ====
/-
  What the prologue leaves in its four written arrays, as functions of the feature array, over the extended reals.

  The three fetched arrays hold the anchors, the positives and the negatives of the feature array, 4096 rows of 1024
  entries each. Point t of the grid fetches rows 512 t … 512 t + 511 of each, divides every row by its Euclidean norm
  clamped below, and writes back the same rows of four arrays. Read index by index, the body's payloads are the
  specification's own terms: an entry over its row's clamped norm is the direction, and one minus the sum over a row of
  the products of two directions is the cosine distance. Since the eight blocks tile the 4096 rows, the arrays end at

    * the anchors' directions and the negatives' directions (the half-precision format change is the identity on the
      extended reals),
    * for every row, the distance from its anchor to its own positive, and to its own negative.
-/
import proofs.«135219_j66666482368607_2_alg».proof.Proof.Region0
import proofs.«135219_j66666482368607_2_alg».proof.Proof.Spec
import proofs.«135219_j66666482368607_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal.Gen Cert.TripletSpec Cert.Gcn.Lib
open Idealize.ShloMosaic Idealize.ShloMosaic.TcCoe Idealize.ShloMosaic.ValueIdx Idealize.SL.Sem
open Idealize.ShloMosaic.Pipeline (Dat)

/-! ## The body's payloads at an index, over any three blocks -/

/-- The Euclidean norm of row `p` of a block, clamped below at the specification's constant. -/
def blockNorm (v : Vec Ideal S512x1024 .f32) (p : Fin 512) : EReal :=
  max (Ideal.sqrt (∑ k : Fin 1024, v (ix2 p k) * v (ix2 p k))) eps

/-- The anchors' block divided row by row by its clamped norm, at an index. -/
theorem pay2_apply (v : Vec Ideal S512x1024 .f32) (p : Fin 512) (q : Fin 1024) :
    k0_pay2 v (ix2 p q) = Ideal.div (v (ix2 p q)) (blockNorm v p) := by
  unfold k0_pay2
  dsimp only
  rw [divf_apply, shapeCast_self, broadcastTo_a1_ab_apply, maximumf_apply, broadcast_apply]
  show Ideal.div _ (max (Ideal.sqrt (shapeCast S512x1 _ _ (ix2 p (0 : Fin 1)))) _) = _
  rw [shapeCast_a_a1_apply, rowsum_apply]
  simp only [mulf_apply]
  rfl

/-- The negatives' block divided row by row by its clamped norm, at an index. -/
theorem pay3_apply (v : Vec Ideal S512x1024 .f32) (p : Fin 512) (q : Fin 1024) :
    k0_pay3 v (ix2 p q) = Ideal.div (v (ix2 p q)) (blockNorm v p) := by
  unfold k0_pay3
  dsimp only
  rw [divf_apply, shapeCast_self, broadcastTo_a1_ab_apply, maximumf_apply, broadcast_apply]
  show Ideal.div _ (max (Ideal.sqrt (shapeCast S512x1 _ _ (ix2 p (0 : Fin 1)))) _) = _
  rw [shapeCast_a_a1_apply, rowsum_apply]
  simp only [mulf_apply]
  rfl

/-- The half-precision copy of the anchors' directions is the directions: the format change is the identity. -/
theorem pay6_apply (v : Vec Ideal S512x1024 .f32) (p : Fin 512) (q : Fin 1024) :
    k0_pay6 v (ix2 p q) = Ideal.div (v (ix2 p q)) (blockNorm v p) := by
  unfold k0_pay6
  rw [truncf_apply, pay2_apply]

/-- The half-precision copy of a block is the block. -/
theorem pay1_apply (w : FVec Ideal S512x1024 .f32) (j : S512x1024.Idx) : k0_pay1 w j = w j := by
  unfold k0_pay1
  rw [truncf_apply]

/-- One minus the inner product of the anchor's and the positive's directions, row by row. -/
theorem pay4_apply (v0 v1 : Vec Ideal S512x1024 .f32) (p : Fin 512) :
    k0_pay4 v0 v1 (ix2 p (0 : Fin 1))
      = one - ∑ k : Fin 1024, Ideal.div (v0 (ix2 p k)) (blockNorm v0 p) * Ideal.div (v1 (ix2 p k)) (blockNorm v1 p) := by
  unfold k0_pay4
  dsimp only
  rw [subf_apply, broadcast_apply, shapeCast_a_a1_apply, rowsum_apply]
  refine congrArg₂ _ rfl (Finset.sum_congr rfl fun k _ => ?_)
  rw [mulf_apply, pay2_apply, divf_apply, shapeCast_self, broadcastTo_a1_ab_apply, maximumf_apply, broadcast_apply]
  show _ * Ideal.div _ (max (Ideal.sqrt (shapeCast S512x1 _ _ (ix2 p (0 : Fin 1)))) _) = _
  rw [shapeCast_a_a1_apply, rowsum_apply]
  simp only [mulf_apply]
  rfl

/-- One minus the inner product of the anchor's and the negative's directions, row by row. -/
theorem pay5_apply (v0 v2 : Vec Ideal S512x1024 .f32) (p : Fin 512) :
    k0_pay5 v0 v2 (ix2 p (0 : Fin 1))
      = one - ∑ k : Fin 1024, Ideal.div (v0 (ix2 p k)) (blockNorm v0 p) * Ideal.div (v2 (ix2 p k)) (blockNorm v2 p) := by
  unfold k0_pay5
  dsimp only
  rw [subf_apply, broadcast_apply, shapeCast_a_a1_apply, rowsum_apply]
  refine congrArg₂ _ rfl (Finset.sum_congr rfl fun k _ => ?_)
  rw [mulf_apply, pay2_apply, pay3_apply]

/-! ## A block whose rows are rows of the feature array -/

section Bridge
variable (x : SFeat.Idx → EReal)

/-- When row `p` of a block is the vector in slot `s` of row `r`, its clamped norm is the specification's. -/
theorem blockNorm_eq (v : Vec Ideal S512x1024 .f32) (p : Fin 512) (s : Fin 3) (r : Fin 4096)
    (h : ∀ k : Fin 1024, v (ix2 p k) = x (ix3 r s k)) : blockNorm v p = clampNorm x s r := by
  unfold blockNorm clampNorm ent
  simp only [h]

/-- and its entries over that norm are the specification's direction. -/
theorem div_blockNorm_eq (v : Vec Ideal S512x1024 .f32) (p : Fin 512) (s : Fin 3) (r : Fin 4096)
    (h : ∀ k : Fin 1024, v (ix2 p k) = x (ix3 r s k)) (q : Fin 1024) :
    Ideal.div (v (ix2 p q)) (blockNorm v p) = dir x s r q := by
  unfold dir ent
  rw [blockNorm_eq x v p s r h, h]

/-- One minus the inner product of two such rows' directions is the specification's distance. -/
theorem one_sub_dot_eq (v0 vs : Vec Ideal S512x1024 .f32) (p : Fin 512) (s : Fin 3) (r : Fin 4096)
    (h0 : ∀ k : Fin 1024, v0 (ix2 p k) = x (ix3 r 0 k)) (hs : ∀ k : Fin 1024, vs (ix2 p k) = x (ix3 r s k)) :
    one - ∑ k : Fin 1024, Ideal.div (v0 (ix2 p k)) (blockNorm v0 p) * Ideal.div (vs (ix2 p k)) (blockNorm vs p)
      = TripletSpec.dist x s r r := by
  unfold TripletSpec.dist
  simp only [div_blockNorm_eq x v0 p 0 r h0, div_blockNorm_eq x vs p s r hs]

end Bridge

/-! ## The fetched blocks as rows of the arrays -/

theorem hz : (![0, 0] : Fin 2 → Nat) = fun _ => 0 := funext fun a => by fin_cases a <;> rfl

/-- Every window's block at point `t` is block `t` along the rows and block 0 along the other axis (decided over the
    eight points). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

variable (V : (c : Dev nD) → (b : Ref sig .tc) → Buf (Elt Ideal) ((c : Thread nD τ).loc b))

/-- The anchors' block at point `t` is rows `512 t … 512 t + 511` of the anchors' array. -/
theorem iblk0_0_apply (c : Dev nD) (t : Fin cfg0.N) (j : S512x1024.Idx) (i : S4096x1024.Idx)
    (h0 : (i 0).val = 512 * t.val + (j 0).val) (h1 : (i 1).val = (j 1).val) :
    (iblk0 V c 0 t : Vec Ideal S512x1024 .f32) j = (V c main_v1 : S4096x1024.Idx → EReal) i := by
  unfold iblk0
  rw [View.read_apply]
  show V c main_v1 _ = V c main_v1 _
  congr 1
  funext a
  apply Fin.ext
  match a with
  | ⟨0, _⟩ => show win0_0.index t 0 * 512 + 1 * (j 0).val = (i 0).val; rw [(idx_facts t).1.1, h0]; omega
  | ⟨1, _⟩ => show win0_0.index t 1 * 1024 + 1 * (j 1).val = (i 1).val; rw [(idx_facts t).1.2, h1]; omega

/-- The positives' block likewise. -/
theorem iblk0_1_apply (c : Dev nD) (t : Fin cfg0.N) (j : S512x1024.Idx) (i : S4096x1024.Idx)
    (h0 : (i 0).val = 512 * t.val + (j 0).val) (h1 : (i 1).val = (j 1).val) :
    (iblk0 V c 1 t : Vec Ideal S512x1024 .f32) j = (V c main_v3 : S4096x1024.Idx → EReal) i := by
  unfold iblk0
  rw [View.read_apply]
  show V c main_v3 _ = V c main_v3 _
  congr 1
  funext a
  apply Fin.ext
  match a with
  | ⟨0, _⟩ => show win0_1.index t 0 * 512 + 1 * (j 0).val = (i 0).val; rw [(idx_facts t).2.1.1, h0]; omega
  | ⟨1, _⟩ => show win0_1.index t 1 * 1024 + 1 * (j 1).val = (i 1).val; rw [(idx_facts t).2.1.2, h1]; omega

/-- The negatives' block likewise. -/
theorem iblk0_2_apply (c : Dev nD) (t : Fin cfg0.N) (j : S512x1024.Idx) (i : S4096x1024.Idx)
    (h0 : (i 0).val = 512 * t.val + (j 0).val) (h1 : (i 1).val = (j 1).val) :
    (iblk0 V c 2 t : Vec Ideal S512x1024 .f32) j = (V c main_v5 : S4096x1024.Idx → EReal) i := by
  unfold iblk0
  rw [View.read_apply]
  show V c main_v5 _ = V c main_v5 _
  congr 1
  funext a
  apply Fin.ext
  match a with
  | ⟨0, _⟩ => show win0_2.index t 0 * 512 + 1 * (j 0).val = (i 0).val; rw [(idx_facts t).2.2.1.1, h0]; omega
  | ⟨1, _⟩ => show win0_2.index t 1 * 1024 + 1 * (j 1).val = (i 1).val; rw [(idx_facts t).2.2.1.2, h1]; omega

/-! ## The payloads of a block of rows of the feature array -/

section Rows
variable (x : SFeat.Idx → EReal)

/-- The anchors' half-precision directions, over a block whose row is the anchor of row `r`. -/
theorem pay6_row (v : Vec Ideal S512x1024 .f32) (j : S512x1024.Idx) (r : Fin 4096)
    (h : ∀ k : Fin 1024, v (ix2 (j 0) k) = x (ix3 r 0 k)) : k0_pay6 v j = dir x 0 r (j 1) := by
  obtain ⟨p, q, rfl⟩ : ∃ (p : Fin 512) (q : Fin 1024), j = ix2 p q := ⟨j 0, j 1, eq_ix2 j⟩
  rw [pay6_apply]
  exact div_blockNorm_eq x v p 0 r h q

/-- The negatives' half-precision directions, over a block whose row is the negative of row `r`. -/
theorem pay13_row (v : Vec Ideal S512x1024 .f32) (j : S512x1024.Idx) (r : Fin 4096)
    (h : ∀ k : Fin 1024, v (ix2 (j 0) k) = x (ix3 r 2 k)) : k0_pay1 (k0_pay3 v) j = dir x 2 r (j 1) := by
  obtain ⟨p, q, rfl⟩ : ∃ (p : Fin 512) (q : Fin 1024), j = ix2 p q := ⟨j 0, j 1, eq_ix2 j⟩
  rw [pay1_apply, pay3_apply]
  exact div_blockNorm_eq x v p 2 r h q

/-- The anchor-to-positive distance of row `r`. -/
theorem pay4_row (v0 v1 : Vec Ideal S512x1024 .f32) (j : S512x1.Idx) (r : Fin 4096)
    (h0 : ∀ k : Fin 1024, v0 (ix2 (j 0) k) = x (ix3 r 0 k)) (h1 : ∀ k : Fin 1024, v1 (ix2 (j 0) k) = x (ix3 r 1 k)) :
    k0_pay4 v0 v1 j = TripletSpec.dist x 1 r r := by
  obtain ⟨p, u, rfl⟩ : ∃ (p : Fin 512) (u : Fin 1), j = ix2 p u := ⟨j 0, j 1, eq_ix2 j⟩
  obtain rfl : u = 0 := Subsingleton.elim _ _
  rw [pay4_apply]
  exact one_sub_dot_eq x v0 v1 p 1 r h0 h1

/-- The anchor-to-negative distance of row `r`. -/
theorem pay5_row (v0 v2 : Vec Ideal S512x1024 .f32) (j : S512x1.Idx) (r : Fin 4096)
    (h0 : ∀ k : Fin 1024, v0 (ix2 (j 0) k) = x (ix3 r 0 k)) (h2 : ∀ k : Fin 1024, v2 (ix2 (j 0) k) = x (ix3 r 2 k)) :
    k0_pay5 v0 v2 j = TripletSpec.dist x 2 r r := by
  obtain ⟨p, u, rfl⟩ : ∃ (p : Fin 512) (u : Fin 1), j = ix2 p u := ⟨j 0, j 1, eq_ix2 j⟩
  obtain rfl : u = 0 := Subsingleton.elim _ _
  rw [pay5_apply]
  exact one_sub_dot_eq x v0 v2 p 2 r h0 h2

end Rows

/-! ## What the region leaves in its four written arrays -/

/-- The directions of slot `s` as one array: row `r` is the direction of the vector in slot `s` of row `r`. -/
def dirArr (x : SFeat.Idx → EReal) (s : Fin 3) : S4096x1024.Idx → EReal := fun i => dir x s (i 0) (i 1)
/-- The distances from each row's anchor to its own slot `s`, as one column. -/
def distCol (x : SFeat.Idx → EReal) (s : Fin 3) : S4096x1.Idx → EReal := fun i => TripletSpec.dist x s (i 0) (i 0)

/-- An index of window 3's array is in point `t`'s block iff each coordinate is in the block's range on its axis. -/
theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6_0).slice (win0_3.rect t)).set ↔ _
  rw [View.set_slice_whole, Rect.mem_set_unit]
  exact Iff.rfl

/-- Row `r` of window 3's array is in the block of point `r / 512`, which writes back. -/
theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  refine ⟨⟨(i 0).val / 512, by omega⟩, flush0_3 _, ?_⟩
  rw [mem_blk3]
  intro a
  match a with
  | ⟨0, _⟩ =>
    show win0_3.index _ (0 : Fin 2) * 512 ≤ (i 0).val ∧ (i 0).val < win0_3.index _ (0 : Fin 2) * 512 + 512
    rw [(idx_facts _).2.2.2.1.1]
    show (i 0).val / 512 * 512 ≤ (i 0).val ∧ (i 0).val < (i 0).val / 512 * 512 + 512
    omega
  | ⟨1, _⟩ =>
    show win0_3.index _ (1 : Fin 2) * 1024 ≤ (i 1).val ∧ (i 1).val < win0_3.index _ (1 : Fin 2) * 1024 + 1024
    rw [(idx_facts _).2.2.2.1.2]
    omega

/-- An index of window 4's array is in point `t`'s block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_1).slice (win0_4.rect t)).set ↔ _
  rw [View.set_slice_whole, Rect.mem_set_unit]
  exact Iff.rfl

/-- Row `r` of window 4's array is in the block of point `r / 512`, which writes back. -/
theorem cover4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  refine ⟨⟨(i 0).val / 512, by omega⟩, flush0_4 _, ?_⟩
  rw [mem_blk4]
  intro a
  match a with
  | ⟨0, _⟩ =>
    show win0_4.index _ (0 : Fin 2) * 512 ≤ (i 0).val ∧ (i 0).val < win0_4.index _ (0 : Fin 2) * 512 + 512
    rw [(idx_facts _).2.2.2.2.1.1]
    show (i 0).val / 512 * 512 ≤ (i 0).val ∧ (i 0).val < (i 0).val / 512 * 512 + 512
    omega
  | ⟨1, _⟩ =>
    show win0_4.index _ (1 : Fin 2) * 1024 ≤ (i 1).val ∧ (i 1).val < win0_4.index _ (1 : Fin 2) * 1024 + 1024
    rw [(idx_facts _).2.2.2.2.1.2]
    omega

/-- An index of window 5's array is in point `t`'s block iff each coordinate is in the block's range on its axis. -/
theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v6_2).slice (win0_5.rect t)).set ↔ _
  rw [View.set_slice_whole, Rect.mem_set_unit]
  exact Iff.rfl

/-- Row `r` of window 5's array is in the block of point `r / 512`, which writes back. -/
theorem cover5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 8 := N_0
  refine ⟨⟨(i 0).val / 512, by omega⟩, flush0_5 _, ?_⟩
  rw [mem_blk5]
  intro a
  match a with
  | ⟨0, _⟩ =>
    show win0_5.index _ (0 : Fin 2) * 512 ≤ (i 0).val ∧ (i 0).val < win0_5.index _ (0 : Fin 2) * 512 + 512
    rw [(idx_facts _).2.2.2.2.2.1.1]
    show (i 0).val / 512 * 512 ≤ (i 0).val ∧ (i 0).val < (i 0).val / 512 * 512 + 512
    omega
  | ⟨1, _⟩ =>
    show win0_5.index _ (1 : Fin 2) * 1 ≤ (i 1).val ∧ (i 1).val < win0_5.index _ (1 : Fin 2) * 1 + 1
    rw [(idx_facts _).2.2.2.2.2.1.2]
    omega

/-- An index of window 6's array is in point `t`'s block iff each coordinate is in the block's range on its axis. -/
theorem mem_blk6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v6_3).slice (win0_6.rect t)).set ↔ _
  rw [View.set_slice_whole, Rect.mem_set_unit]
  exact Iff.rfl

/-- Row `r` of window 6's array is in the block of point `r / 512`, which writes back. -/
theorem cover6 (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 8 := N_0
  refine ⟨⟨(i 0).val / 512, by omega⟩, flush0_6 _, ?_⟩
  rw [mem_blk6]
  intro a
  match a with
  | ⟨0, _⟩ =>
    show win0_6.index _ (0 : Fin 2) * 512 ≤ (i 0).val ∧ (i 0).val < win0_6.index _ (0 : Fin 2) * 512 + 512
    rw [(idx_facts _).2.2.2.2.2.2.1]
    show (i 0).val / 512 * 512 ≤ (i 0).val ∧ (i 0).val < (i 0).val / 512 * 512 + 512
    omega
  | ⟨1, _⟩ =>
    show win0_6.index _ (1 : Fin 2) * 1 ≤ (i 1).val ∧ (i 1).val < win0_6.index _ (1 : Fin 2) * 1 + 1
    rw [(idx_facts _).2.2.2.2.2.2.2]
    omega
section Final
variable (x : SFeat.Idx → EReal) (c : Dev nD)

/-- Point `t` writes back block `t` of the anchors' directions. -/
theorem flushed3_eq (hV0 : ∀ (r : Fin 4096) (k : Fin 1024), (V c main_v1 : S4096x1024.Idx → EReal) (ix2 r k) = x (ix3 r 0 k))
    (t : Fin cfg0.N) :
    (dat0 V c).flushed 3 t = ((cfg0.win 3).blk t).view.read (Elt Ideal) (dirArr x 0) := by
  show (cfg0.win 3).cut (grid0.coords t) ((dat0 V c).after 3 t) = _
  rw [after0_3]
  unfold out0_3
  rw [View.canon_unit_zero hz]
  simp only [View.ld_unit_zero (S := S512x1024) hz]
  funext j
  show k0_pay6 (iblk0 V c 0 t) j
    = dir x 0 ((((cfg0.win 3).blk t).view.emb j) 0) ((((cfg0.win 3).blk t).view.emb j) 1)
  have e1 : (((cfg0.win 3).blk t).view.emb j) 1 = j 1 := Fin.ext (by
    show win0_3.index t 1 * 1024 + 1 * (j 1).val = (j 1).val
    rw [(idx_facts t).2.2.2.1.2]; omega)
  rw [e1]
  refine pay6_row x _ j _ fun k => ?_
  refine (iblk0_0_apply V c t (ix2 (j 0) k) (ix2 ((((cfg0.win 3).blk t).view.emb j) 0) k) ?_ rfl).trans (hV0 _ k)
  show win0_3.index t 0 * 512 + 1 * (j 0).val = 512 * t.val + (j 0).val
  rw [(idx_facts t).2.2.2.1.1]; omega

/-- Point `t` writes back block `t` of the negatives' directions. -/
theorem flushed4_eq (hV2 : ∀ (r : Fin 4096) (k : Fin 1024), (V c main_v5 : S4096x1024.Idx → EReal) (ix2 r k) = x (ix3 r 2 k))
    (t : Fin cfg0.N) :
    (dat0 V c).flushed 4 t = ((cfg0.win 4).blk t).view.read (Elt Ideal) (dirArr x 2) := by
  show (cfg0.win 4).cut (grid0.coords t) ((dat0 V c).after 4 t) = _
  rw [after0_4]
  unfold out0_4
  rw [View.canon_unit_zero hz]
  simp only [View.ld_unit_zero (S := S512x1024) hz]
  funext j
  show k0_pay1 (k0_pay3 (iblk0 V c 2 t)) j
    = dir x 2 ((((cfg0.win 4).blk t).view.emb j) 0) ((((cfg0.win 4).blk t).view.emb j) 1)
  have e1 : (((cfg0.win 4).blk t).view.emb j) 1 = j 1 := Fin.ext (by
    show win0_4.index t 1 * 1024 + 1 * (j 1).val = (j 1).val
    rw [(idx_facts t).2.2.2.2.1.2]; omega)
  rw [e1]
  refine pay13_row x _ j _ fun k => ?_
  refine (iblk0_2_apply V c t (ix2 (j 0) k) (ix2 ((((cfg0.win 4).blk t).view.emb j) 0) k) ?_ rfl).trans (hV2 _ k)
  show win0_4.index t 0 * 512 + 1 * (j 0).val = 512 * t.val + (j 0).val
  rw [(idx_facts t).2.2.2.2.1.1]; omega

/-- Point `t` writes back block `t` of the anchor-to-positive distances. -/
theorem flushed5_eq (hV0 : ∀ (r : Fin 4096) (k : Fin 1024), (V c main_v1 : S4096x1024.Idx → EReal) (ix2 r k) = x (ix3 r 0 k))
    (hV1 : ∀ (r : Fin 4096) (k : Fin 1024), (V c main_v3 : S4096x1024.Idx → EReal) (ix2 r k) = x (ix3 r 1 k))
    (t : Fin cfg0.N) :
    (dat0 V c).flushed 5 t = ((cfg0.win 5).blk t).view.read (Elt Ideal) (distCol x 1) := by
  show (cfg0.win 5).cut (grid0.coords t) ((dat0 V c).after 5 t) = _
  rw [after0_5]
  unfold out0_5
  rw [View.canon_unit_zero hz]
  simp only [View.ld_unit_zero (S := S512x1024) hz]
  funext j
  show k0_pay4 (iblk0 V c 0 t) (iblk0 V c 1 t) j
    = TripletSpec.dist x 1 ((((cfg0.win 5).blk t).view.emb j) 0) ((((cfg0.win 5).blk t).view.emb j) 0)
  have e0 : ((((cfg0.win 5).blk t).view.emb j) 0).val = 512 * t.val + (j 0).val := by
    show win0_5.index t 0 * 512 + 1 * (j 0).val = 512 * t.val + (j 0).val
    rw [(idx_facts t).2.2.2.2.2.1.1]; omega
  refine pay4_row x _ _ j _ (fun k => ?_) (fun k => ?_)
  · exact (iblk0_0_apply V c t (ix2 (j 0) k) (ix2 ((((cfg0.win 5).blk t).view.emb j) 0) k) e0 rfl).trans (hV0 _ k)
  · exact (iblk0_1_apply V c t (ix2 (j 0) k) (ix2 ((((cfg0.win 5).blk t).view.emb j) 0) k) e0 rfl).trans (hV1 _ k)

/-- Point `t` writes back block `t` of the anchor-to-negative distances. -/
theorem flushed6_eq (hV0 : ∀ (r : Fin 4096) (k : Fin 1024), (V c main_v1 : S4096x1024.Idx → EReal) (ix2 r k) = x (ix3 r 0 k))
    (hV2 : ∀ (r : Fin 4096) (k : Fin 1024), (V c main_v5 : S4096x1024.Idx → EReal) (ix2 r k) = x (ix3 r 2 k))
    (t : Fin cfg0.N) :
    (dat0 V c).flushed 6 t = ((cfg0.win 6).blk t).view.read (Elt Ideal) (distCol x 2) := by
  show (cfg0.win 6).cut (grid0.coords t) ((dat0 V c).after 6 t) = _
  rw [after0_6]
  unfold out0_6
  rw [View.canon_unit_zero hz]
  simp only [View.ld_unit_zero (S := S512x1024) hz]
  funext j
  show k0_pay5 (iblk0 V c 0 t) (iblk0 V c 2 t) j
    = TripletSpec.dist x 2 ((((cfg0.win 6).blk t).view.emb j) 0) ((((cfg0.win 6).blk t).view.emb j) 0)
  have e0 : ((((cfg0.win 6).blk t).view.emb j) 0).val = 512 * t.val + (j 0).val := by
    show win0_6.index t 0 * 512 + 1 * (j 0).val = 512 * t.val + (j 0).val
    rw [(idx_facts t).2.2.2.2.2.2.1]; omega
  refine pay5_row x _ _ j _ (fun k => ?_) (fun k => ?_)
  · exact (iblk0_0_apply V c t (ix2 (j 0) k) (ix2 ((((cfg0.win 6).blk t).view.emb j) 0) k) e0 rfl).trans (hV0 _ k)
  · exact (iblk0_2_apply V c t (ix2 (j 0) k) (ix2 ((((cfg0.win 6).blk t).view.emb j) 0) k) e0 rfl).trans (hV2 _ k)

/-- After the region, the first written array holds the anchors' directions. -/
theorem final3 (hV0 : ∀ (r : Fin 4096) (k : Fin 1024), (V c main_v1 : S4096x1024.Idx → EReal) (ix2 r k) = x (ix3 r 0 k)) : (dat0 V c).arrAt 3 cfg0.N = dirArr x 0 :=
  (dat0 V c).arrAt_eq_of_cover 3 (dirArr x 0) (fun t _ => flushed3_eq V x c hV0 t) cover3

/-- the second the negatives' directions, -/
theorem final4 (hV2 : ∀ (r : Fin 4096) (k : Fin 1024), (V c main_v5 : S4096x1024.Idx → EReal) (ix2 r k) = x (ix3 r 2 k)) : (dat0 V c).arrAt 4 cfg0.N = dirArr x 2 :=
  (dat0 V c).arrAt_eq_of_cover 4 (dirArr x 2) (fun t _ => flushed4_eq V x c hV2 t) cover4

/-- the third each row's anchor-to-positive distance, -/
theorem final5 (hV0 : ∀ (r : Fin 4096) (k : Fin 1024), (V c main_v1 : S4096x1024.Idx → EReal) (ix2 r k) = x (ix3 r 0 k)) (hV1 : ∀ (r : Fin 4096) (k : Fin 1024), (V c main_v3 : S4096x1024.Idx → EReal) (ix2 r k) = x (ix3 r 1 k)) : (dat0 V c).arrAt 5 cfg0.N = distCol x 1 :=
  (dat0 V c).arrAt_eq_of_cover 5 (distCol x 1) (fun t _ => flushed5_eq V x c hV0 hV1 t) cover5

/-- and the fourth each row's anchor-to-negative distance. -/
theorem final6 (hV0 : ∀ (r : Fin 4096) (k : Fin 1024), (V c main_v1 : S4096x1024.Idx → EReal) (ix2 r k) = x (ix3 r 0 k)) (hV2 : ∀ (r : Fin 4096) (k : Fin 1024), (V c main_v5 : S4096x1024.Idx → EReal) (ix2 r k) = x (ix3 r 2 k)) : (dat0 V c).arrAt 6 cfg0.N = distCol x 2 :=
  (dat0 V c).arrAt_eq_of_cover 6 (distCol x 2) (fun t _ => flushed6_eq V x c hV0 hV2 t) cover6

/-- The same four, read at an index. -/
theorem arr0_3 (hV0 : ∀ (r : Fin 4096) (k : Fin 1024), (V c main_v1 : S4096x1024.Idx → EReal) (ix2 r k) = x (ix3 r 0 k)) (r : Fin 4096) (k : Fin 1024) :
    ((dat0 V c).arrAt 3 cfg0.N : S4096x1024.Idx → EReal) (ix2 r k) = dir x 0 r k := by
  rw [final3 V x c hV0]; rfl

theorem arr0_4 (hV2 : ∀ (r : Fin 4096) (k : Fin 1024), (V c main_v5 : S4096x1024.Idx → EReal) (ix2 r k) = x (ix3 r 2 k)) (r : Fin 4096) (k : Fin 1024) :
    ((dat0 V c).arrAt 4 cfg0.N : S4096x1024.Idx → EReal) (ix2 r k) = dir x 2 r k := by
  rw [final4 V x c hV2]; rfl

theorem arr0_5 (hV0 : ∀ (r : Fin 4096) (k : Fin 1024), (V c main_v1 : S4096x1024.Idx → EReal) (ix2 r k) = x (ix3 r 0 k)) (hV1 : ∀ (r : Fin 4096) (k : Fin 1024), (V c main_v3 : S4096x1024.Idx → EReal) (ix2 r k) = x (ix3 r 1 k)) (r : Fin 4096) :
    ((dat0 V c).arrAt 5 cfg0.N : S4096x1.Idx → EReal) (ix2 r (0 : Fin 1)) = TripletSpec.dist x 1 r r := by
  rw [final5 V x c hV0 hV1]; rfl

theorem arr0_6 (hV0 : ∀ (r : Fin 4096) (k : Fin 1024), (V c main_v1 : S4096x1024.Idx → EReal) (ix2 r k) = x (ix3 r 0 k)) (hV2 : ∀ (r : Fin 4096) (k : Fin 1024), (V c main_v5 : S4096x1024.Idx → EReal) (ix2 r k) = x (ix3 r 2 k)) (r : Fin 4096) :
    ((dat0 V c).arrAt 6 cfg0.N : S4096x1.Idx → EReal) (ix2 r (0 : Fin 1)) = TripletSpec.dist x 2 r r := by
  rw [final6 V x c hV0 hV2]; rfl

end Final

end Cert.KernelIdeal.Region0

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.LibBatchMoments.lean ====
/-
  Batch moments over the extended reals.

  A column of real data has two spellings of its variance: the mean of the squares minus the
  square of the mean, and the mean of the squared deviations from the mean. Over the extended
  reals (where `⊤ - ⊤` is junk) the two agree when every entry is a real number; this file
  proves that, in the operations as programs spell them (`Ideal.div` for the quotient by the
  row count), together with the regrouping of a sum over `T * B` consecutive rows into `T`
  blocks of `B` rows, which is how a blocked accumulation meets a whole-column sum.
-/
import Mathlib.Data.EReal.Basic
import Mathlib.Data.EReal.Operations
import Mathlib.Algebra.BigOperators.Fin
import Mathlib.Algebra.BigOperators.Intervals
import Mathlib.Algebra.BigOperators.Ring.Finset
import Mathlib.Tactic.Ring
import Mathlib.Tactic.FieldSimp
import Mathlib.Tactic.NormNum
import Idealize.ShloMosaic.PureOps.Ideal

namespace Cert.LibBatchMoments

open Idealize.ShloMosaic
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- The variance identity over the reals: with `S = ∑ o`, `Q = ∑ o²` and `n` the number of
    entries, `Q / n - (S / n)² = (∑ (o - S / n)²) / n`, written with products by `1 / n`. -/
theorem var_two_ways_real {ι : Type*} [Fintype ι] (o : ι → ℝ) (n : ℝ) (hn : n ≠ 0)
    (hcard : (Fintype.card ι : ℝ) = n) :
    (∑ i, o i * o i) * (1 / n) - (∑ i, o i) * (1 / n) * ((∑ i, o i) * (1 / n))
      = (∑ i, (o i - (∑ j, o j) * (1 / n)) * (o i - (∑ j, o j) * (1 / n))) * (1 / n) := by
  have expand : ∑ i, (o i - (∑ j, o j) * (1 / n)) * (o i - (∑ j, o j) * (1 / n))
      = (∑ i, o i * o i) - 2 * ((∑ j, o j) * (1 / n)) * (∑ i, o i)
        + n * (((∑ j, o j) * (1 / n)) * ((∑ j, o j) * (1 / n))) := by
    have h1 : ∀ i, (o i - (∑ j, o j) * (1 / n)) * (o i - (∑ j, o j) * (1 / n))
        = o i * o i - 2 * ((∑ j, o j) * (1 / n)) * o i
          + ((∑ j, o j) * (1 / n)) * ((∑ j, o j) * (1 / n)) := fun i => by ring
    rw [Finset.sum_congr rfl (fun i _ => h1 i), Finset.sum_add_distrib, Finset.sum_sub_distrib,
      ← Finset.mul_sum, Finset.sum_const, Finset.card_univ, nsmul_eq_mul, hcard]
  rw [expand]
  field_simp
  ring

/-- `E[o²] - E[o]² = E[(o - E[o])²]` for real data, over the extended reals and in the
    operations as programs spell them: every mean is `Ideal.div` of a sum by the row count
    `n`. The hypothesis that the data is real is in the type of `o`. -/
theorem var_two_ways {ι : Type*} [Fintype ι] (o : ι → ℝ) (n : ℝ) (hn : n ≠ 0)
    (hcard : (Fintype.card ι : ℝ) = n) :
    Ideal.div (∑ i, (o i : EReal) * (o i : EReal)) (n : EReal)
      - Ideal.div (∑ i, (o i : EReal)) (n : EReal) * Ideal.div (∑ i, (o i : EReal)) (n : EReal)
    = Ideal.div (∑ i, ((o i : EReal) - Ideal.div (∑ j, (o j : EReal)) (n : EReal))
        * ((o i : EReal) - Ideal.div (∑ j, (o j : EReal)) (n : EReal))) (n : EReal) := by
  have hmean : Ideal.div (∑ j, (o j : EReal)) (n : EReal)
      = (((∑ j, o j) * (1 / n) : ℝ) : EReal) := by
    rw [Ideal.div_coe hn, ← coe_sum, ← EReal.coe_mul]
  have hsq : (∑ i, (o i : EReal) * (o i : EReal)) = ((∑ i, o i * o i : ℝ) : EReal) := by
    rw [coe_sum]
    exact Finset.sum_congr rfl (fun i _ => (EReal.coe_mul _ _).symm)
  have hdev : (∑ i, ((o i : EReal) - (((∑ j, o j) * (1 / n) : ℝ) : EReal))
        * ((o i : EReal) - (((∑ j, o j) * (1 / n) : ℝ) : EReal)))
      = ((∑ i, (o i - (∑ j, o j) * (1 / n)) * (o i - (∑ j, o j) * (1 / n)) : ℝ) : EReal) := by
    rw [coe_sum]
    exact Finset.sum_congr rfl (fun i _ => by rw [← EReal.coe_sub, ← EReal.coe_mul])
  rw [hmean, hsq, hdev, Ideal.div_coe hn, Ideal.div_coe hn, ← EReal.coe_mul, ← EReal.coe_mul,
    ← EReal.coe_mul, ← EReal.coe_sub, var_two_ways_real o n hn hcard]

/-- A sum over `T * B` consecutive naturals is the sum over `T` blocks of `B`: entry `p` of the
    whole range is entry `r` of block `t` at `p = B * t + r`. -/
theorem sum_blocked {M : Type*} [AddCommMonoid M] (T B : ℕ) (g : ℕ → M) :
    ∑ p ∈ Finset.range (T * B), g p
      = ∑ t ∈ Finset.range T, ∑ r ∈ Finset.range B, g (B * t + r) := by
  induction T with
  | zero => simp
  | succ T ih =>
    rw [Finset.sum_range_succ, ← ih, Nat.succ_mul, Finset.sum_range_add, Nat.mul_comm T B]

/-- The instance at 50000 rows in 10 blocks of 5000, over `Fin` types. -/
theorem sum_rows_blocked {M : Type*} [AddCommMonoid M] (g : ℕ → M) :
    ∑ p : Fin 50000, g p.val = ∑ t ∈ Finset.range 10, ∑ r : Fin 5000, g (5000 * t + r.val) := by
  rw [Fin.sum_univ_eq_sum_range (fun p => g p), show (50000 : ℕ) = 10 * 5000 from rfl,
    sum_blocked 10 5000 g]
  exact Finset.sum_congr rfl
    (fun t _ => (Fin.sum_univ_eq_sum_range (fun r => g (5000 * t + r)) 5000).symm)

end Cert.LibBatchMoments
-- ==== Proof.LibBlockPairs.lean ====
/-
  Sums over the pairs of 4096 rows, cut into an 8 × 8 grid of blocks of 512 × 512 pairs.

  A sum over all ordered pairs of rows is the sum over the 64 blocks of the sums over each block. When the summand
  vanishes off the strict upper triangle (row index below column index), the blocks strictly below the block diagonal
  contribute nothing, so the whole sum is the sum over the blocks `i ≤ j`; and a running total over the block columns
  that starts at zero and adds block `j` only when `i ≤ j` is that sum. Over the extended reals, with real data,
  a masked sum minus its part on a sub-mask is the masked sum over the complement of the sub-mask; a sum of ones over a
  mask is the number of index pairs the mask selects.
-/
import Mathlib.Data.EReal.Basic
import Mathlib.Data.EReal.Operations
import Mathlib.Algebra.BigOperators.Fin
import Mathlib.Algebra.BigOperators.Intervals
import Mathlib.Algebra.BigOperators.Ring.Finset
import Mathlib.Tactic.Ring
import Mathlib.Tactic.NormNum
import proofs.«135219_j66666482368607_2_alg».proof.Proof.LibIdxSums
import proofs.«135219_j66666482368607_2_alg».proof.Proof.LibBatchMoments

open scoped BigOperators

namespace Cert.LibBlockPairs

/-! ## The pair grid by blocks -/

section Blocks

variable {M : Type*} [AddCommMonoid M]

/-- Entry `p` of block `i` (8 blocks of 512) is a row index below 4096. -/
theorem blk_lt (i : Fin 8) (p : Fin 512) : i.val * 512 + p.val < 4096 := by
  have hi := i.isLt
  have hp := p.isLt
  omega

/-- A sum over the 4096 rows is the sum over the 8 blocks of the sums over each block's 512 rows:
    `∑_r h r = ∑_i ∑_p h (512 i + p)`. -/
theorem sum_rows_blocks (h : Fin 4096 → M) :
    ∑ r : Fin 4096, h r = ∑ i : Fin 8, ∑ p : Fin 512, h ⟨i.val * 512 + p.val, blk_lt i p⟩ :=
  Cert.LibIdxSums.sum_fin_blocks 8 512 h

/-- A sum over all ordered pairs of rows is the sum over the 8 × 8 blocks of the sums over each block's 512 × 512
    pairs: `∑_r ∑_c f r c = ∑_i ∑_j ∑_p ∑_q f (512 i + p) (512 j + q)`. -/
theorem sum_pairs_blocks (f : Fin 4096 → Fin 4096 → M) :
    ∑ r : Fin 4096, ∑ c : Fin 4096, f r c
      = ∑ i : Fin 8, ∑ j : Fin 8, ∑ p : Fin 512, ∑ q : Fin 512,
          f ⟨i.val * 512 + p.val, blk_lt i p⟩ ⟨j.val * 512 + q.val, blk_lt j q⟩ := by
  calc ∑ r : Fin 4096, ∑ c : Fin 4096, f r c
      = ∑ i : Fin 8, ∑ p : Fin 512, ∑ c : Fin 4096, f ⟨i.val * 512 + p.val, blk_lt i p⟩ c :=
        sum_rows_blocks fun r => ∑ c : Fin 4096, f r c
    _ = ∑ i : Fin 8, ∑ p : Fin 512, ∑ j : Fin 8, ∑ q : Fin 512,
          f ⟨i.val * 512 + p.val, blk_lt i p⟩ ⟨j.val * 512 + q.val, blk_lt j q⟩ :=
        Finset.sum_congr rfl fun i _ => Finset.sum_congr rfl fun p _ =>
          sum_rows_blocks fun c => f ⟨i.val * 512 + p.val, blk_lt i p⟩ c
    _ = ∑ i : Fin 8, ∑ j : Fin 8, ∑ p : Fin 512, ∑ q : Fin 512,
          f ⟨i.val * 512 + p.val, blk_lt i p⟩ ⟨j.val * 512 + q.val, blk_lt j q⟩ :=
        Finset.sum_congr rfl fun i _ => Finset.sum_comm

/-- When the summand vanishes wherever the row index is not below the column index, a block strictly below the block
    diagonal (`j < i`) sums to zero: every row of block `i` comes after every column of block `j`. -/
theorem lower_block_vanish (f : Fin 4096 → Fin 4096 → M) (hf : ∀ r c : Fin 4096, ¬ r.val < c.val → f r c = 0)
    (i j : Fin 8) (hji : j.val < i.val) :
    ∑ p : Fin 512, ∑ q : Fin 512, f ⟨i.val * 512 + p.val, blk_lt i p⟩ ⟨j.val * 512 + q.val, blk_lt j q⟩ = 0 := by
  refine Finset.sum_eq_zero fun p _ => Finset.sum_eq_zero fun q _ => hf _ _ ?_
  show ¬ i.val * 512 + p.val < j.val * 512 + q.val
  have hq := q.isLt
  omega

/-- When the summand vanishes wherever the row index is not below the column index, the sum over all pairs of rows is
    the sum over the blocks on or above the block diagonal:
    `∑_r ∑_c f r c = ∑_i ∑_j (if i ≤ j then ∑_p ∑_q f (512 i + p) (512 j + q) else 0)`. -/
theorem sum_pairs_upper_blocks (f : Fin 4096 → Fin 4096 → M) (hf : ∀ r c : Fin 4096, ¬ r.val < c.val → f r c = 0) :
    ∑ r : Fin 4096, ∑ c : Fin 4096, f r c
      = ∑ i : Fin 8, ∑ j : Fin 8,
          if i.val ≤ j.val then
            ∑ p : Fin 512, ∑ q : Fin 512, f ⟨i.val * 512 + p.val, blk_lt i p⟩ ⟨j.val * 512 + q.val, blk_lt j q⟩
          else 0 := by
  rw [sum_pairs_blocks]
  refine Finset.sum_congr rfl fun i _ => Finset.sum_congr rfl fun j _ => ?_
  by_cases hij : i.val ≤ j.val
  · rw [if_pos hij]
  · rw [if_neg hij]
    exact lower_block_vanish f hf i j (by omega)

/-- Block totals that agree, on and above the block diagonal, with the block sums of a summand vanishing off the strict
    upper triangle add up to the sum of that summand over all pairs of rows:
    `∑_i ∑_j (if i ≤ j then B i j else 0) = ∑_r ∑_c f r c`. -/
theorem upper_blocks_total (f : Fin 4096 → Fin 4096 → M) (hf : ∀ r c : Fin 4096, ¬ r.val < c.val → f r c = 0)
    (B : Fin 8 → Fin 8 → M)
    (hB : ∀ i j : Fin 8, i.val ≤ j.val →
      B i j = ∑ p : Fin 512, ∑ q : Fin 512, f ⟨i.val * 512 + p.val, blk_lt i p⟩ ⟨j.val * 512 + q.val, blk_lt j q⟩) :
    (∑ i : Fin 8, ∑ j : Fin 8, if i.val ≤ j.val then B i j else 0) = ∑ r : Fin 4096, ∑ c : Fin 4096, f r c := by
  rw [sum_pairs_upper_blocks f hf]
  refine Finset.sum_congr rfl fun i _ => Finset.sum_congr rfl fun j _ => ?_
  by_cases hij : i.val ≤ j.val
  · rw [if_pos hij, if_pos hij, hB i j hij]
  · rw [if_neg hij, if_neg hij]

/-! ## A running total over the block columns -/

/-- A running total that starts at zero and at step `j` adds `b j` when `i ≤ j` (and nothing otherwise) is, after
    `n` steps, the sum of the `b j` with `i ≤ j < n`. Only the first `n` steps are used. -/
theorem acc_fold (acc b : ℕ → M) (i : ℕ) (n : ℕ) (h0 : acc 0 = 0)
    (hs : ∀ j, j < n → acc (j + 1) = acc j + (if i ≤ j then b j else 0)) :
    acc n = ∑ j ∈ Finset.range n, if i ≤ j then b j else 0 := by
  induction n with
  | zero => rw [h0, Finset.sum_range_zero]
  | succ k ih =>
    rw [hs k (Nat.lt_succ_self k), ih fun j hj => hs j (Nat.lt_succ_of_lt hj), Finset.sum_range_succ]

/-- The running total over the 8 block columns: started at zero, adding `b j` at step `j` when `i ≤ j`, it ends at
    `∑_{j : Fin 8} (if i ≤ j then b j else 0)`. -/
theorem acc_fold8 (acc b : ℕ → M) (i : ℕ) (h0 : acc 0 = 0)
    (hs : ∀ j, j < 8 → acc (j + 1) = acc j + (if i ≤ j then b j else 0)) :
    acc 8 = ∑ j : Fin 8, if i ≤ j.val then b j.val else 0 := by
  rw [acc_fold acc b i 8 h0 hs]
  exact Finset.sum_range fun j => if i ≤ j then b j else 0

end Blocks

/-! ## Real data in the extended reals: differences of sums, masks, counts -/

section Real

open Cert.LibBatchMoments (coe_sum)

/-- A finite sum of real numbers, read in the extended reals, is a real number. -/
theorem sum_real {ι : Type*} (s : Finset ι) (a : ι → EReal) (ha : ∀ i ∈ s, ∃ y : ℝ, a i = (y : EReal)) :
    ∃ y : ℝ, ∑ i ∈ s, a i = (y : EReal) := by
  classical
  induction s using Finset.induction_on with
  | empty => exact ⟨0, by rw [Finset.sum_empty, EReal.coe_zero]⟩
  | insert k s hk ih =>
    obtain ⟨y, hy⟩ := ha k (Finset.mem_insert_self k s)
    obtain ⟨z, hz⟩ := ih fun i hi => ha i (Finset.mem_insert_of_mem hi)
    exact ⟨y + z, by rw [Finset.sum_insert hk, hy, hz, EReal.coe_add]⟩

/-- A double sum of real numbers over two finite index types, read in the extended reals, is a real number. -/
theorem sum_sum_real {ι κ : Type*} [Fintype ι] [Fintype κ] (a : ι → κ → EReal)
    (ha : ∀ p q, ∃ y : ℝ, a p q = (y : EReal)) : ∃ y : ℝ, ∑ p, ∑ q, a p q = (y : EReal) :=
  sum_real _ _ fun p _ => sum_real _ _ fun q _ => ha p q

/-- For real data, the difference of two finite sums is the sum of the differences (in the extended reals this needs
    the data real: `⊤ - ⊤` is not `0`). -/
theorem sum_sub_sum {ι : Type*} (s : Finset ι) (a b : ι → EReal) (ha : ∀ i ∈ s, ∃ y : ℝ, a i = (y : EReal))
    (hb : ∀ i ∈ s, ∃ y : ℝ, b i = (y : EReal)) :
    (∑ i ∈ s, a i) - ∑ i ∈ s, b i = ∑ i ∈ s, (a i - b i) := by
  classical
  induction s using Finset.induction_on with
  | empty => rw [Finset.sum_empty, Finset.sum_empty, Finset.sum_empty, sub_zero]
  | insert k s hk ih =>
    have ha' : ∀ i ∈ s, ∃ y : ℝ, a i = (y : EReal) := fun i hi => ha i (Finset.mem_insert_of_mem hi)
    have hb' : ∀ i ∈ s, ∃ y : ℝ, b i = (y : EReal) := fun i hi => hb i (Finset.mem_insert_of_mem hi)
    obtain ⟨y, hy⟩ := ha k (Finset.mem_insert_self k s)
    obtain ⟨z, hz⟩ := hb k (Finset.mem_insert_self k s)
    obtain ⟨u, hu⟩ := sum_real s a ha'
    obtain ⟨v, hv⟩ := sum_real s b hb'
    rw [Finset.sum_insert hk, Finset.sum_insert hk, Finset.sum_insert hk, ← ih ha' hb', hy, hz, hu, hv,
      ← EReal.coe_add, ← EReal.coe_add, ← EReal.coe_sub, ← EReal.coe_sub, ← EReal.coe_sub, ← EReal.coe_add]
    exact congrArg _ (by ring)

/-- For real data, a double sum of differences is the difference of the double sums:
    `∑_i ∑_j (a i j - b i j) = ∑_i ∑_j a i j - ∑_i ∑_j b i j`. -/
theorem sum_sub_blocks {ι κ : Type*} [Fintype ι] [Fintype κ] (a b : ι → κ → EReal)
    (ha : ∀ p q, ∃ y : ℝ, a p q = (y : EReal)) (hb : ∀ p q, ∃ y : ℝ, b p q = (y : EReal)) :
    ∑ p, ∑ q, (a p q - b p q) = (∑ p, ∑ q, a p q) - ∑ p, ∑ q, b p q := by
  rw [sum_sub_sum Finset.univ (fun p => ∑ q, a p q) (fun p => ∑ q, b p q)
    (fun p _ => sum_real _ _ fun q _ => ha p q) (fun p _ => sum_real _ _ fun q _ => hb p q)]
  exact Finset.sum_congr rfl fun p _ =>
    (sum_sub_sum Finset.univ (a p) (b p) (fun q _ => ha p q) (fun q _ => hb p q)).symm

/-- A real number kept under a condition and replaced by zero otherwise is a real number. -/
theorem ite_real (c : Prop) [Decidable c] (d : EReal) (hd : ∃ y : ℝ, d = (y : EReal)) :
    ∃ y : ℝ, (if c then d else 0) = (y : EReal) := by
  by_cases h : c
  · rw [if_pos h]; exact hd
  · rw [if_neg h]; exact ⟨0, EReal.coe_zero.symm⟩

/-- One term of a mask split: a real number kept under `U`, minus the same number kept under `U ∧ S`, is that number
    kept under `U ∧ ¬ S`. -/
theorem ite_sub_ite (d : EReal) (hd : ∃ y : ℝ, d = (y : EReal)) (U S : Prop) [Decidable U] [Decidable (U ∧ S)]
    [Decidable (U ∧ ¬ S)] :
    (if U then d else 0) - (if U ∧ S then d else 0) = if U ∧ ¬ S then d else 0 := by
  obtain ⟨y, rfl⟩ := hd
  by_cases hU : U
  · by_cases hS : S
    · rw [if_pos hU, if_pos ⟨hU, hS⟩, if_neg fun h => h.2 hS, ← EReal.coe_sub, sub_self, EReal.coe_zero]
    · rw [if_pos hU, if_neg fun h => hS h.2, if_pos ⟨hU, hS⟩, sub_zero]
  · rw [if_neg hU, if_neg fun h => hU h.1, if_neg fun h => hU h.1, sub_zero]

/-- The mask split, over any two finite index types: for real data `d`, the sum of `d` over the mask `U` minus the sum
    of `d` over the mask `U ∧ S` is the sum of `d` over the mask `U ∧ ¬ S`. -/
theorem mask_split {ι κ : Type*} [Fintype ι] [Fintype κ] (d : ι → κ → EReal)
    (hd : ∀ p q, ∃ y : ℝ, d p q = (y : EReal)) (U S : ι → κ → Prop) [∀ p q, Decidable (U p q)]
    [∀ p q, Decidable (U p q ∧ S p q)] [∀ p q, Decidable (U p q ∧ ¬ S p q)] :
    (∑ p, ∑ q, if U p q then d p q else 0) - (∑ p, ∑ q, if U p q ∧ S p q then d p q else 0)
      = ∑ p, ∑ q, if U p q ∧ ¬ S p q then d p q else 0 := by
  rw [← sum_sub_blocks (fun p q => if U p q then d p q else 0) (fun p q => if U p q ∧ S p q then d p q else 0)
    (fun p q => ite_real _ _ (hd p q)) (fun p q => ite_real _ _ (hd p q))]
  exact Finset.sum_congr rfl fun p _ => Finset.sum_congr rfl fun q _ => ite_sub_ite (d p q) (hd p q) (U p q) (S p q)

/-- The mask split on one block of 512 × 512 pairs. -/
theorem mask_split512 (d : Fin 512 → Fin 512 → EReal) (hd : ∀ p q, ∃ y : ℝ, d p q = (y : EReal))
    (U S : Fin 512 → Fin 512 → Prop) [∀ p q, Decidable (U p q)] [∀ p q, Decidable (U p q ∧ S p q)]
    [∀ p q, Decidable (U p q ∧ ¬ S p q)] :
    (∑ p : Fin 512, ∑ q : Fin 512, if U p q then d p q else 0)
        - (∑ p : Fin 512, ∑ q : Fin 512, if U p q ∧ S p q then d p q else 0)
      = ∑ p : Fin 512, ∑ q : Fin 512, if U p q ∧ ¬ S p q then d p q else 0 :=
  mask_split d hd U S

/-! ### Counts -/

/-- The number one, in the extended reals, is a real number. -/
theorem one_real : ∃ y : ℝ, (1 : EReal) = (y : EReal) := ⟨1, EReal.coe_one.symm⟩

/-- The coercion of a natural number into the extended reals (through the reals) commutes with finite sums. -/
theorem coe_nat_sum {ι : Type*} (s : Finset ι) (n : ι → ℕ) :
    (((∑ i ∈ s, n i : ℕ) : ℝ) : EReal) = ∑ i ∈ s, (((n i : ℕ) : ℝ) : EReal) := by
  rw [Nat.cast_sum, coe_sum]

/-- A sum of ones over a mask is the number of index pairs the mask selects, that number written as the double sum of
    `if P p q then 1 else 0` over the naturals. The two masks may be spelled differently as long as they agree. -/
theorem sum_ite_one {ι κ : Type*} [Fintype ι] [Fintype κ] (P Q : ι → κ → Prop) [∀ p q, Decidable (P p q)]
    [∀ p q, Decidable (Q p q)] (hPQ : ∀ p q, P p q ↔ Q p q) :
    ∑ p, ∑ q, (if P p q then (1 : EReal) else 0) = (((∑ p, ∑ q, (if Q p q then 1 else 0) : ℕ) : ℝ) : EReal) := by
  rw [coe_nat_sum]
  refine Finset.sum_congr rfl fun p _ => ?_
  rw [coe_nat_sum]
  refine Finset.sum_congr rfl fun q _ => ?_
  by_cases h : P p q
  · rw [if_pos h, if_pos ((hPQ p q).mp h), Nat.cast_one, EReal.coe_one]
  · rw [if_neg h, if_neg fun hq => h ((hPQ p q).mpr hq), Nat.cast_zero, EReal.coe_zero]

/-- The number of index pairs a mask selects, as the cardinality of the selected set of pairs. -/
theorem count_eq_card {ι κ : Type*} [Fintype ι] [Fintype κ] (P : ι → κ → Prop) [∀ p q, Decidable (P p q)] :
    (∑ p, ∑ q, (if P p q then 1 else 0) : ℕ) = (Finset.univ.filter fun pq : ι × κ => P pq.1 pq.2).card := by
  rw [Finset.card_filter, Fintype.sum_prod_type]

/-- The count split: the count of the mask `U` minus the count of the mask `U ∧ S`, both as sums of ones in the
    extended reals, is the count of the mask `U ∧ ¬ S`. -/
theorem count_split {ι κ : Type*} [Fintype ι] [Fintype κ] (U S : ι → κ → Prop) [∀ p q, Decidable (U p q)]
    [∀ p q, Decidable (U p q ∧ S p q)] [∀ p q, Decidable (U p q ∧ ¬ S p q)] :
    (∑ p, ∑ q, if U p q then (1 : EReal) else 0) - (∑ p, ∑ q, if U p q ∧ S p q then (1 : EReal) else 0)
      = ∑ p, ∑ q, if U p q ∧ ¬ S p q then (1 : EReal) else 0 :=
  mask_split (fun _ _ => (1 : EReal)) (fun _ _ => one_real) U S

/-- Counts add over the blocks: block totals that agree, on and above the block diagonal, with the sums of ones over a
    mask `P` that selects only pairs with row index below column index add up to the number of pairs of rows `P`
    selects. -/
theorem upper_blocks_count (P : Fin 4096 → Fin 4096 → Prop) [∀ r c, Decidable (P r c)]
    (hP : ∀ r c : Fin 4096, P r c → r.val < c.val) (B : Fin 8 → Fin 8 → EReal)
    (hB : ∀ i j : Fin 8, i.val ≤ j.val →
      B i j = ∑ p : Fin 512, ∑ q : Fin 512,
        if P ⟨i.val * 512 + p.val, blk_lt i p⟩ ⟨j.val * 512 + q.val, blk_lt j q⟩ then (1 : EReal) else 0) :
    (∑ i : Fin 8, ∑ j : Fin 8, if i.val ≤ j.val then B i j else 0)
      = (((∑ r : Fin 4096, ∑ c : Fin 4096, (if P r c then 1 else 0) : ℕ) : ℝ) : EReal) := by
  rw [upper_blocks_total (fun r c => if P r c then (1 : EReal) else 0)
    (fun r c hrc => if_neg fun h => hrc (hP r c h)) B hB]
  exact sum_ite_one P P fun _ _ => Iff.rfl

/-- A total count `a + m + n` of naturals, read in the extended reals, is the sum of the three parts read there. -/
theorem coe_count_add (a m n : ℕ) :
    (((a + m + n : ℕ) : ℝ) : EReal) = ((a : ℝ) : EReal) + ((m : ℝ) : EReal) + ((n : ℝ) : EReal) := by
  rw [Nat.cast_add, Nat.cast_add, EReal.coe_add, EReal.coe_add]

end Real

end Cert.LibBlockPairs
-- ==== Proof.SpecReal.lean ====
/-
  When every feature is a real number, every quantity of the specification up to the cosine distance is a real number.

  An entry is real by hypothesis; a sum of squares of reals is a nonnegative real, so its square root is a nonnegative
  real; the clamp constant is the positive real `11258999 / 2 ^ 50`, so a clamped norm is a positive real; a quotient of
  a real by a positive real is real; an inner product of two directions is a finite sum of reals, and one minus it is a
  real. These facts are what make differences of sums of distances behave as they do over the reals.
-/
import proofs.«135219_j66666482368607_2_alg».proof.Proof.Spec
import proofs.«135219_j66666482368607_2_alg».proof.Proof.LibBlockPairs

noncomputable section

open scoped BigOperators

namespace Cert.TripletSpec

open Idealize.ShloMosaic Idealize.ShloMosaic.ValueIdx

/-! ## The constants -/

/-- The clamp constant is `11258999 / 2 ^ 50` (sign 0, exponent field 100, significand field 2870391). -/
theorem eps_eq : eps = ((11258999 / 2 ^ 50 : ℝ) : EReal) := by
  unfold eps
  simp [Ideal.ofBits, Ideal.ieee, -EReal.coe_mul]
  norm_num

/-- The clamp constant is a positive real. -/
theorem eps_pos_real : ∃ e : ℝ, 0 < e ∧ eps = (e : EReal) := ⟨11258999 / 2 ^ 50, by norm_num, eps_eq⟩

/-- The constant `one` is the real number one. -/
theorem one_eq : one = ((1 : ℝ) : EReal) := by
  unfold one
  simp [Ideal.ofBits, Ideal.ieee, -EReal.coe_mul]
  norm_num

/-- The margin is the real number five. -/
theorem margin_eq : margin = ((5 : ℝ) : EReal) := by
  unfold margin
  simp [Ideal.ofBits, Ideal.ieee, -EReal.coe_mul]
  norm_num

/-- The constant `zero` is the real number zero. -/
theorem zero_eq : zero = ((0 : ℝ) : EReal) := by
  unfold zero
  simp [Ideal.ofBits, Ideal.ieee]

/-- The maximum of two reals, read in the extended reals, is the maximum there. -/
theorem coe_max (a b : ℝ) : max (a : EReal) (b : EReal) = ((max a b : ℝ) : EReal) :=
  (EReal.coe_strictMono.monotone.map_max (a := a) (b := b)).symm

/-! ## The quantities of the specification at real features -/

variable (x : SFeat.Idx → EReal)

/-- An entry is a real number. -/
theorem ent_real (hx : ∀ i, ∃ y : ℝ, x i = (y : EReal)) (s : Fin 3) (r : Fin 4096) (k : Fin 1024) :
    ∃ y : ℝ, ent x s r k = (y : EReal) :=
  hx (ix3 r s k)

/-- The sum of the squares of a vector's entries is a nonnegative real. -/
theorem sumsq_real (hx : ∀ i, ∃ y : ℝ, x i = (y : EReal)) (s : Fin 3) (r : Fin 4096) :
    ∃ y : ℝ, 0 ≤ y ∧ ∑ k : Fin 1024, ent x s r k * ent x s r k = (y : EReal) := by
  choose y hy using fun k => ent_real x hx s r k
  refine ⟨∑ k, y k * y k, Finset.sum_nonneg fun k _ => mul_self_nonneg (y k), ?_⟩
  rw [Cert.LibBatchMoments.coe_sum]
  exact Finset.sum_congr rfl fun k _ => by rw [hy k, EReal.coe_mul]

/-- The Euclidean norm of a vector is a nonnegative real. -/
theorem norm_real (hx : ∀ i, ∃ y : ℝ, x i = (y : EReal)) (s : Fin 3) (r : Fin 4096) :
    ∃ y : ℝ, 0 ≤ y ∧ Ideal.sqrt (∑ k : Fin 1024, ent x s r k * ent x s r k) = (y : EReal) := by
  obtain ⟨y, hy0, hy⟩ := sumsq_real x hx s r
  refine ⟨Real.sqrt y, Real.sqrt_nonneg y, ?_⟩
  rw [hy, Ideal.sqrt_coe, if_neg (not_lt.mpr hy0)]

/-- The clamped norm of a vector is a positive real. -/
theorem clampNorm_real_pos (hx : ∀ i, ∃ y : ℝ, x i = (y : EReal)) (s : Fin 3) (r : Fin 4096) :
    ∃ y : ℝ, 0 < y ∧ clampNorm x s r = (y : EReal) := by
  obtain ⟨y, _, hy⟩ := norm_real x hx s r
  refine ⟨max y (11258999 / 2 ^ 50), lt_max_of_lt_right (by norm_num), ?_⟩
  unfold clampNorm
  rw [hy, eps_eq, coe_max]

/-- An entry of a direction is the entry times the reciprocal of the clamped norm, a real number. -/
theorem dir_real (hx : ∀ i, ∃ y : ℝ, x i = (y : EReal)) (s : Fin 3) (r : Fin 4096) (k : Fin 1024) :
    ∃ y : ℝ, dir x s r k = (y : EReal) := by
  obtain ⟨e, he⟩ := ent_real x hx s r k
  obtain ⟨n, hn0, hn⟩ := clampNorm_real_pos x hx s r
  refine ⟨e * (1 / n), ?_⟩
  unfold dir
  rw [hn, Ideal.div_coe hn0.ne', he, EReal.coe_mul]

/-- The inner product of two directions is a real number. -/
theorem inner_real (hx : ∀ i, ∃ y : ℝ, x i = (y : EReal)) (s : Fin 3) (r c : Fin 4096) :
    ∃ y : ℝ, ∑ k : Fin 1024, dir x 0 r k * dir x s c k = (y : EReal) :=
  Cert.LibBlockPairs.sum_real Finset.univ (fun k => dir x 0 r k * dir x s c k) fun k _ => by
    obtain ⟨a, ha⟩ := dir_real x hx 0 r k
    obtain ⟨b, hb⟩ := dir_real x hx s c k
    exact ⟨a * b, by rw [ha, hb, EReal.coe_mul]⟩

/-- The cosine distance is a real number. -/
theorem dist_real (hx : ∀ i, ∃ y : ℝ, x i = (y : EReal)) (s : Fin 3) (r c : Fin 4096) :
    ∃ y : ℝ, dist x s r c = (y : EReal) := by
  obtain ⟨t, ht⟩ := inner_real x hx s r c
  refine ⟨1 - t, ?_⟩
  unfold dist
  rw [ht, one_eq, EReal.coe_sub]

end Cert.TripletSpec

end
-- ==== Proof.KernelAlgebra.lean ====
/-
  The blocked arithmetic of the loss, as definitions over the quantities of the specification, and its agreement with
  the specification's closed formula.

  The 4096 × 4096 grid of row pairs is cut into 8 × 8 blocks of 512 × 512. Block `(i, j)` yields eight numbers: for the
  label test, the sum of the anchor-to-anchor distances over the pairs of the block that lie strictly above the diagonal
  and carry equal labels, the number of such pairs (as a sum of ones), and the differences between the same two sums
  over all pairs strictly above the diagonal and these; and the same four for the negative-label test with the
  anchor-to-negative distances. Row block `i` adds up its blocks `j ≥ i`; the eight totals are the sums over the row
  blocks. With real features the differences are the sums over the pairs with unequal labels, the blocks below the
  block diagonal hold no pair above the diagonal, and so the eight totals are the specification's four pair sums and
  four pair counts.
-/
import proofs.«135219_j66666482368607_2_alg».proof.Proof.Spec
import proofs.«135219_j66666482368607_2_alg».proof.Proof.SpecReal
import proofs.«135219_j66666482368607_2_alg».proof.Proof.LibBlockPairs

noncomputable section

open scoped BigOperators

namespace Cert.TripletSpec

open Idealize.ShloMosaic Idealize.ShloMosaic.ValueIdx Cert.LibBlockPairs

variable (x : SFeat.Idx → EReal) (lab neg : SLab.Idx → BitVec 32)

/-! ## Block totals against the specification's pair sums and pair counts -/

/-- Block totals that agree, on and above the block diagonal, with the block sums of the distances over a mask selecting
    only pairs with row before column add up to the specification's sum over that mask. The blocks' mask may carry any
    decidability instance. -/
theorem pairSum_of_blocks (P : Fin 4096 → Fin 4096 → Prop) (hP : ∀ r c : Fin 4096, P r c → r.val < c.val) (s : Fin 3)
    (B : Fin 8 → Fin 8 → EReal) [inst : ∀ r c, Decidable (P r c)]
    (hB : ∀ i j : Fin 8, i.val ≤ j.val →
      B i j = ∑ p : Fin 512, ∑ q : Fin 512,
        if P ⟨i.val * 512 + p.val, blk_lt i p⟩ ⟨j.val * 512 + q.val, blk_lt j q⟩
          then dist x s ⟨i.val * 512 + p.val, blk_lt i p⟩ ⟨j.val * 512 + q.val, blk_lt j q⟩ else 0) :
    (∑ i : Fin 8, ∑ j : Fin 8, if i.val ≤ j.val then B i j else 0) = pairSum x P s := by
  refine (upper_blocks_total (fun r c => if P r c then dist x s r c else 0)
    (fun r c hrc => if_neg fun h => hrc (hP r c h)) B hB).trans ?_
  unfold pairSum
  refine Finset.sum_congr rfl fun r _ => Finset.sum_congr rfl fun c _ => ?_
  congr

/-- The same for the counts: block totals of sums of ones over such a mask add up to the specification's count of the
    mask, read in the extended reals. -/
theorem pairCount_of_blocks (P : Fin 4096 → Fin 4096 → Prop) (hP : ∀ r c : Fin 4096, P r c → r.val < c.val)
    (B : Fin 8 → Fin 8 → EReal) [inst : ∀ r c, Decidable (P r c)]
    (hB : ∀ i j : Fin 8, i.val ≤ j.val →
      B i j = ∑ p : Fin 512, ∑ q : Fin 512,
        if P ⟨i.val * 512 + p.val, blk_lt i p⟩ ⟨j.val * 512 + q.val, blk_lt j q⟩ then (1 : EReal) else 0) :
    (∑ i : Fin 8, ∑ j : Fin 8, if i.val ≤ j.val then B i j else 0) = (((pairCount P : ℕ) : ℝ) : EReal) := by
  refine (upper_blocks_count P hP B hB).trans ?_
  have h : (∑ r : Fin 4096, ∑ c : Fin 4096, (if P r c then 1 else 0) : ℕ) = pairCount P := by
    unfold pairCount
    refine Finset.sum_congr rfl fun r _ => Finset.sum_congr rfl fun c _ => ?_
    congr
  rw [h]

namespace KernelForm

/-! ## The blocked arithmetic -/

/-- Row `p` of row block `i`: the global row `512 i + p`. -/
abbrev row (i : Fin 8) (p : Fin 512) : Fin 4096 := ⟨i.val * 512 + p.val, blk_lt i p⟩

/-- Pair `(p, q)` of block `(i, j)` lies strictly above the diagonal: its global column comes after its global row. -/
def U (i j : Fin 8) (p q : Fin 512) : Prop := (row i p).val < (row j q).val
/-- The two rows of pair `(p, q)` of block `(i, j)` carry the same label. -/
def SL (i j : Fin 8) (p q : Fin 512) : Prop := sameLab lab (row i p) (row j q)
/-- The label of the row of pair `(p, q)` of block `(i, j)` is the negative-label of its column. -/
def SN (i j : Fin 8) (p q : Fin 512) : Prop := sameNeg lab neg (row i p) (row j q)
/-- The anchor-to-anchor distance of pair `(p, q)` of block `(i, j)`. -/
def dA (i j : Fin 8) (p q : Fin 512) : EReal := dist x 0 (row i p) (row j q)
/-- The anchor-to-negative distance of pair `(p, q)` of block `(i, j)`. -/
def dG (i j : Fin 8) (p q : Fin 512) : EReal := dist x 2 (row i p) (row j q)

open Classical in
/-- Number 0 of block `(i, j)`: the anchor-to-anchor distances over the pairs above the diagonal with equal labels. -/
def vals0 (i j : Fin 8) : EReal :=
  ∑ p : Fin 512, ∑ q : Fin 512, if U i j p q ∧ SL lab i j p q then dA x i j p q else 0
open Classical in
/-- Number 1: the number of pairs above the diagonal with equal labels, as a sum of ones. -/
def vals1 (i j : Fin 8) : EReal :=
  ∑ p : Fin 512, ∑ q : Fin 512, if U i j p q ∧ SL lab i j p q then (1 : EReal) else 0
open Classical in
/-- Number 2: the anchor-to-anchor distances over all pairs above the diagonal, minus number 0. -/
def vals2 (i j : Fin 8) : EReal :=
  (∑ p : Fin 512, ∑ q : Fin 512, if U i j p q then dA x i j p q else 0) - vals0 x lab i j
open Classical in
/-- Number 3: the number of pairs above the diagonal, as a sum of ones, minus number 1. -/
def vals3 (i j : Fin 8) : EReal :=
  (∑ p : Fin 512, ∑ q : Fin 512, if U i j p q then (1 : EReal) else 0) - vals1 lab i j
open Classical in
/-- Number 4: the anchor-to-negative distances over the pairs above the diagonal whose row label is the column's
    negative-label. -/
def vals4 (i j : Fin 8) : EReal :=
  ∑ p : Fin 512, ∑ q : Fin 512, if U i j p q ∧ SN lab neg i j p q then dG x i j p q else 0
open Classical in
/-- Number 5: the number of such pairs, as a sum of ones. -/
def vals5 (i j : Fin 8) : EReal :=
  ∑ p : Fin 512, ∑ q : Fin 512, if U i j p q ∧ SN lab neg i j p q then (1 : EReal) else 0
open Classical in
/-- Number 6: the anchor-to-negative distances over all pairs above the diagonal, minus number 4. -/
def vals6 (i j : Fin 8) : EReal :=
  (∑ p : Fin 512, ∑ q : Fin 512, if U i j p q then dG x i j p q else 0) - vals4 x lab neg i j
open Classical in
/-- Number 7: the number of pairs above the diagonal, as a sum of ones, minus number 5. -/
def vals7 (i j : Fin 8) : EReal :=
  (∑ p : Fin 512, ∑ q : Fin 512, if U i j p q then (1 : EReal) else 0) - vals5 lab neg i j

/-- The eight numbers of block `(i, j)`, in order. -/
def vals (i j : Fin 8) : Fin 8 → EReal
  | ⟨0, _⟩ => vals0 x lab i j
  | ⟨1, _⟩ => vals1 lab i j
  | ⟨2, _⟩ => vals2 x lab i j
  | ⟨3, _⟩ => vals3 lab i j
  | ⟨4, _⟩ => vals4 x lab neg i j
  | ⟨5, _⟩ => vals5 lab neg i j
  | ⟨6, _⟩ => vals6 x lab neg i j
  | ⟨7, _⟩ => vals7 lab neg i j

@[simp] theorem vals_0 (i j : Fin 8) : vals x lab neg i j 0 = vals0 x lab i j := rfl
@[simp] theorem vals_1 (i j : Fin 8) : vals x lab neg i j 1 = vals1 lab i j := rfl
@[simp] theorem vals_2 (i j : Fin 8) : vals x lab neg i j 2 = vals2 x lab i j := rfl
@[simp] theorem vals_3 (i j : Fin 8) : vals x lab neg i j 3 = vals3 lab i j := rfl
@[simp] theorem vals_4 (i j : Fin 8) : vals x lab neg i j 4 = vals4 x lab neg i j := rfl
@[simp] theorem vals_5 (i j : Fin 8) : vals x lab neg i j 5 = vals5 lab neg i j := rfl
@[simp] theorem vals_6 (i j : Fin 8) : vals x lab neg i j 6 = vals6 x lab neg i j := rfl
@[simp] theorem vals_7 (i j : Fin 8) : vals x lab neg i j 7 = vals7 lab neg i j := rfl

/-- Number `k` of row block `i`: the sum of number `k` over its blocks `j ≥ i`. -/
def slot (i : Fin 8) (k : Fin 8) : EReal := ∑ j : Fin 8, if i.val ≤ j.val then vals x lab neg i j k else 0

/-- Total number `k`: the sum of number `k` over the row blocks. -/
def total (k : Fin 8) : EReal := ∑ i : Fin 8, slot x lab neg i k

/-- The loss as the blocked arithmetic computes it. -/
def kernelLoss : EReal :=
  max (Ideal.div ((∑ r : Fin 4096, dist x 1 r r) + total x lab neg 0 + total x lab neg 4)
          (((4096 : ℝ) : EReal) + total x lab neg 1 + total x lab neg 5)
        - Ideal.div ((∑ r : Fin 4096, dist x 2 r r) + total x lab neg 2 + total x lab neg 6)
          (((4096 : ℝ) : EReal) + total x lab neg 3 + total x lab neg 7) + margin) zero

/-- A running total over the 8 column blocks that starts at zero and at step `j` adds number `k` of block `(i, j)`
    when `i ≤ j` (and nothing otherwise) ends at number `k` of row block `i`. -/
theorem slot_of_fold (i k : Fin 8) (acc : ℕ → EReal) (h0 : acc 0 = 0)
    (hs : ∀ j : Fin 8, acc (j.val + 1) = acc j.val + (if i.val ≤ j.val then vals x lab neg i j k else 0)) :
    acc 8 = slot x lab neg i k := by
  have h := acc_fold8 acc (fun j => if hj : j < 8 then vals x lab neg i ⟨j, hj⟩ k else 0) i.val h0 fun j hj => by
    rw [hs ⟨j, hj⟩, dif_pos hj]
  rw [h]
  unfold slot
  exact Finset.sum_congr rfl fun j _ => by rw [dif_pos j.isLt]

/-! ## The differences are the sums over the complementary masks -/

open Classical in
/-- With real features, number 2 is the sum of the anchor-to-anchor distances over the pairs above the diagonal with
    unequal labels. -/
theorem vals2_eq (hx : ∀ i, ∃ y : ℝ, x i = (y : EReal)) (i j : Fin 8) :
    vals2 x lab i j
      = ∑ p : Fin 512, ∑ q : Fin 512, if U i j p q ∧ ¬ SL lab i j p q then dA x i j p q else 0 := by
  unfold vals2 vals0
  exact mask_split512 (dA x i j) (fun p q => dist_real x hx 0 (row i p) (row j q)) (U i j) (SL lab i j)

open Classical in
/-- Number 3 is the number of pairs above the diagonal with unequal labels, as a sum of ones. -/
theorem vals3_eq (i j : Fin 8) :
    vals3 lab i j = ∑ p : Fin 512, ∑ q : Fin 512, if U i j p q ∧ ¬ SL lab i j p q then (1 : EReal) else 0 := by
  unfold vals3 vals1
  exact count_split (U i j) (SL lab i j)

open Classical in
/-- With real features, number 6 is the sum of the anchor-to-negative distances over the pairs above the diagonal
    whose row label differs from the column's negative-label. -/
theorem vals6_eq (hx : ∀ i, ∃ y : ℝ, x i = (y : EReal)) (i j : Fin 8) :
    vals6 x lab neg i j
      = ∑ p : Fin 512, ∑ q : Fin 512, if U i j p q ∧ ¬ SN lab neg i j p q then dG x i j p q else 0 := by
  unfold vals6 vals4
  exact mask_split512 (dG x i j) (fun p q => dist_real x hx 2 (row i p) (row j q)) (U i j) (SN lab neg i j)

open Classical in
/-- Number 7 is the number of pairs above the diagonal whose row label differs from the column's negative-label, as
    a sum of ones. -/
theorem vals7_eq (i j : Fin 8) :
    vals7 lab neg i j = ∑ p : Fin 512, ∑ q : Fin 512, if U i j p q ∧ ¬ SN lab neg i j p q then (1 : EReal) else 0 := by
  unfold vals7 vals5
  exact count_split (U i j) (SN lab neg i j)

/-! ## The eight totals are the specification's pair sums and pair counts -/

open Classical in
/-- Total 0 is the sum of the anchor-to-anchor distances over the pairs `r < c` with equal labels. -/
theorem total0_eq : total x lab neg 0 = pairSum x (fun r c => before r c ∧ sameLab lab r c) 0 := by
  have h : total x lab neg 0 = ∑ i : Fin 8, ∑ j : Fin 8, if i.val ≤ j.val then vals0 x lab i j else 0 := rfl
  rw [h]
  refine pairSum_of_blocks x (fun r c => before r c ∧ sameLab lab r c) (fun r c h => h.1) 0
    (fun i j => vals0 x lab i j) fun i j _ => ?_
  unfold vals0
  exact Finset.sum_congr rfl fun p _ => Finset.sum_congr rfl fun q _ => if_congr Iff.rfl rfl rfl

open Classical in
/-- Total 1 is the number of pairs `r < c` with equal labels. -/
theorem total1_eq :
    total x lab neg 1 = (((pairCount (fun r c => before r c ∧ sameLab lab r c) : ℕ) : ℝ) : EReal) := by
  have h : total x lab neg 1 = ∑ i : Fin 8, ∑ j : Fin 8, if i.val ≤ j.val then vals1 lab i j else 0 := rfl
  rw [h]
  refine pairCount_of_blocks (fun r c => before r c ∧ sameLab lab r c) (fun r c h => h.1)
    (fun i j => vals1 lab i j) fun i j _ => ?_
  unfold vals1
  exact Finset.sum_congr rfl fun p _ => Finset.sum_congr rfl fun q _ => if_congr Iff.rfl rfl rfl

open Classical in
/-- With real features, total 2 is the sum of the anchor-to-anchor distances over the pairs `r < c` with unequal
    labels. -/
theorem total2_eq (hx : ∀ i, ∃ y : ℝ, x i = (y : EReal)) :
    total x lab neg 2 = pairSum x (fun r c => before r c ∧ ¬ sameLab lab r c) 0 := by
  have h : total x lab neg 2 = ∑ i : Fin 8, ∑ j : Fin 8, if i.val ≤ j.val then vals2 x lab i j else 0 := rfl
  rw [h]
  refine pairSum_of_blocks x (fun r c => before r c ∧ ¬ sameLab lab r c) (fun r c h => h.1) 0
    (fun i j => vals2 x lab i j) fun i j _ => ?_
  rw [vals2_eq x lab hx i j]
  exact Finset.sum_congr rfl fun p _ => Finset.sum_congr rfl fun q _ => if_congr Iff.rfl rfl rfl

open Classical in
/-- Total 3 is the number of pairs `r < c` with unequal labels. -/
theorem total3_eq :
    total x lab neg 3 = (((pairCount (fun r c => before r c ∧ ¬ sameLab lab r c) : ℕ) : ℝ) : EReal) := by
  have h : total x lab neg 3 = ∑ i : Fin 8, ∑ j : Fin 8, if i.val ≤ j.val then vals3 lab i j else 0 := rfl
  rw [h]
  refine pairCount_of_blocks (fun r c => before r c ∧ ¬ sameLab lab r c) (fun r c h => h.1)
    (fun i j => vals3 lab i j) fun i j _ => ?_
  rw [vals3_eq lab i j]
  exact Finset.sum_congr rfl fun p _ => Finset.sum_congr rfl fun q _ => if_congr Iff.rfl rfl rfl

open Classical in
/-- Total 4 is the sum of the anchor-to-negative distances over the pairs `r < c` where the label of `r` is the
    negative-label of `c`. -/
theorem total4_eq : total x lab neg 4 = pairSum x (fun r c => before r c ∧ sameNeg lab neg r c) 2 := by
  have h : total x lab neg 4 = ∑ i : Fin 8, ∑ j : Fin 8, if i.val ≤ j.val then vals4 x lab neg i j else 0 := rfl
  rw [h]
  refine pairSum_of_blocks x (fun r c => before r c ∧ sameNeg lab neg r c) (fun r c h => h.1) 2
    (fun i j => vals4 x lab neg i j) fun i j _ => ?_
  unfold vals4
  exact Finset.sum_congr rfl fun p _ => Finset.sum_congr rfl fun q _ => if_congr Iff.rfl rfl rfl

open Classical in
/-- Total 5 is the number of pairs `r < c` where the label of `r` is the negative-label of `c`. -/
theorem total5_eq :
    total x lab neg 5 = (((pairCount (fun r c => before r c ∧ sameNeg lab neg r c) : ℕ) : ℝ) : EReal) := by
  have h : total x lab neg 5 = ∑ i : Fin 8, ∑ j : Fin 8, if i.val ≤ j.val then vals5 lab neg i j else 0 := rfl
  rw [h]
  refine pairCount_of_blocks (fun r c => before r c ∧ sameNeg lab neg r c) (fun r c h => h.1)
    (fun i j => vals5 lab neg i j) fun i j _ => ?_
  unfold vals5
  exact Finset.sum_congr rfl fun p _ => Finset.sum_congr rfl fun q _ => if_congr Iff.rfl rfl rfl

open Classical in
/-- With real features, total 6 is the sum of the anchor-to-negative distances over the pairs `r < c` where the label
    of `r` is not the negative-label of `c`. -/
theorem total6_eq (hx : ∀ i, ∃ y : ℝ, x i = (y : EReal)) :
    total x lab neg 6 = pairSum x (fun r c => before r c ∧ ¬ sameNeg lab neg r c) 2 := by
  have h : total x lab neg 6 = ∑ i : Fin 8, ∑ j : Fin 8, if i.val ≤ j.val then vals6 x lab neg i j else 0 := rfl
  rw [h]
  refine pairSum_of_blocks x (fun r c => before r c ∧ ¬ sameNeg lab neg r c) (fun r c h => h.1) 2
    (fun i j => vals6 x lab neg i j) fun i j _ => ?_
  rw [vals6_eq x lab neg hx i j]
  exact Finset.sum_congr rfl fun p _ => Finset.sum_congr rfl fun q _ => if_congr Iff.rfl rfl rfl

open Classical in
/-- Total 7 is the number of pairs `r < c` where the label of `r` is not the negative-label of `c`. -/
theorem total7_eq :
    total x lab neg 7 = (((pairCount (fun r c => before r c ∧ ¬ sameNeg lab neg r c) : ℕ) : ℝ) : EReal) := by
  have h : total x lab neg 7 = ∑ i : Fin 8, ∑ j : Fin 8, if i.val ≤ j.val then vals7 lab neg i j else 0 := rfl
  rw [h]
  refine pairCount_of_blocks (fun r c => before r c ∧ ¬ sameNeg lab neg r c) (fun r c h => h.1)
    (fun i j => vals7 lab neg i j) fun i j _ => ?_
  rw [vals7_eq lab neg i j]
  exact Finset.sum_congr rfl fun p _ => Finset.sum_congr rfl fun q _ => if_congr Iff.rfl rfl rfl

/-! ## The blocked loss is the specification's loss -/

/-- With real features, the loss as the blocked arithmetic computes it is the specification's loss. -/
theorem kernelLoss_eq (hx : ∀ i, ∃ y : ℝ, x i = (y : EReal)) : kernelLoss x lab neg = loss x lab neg := by
  unfold kernelLoss loss posSum posCount negSum negCount
  rw [total0_eq, total1_eq, total2_eq x lab neg hx, total3_eq, total4_eq, total5_eq, total6_eq x lab neg hx, total7_eq,
    coe_count_add, coe_count_add, Nat.cast_ofNat]

end KernelForm

end Cert.TripletSpec

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Region1Payload.lean ====
/-
  One block of the pair grid, as the second kernel's body computes it from its loads, read at an index: the eight
  numbers of block `(i, j)`.

  The body takes the 512 anchor directions of row block `i`, the 512 anchor directions and the 512 negative
  directions of column block `j`, and the three label slices. A product of the first by the transpose of the second
  (or third) into a zero accumulator is, at `(p, q)`, the inner product of direction `p` and direction `q`; one minus
  it is the cosine distance. The mask compares the global column `512 j + q` with the global row `512 i + p` as signed
  32-bit words, which do not wrap below 4096; the label tests compare words; a selected entry is the distance under the
  mask and zero otherwise; an indicator read as a float is one under the mask and zero otherwise. A reduction of a
  `[1, 512, 512]` array over its two large axes is the double sum over `p` and `q`, and the eight one-by-one results
  stacked along the first axis are read back row by row.
-/
import proofs.«135219_j66666482368607_2_alg».proof.Proof.Gen.KernelIdeal.Skeleton
import proofs.«135219_j66666482368607_2_alg».proof.Proof.KernelAlgebra
import proofs.«135219_j66666482368607_2_alg».proof.Proof.LibPlainDot
import proofs.«135219_j66666482368607_2_alg».proof.Proof.LibIdxSums
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

open scoped BigOperators

namespace Cert.KernelIdeal.Region1Payload

open Idealize.ShloMosaic Idealize.ShloMosaic.ValueIdx Cert.KernelIdeal Cert.KernelIdeal.Gen
open Cert.TripletSpec Cert.TripletSpec.KernelForm

/-! ## Layout and reduction pieces -/

/-- A `[512, 1]` column broadcast to `[512, 512]` reads, at `(p, q)`, the column at `p`. -/
theorem bcast_col {α : Type} (v : S512x1.Idx → α) (h : S512x1.Broadcasts S512x512) (p q : Fin 512) :
    broadcastTo S512x512 v h (ix2 p q) = v (ix2 p 0) := by
  refine broadcastTo_apply v h (ix2 p q) (ix2 p 0) fun ax => ?_
  match ax with
  | ⟨0, _⟩ => rfl
  | ⟨1, _⟩ => rfl

/-- The one entry of a `[1]` array recast to `[1, 1, 1]` and extracted at `(0, 0, 0)`. -/
theorem cell_extract (w : FVec Ideal S1 .f32) (h3 : S1.ShapeCasts S1x1x1)
    (h4 : ∀ a, (![0, 0, 0] : Fin 3 → Nat) a < S1x1x1.size a) :
    extractAt ![0, 0, 0] (shapeCast S1x1x1 w h3) h4 = w (ix1 0) := by
  unfold extractAt shapeCast
  refine congrArg w (funext fun a => ?_)
  match a with
  | ⟨0, _⟩ =>
    refine Fin.ext ?_
    have h' : (Shape.reshapeEquiv h3 (fun a => (⟨(![0, 0, 0] : Fin 3 → Nat) a, h4 a⟩ : Fin (S1x1x1.size a)))
        ⟨0, Nat.one_pos⟩).val < 1 :=
      (Shape.reshapeEquiv h3 (fun a => (⟨(![0, 0, 0] : Fin 3 → Nat) a, h4 a⟩ : Fin (S1x1x1.size a))) ⟨0, Nat.one_pos⟩).isLt
    show _ = 0
    omega

/-- The sum of a `[512, 512]` array recast to `[1, 512, 512]` over its two large axes is the double sum of its
    entries. -/
theorem red_total (v : FVec Ideal S512x512 .f32) (h1 : S512x512.ShapeCasts S1x512x512)
    (h2 : S1x512x512.Reduces [1, 2] S1) (hφ : FKind.Formats .f32)
    (hacc : (0x00000000#32 : BitVec 32) = FKind.add.neutral .f32 hφ) (j : S1.Idx) :
    multiReduction .add [1, 2] S1 (shapeCast S1x512x512 v h1) 0x00000000#32 h2 hφ hacc j
      = ∑ p : Fin 512, ∑ q : Fin 512, v (ix2 p q) := by
  rw [Ideal.multiReduction_add_total _ _ h2 (fun b => by match b with | ⟨0, _⟩ => rfl) hφ hacc,
    Cert.LibIdxSums.sum_idx3, Fin.sum_univ_one]
  exact Finset.sum_congr rfl fun p _ => Finset.sum_congr rfl fun q _ => shapeCast_ab_1ab_apply v h1 0 p q

/-- The same sum, extracted as a scalar. -/
theorem cell_sum (v : FVec Ideal S512x512 .f32) (h1 : S512x512.ShapeCasts S1x512x512)
    (h2 : S1x512x512.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0]
        (shapeCast S1x1x1 (multiReduction .add [1, 2] S1 (shapeCast S1x512x512 v h1) 0x00000000#32 h2 hφ hacc) h3) h4
      = ∑ p : Fin 512, ∑ q : Fin 512, v (ix2 p q) := by
  rw [cell_extract, red_total]

/-- An indicator bit widened to a word and read as a float is one where the bit is set and zero elsewhere. -/
theorem ones_at (m : IVec S512x512 1) (h : 1 < 32) (idx : S512x512.Idx) :
    (sitofp .f32 (extui 32 m h) : FVec Ideal S512x512 .f32) idx = if m idx = 1#1 then (1 : EReal) else 0 := by
  rw [sitofp_apply, extui_apply]
  show ((((m idx).setWidth 32).toInt : ℝ) : EReal) = _
  by_cases hm : m idx = 1#1
  · rw [hm, if_pos rfl]
    have : ((1#1 : BitVec 1).setWidth 32).toInt = 1 := by decide
    rw [this, Int.cast_one, EReal.coe_one]
  · rw [eq_zero_of_ne_one hm, if_neg (by decide)]
    have : ((0#1 : BitVec 1).setWidth 32).toInt = 0 := by decide
    rw [this, Int.cast_zero, EReal.coe_zero]

/-- A selection between an array and the zero constant reads the array where the bit is set and zero elsewhere. -/
theorem sel_at (m : IVec S512x512 1) (d : FVec Ideal S512x512 .f32) (idx : S512x512.Idx) :
    select m d (broadcast S512x512 (Scalar.ofBits (F := Ideal) .f32 0x00000000#32)) idx
      = if m idx = 1#1 then d idx else 0 := by
  rw [select_apply, broadcast_apply]
  show (if m idx = 1 then d idx else Ideal.ofBits .f32 0x00000000#32) = _
  rw [Ideal.ofBits_zero_f32]
  rfl

/-- The scalar sum of a masked array: the double sum of the entries under the mask. -/
theorem sel_cell (m : IVec S512x512 1) (d : FVec Ideal S512x512 .f32) (h1 : S512x512.ShapeCasts S1x512x512)
    (h2 : S1x512x512.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0]
        (shapeCast S1x1x1 (multiReduction .add [1, 2] S1
          (shapeCast S1x512x512 (select m d (broadcast S512x512 (Scalar.ofBits (F := Ideal) .f32 0x00000000#32))) h1)
          0x00000000#32 h2 hφ hacc) h3) h4
      = ∑ p : Fin 512, ∑ q : Fin 512, if m (ix2 p q) = 1#1 then d (ix2 p q) else 0 := by
  rw [cell_sum]
  exact Finset.sum_congr rfl fun p _ => Finset.sum_congr rfl fun q _ => sel_at m d (ix2 p q)

/-- The scalar sum of a mask read as floats: the double sum of ones under the mask. -/
theorem one_cell (m : IVec S512x512 1) (h : 1 < 32) (h1 : S512x512.ShapeCasts S1x512x512)
    (h2 : S1x512x512.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0]
        (shapeCast S1x1x1 (multiReduction .add [1, 2] S1
          (shapeCast S1x512x512 (sitofp .f32 (extui 32 m h) : FVec Ideal S512x512 .f32) h1) 0x00000000#32 h2 hφ hacc) h3) h4
      = ∑ p : Fin 512, ∑ q : Fin 512, if m (ix2 p q) = 1#1 then (1 : EReal) else 0 := by
  rw [cell_sum]
  exact Finset.sum_congr rfl fun p _ => Finset.sum_congr rfl fun q _ => ones_at m h (ix2 p q)

/-- Off the stacking axis a one-by-one piece and the stacked array are read at the same (zero) coordinate. -/
theorem concat_hi (kk : Fin 8) (b : Fin S1x1.rank) (hb : b.cast (rfl : S1x1.rank = S8x1.rank) ≠ (0 : Fin S8x1.rank)) :
    ((ix2 (0 : Fin 1) (0 : Fin 1) : S1x1.Idx) b).val = ((ix2 kk (0 : Fin 1) : S8x1.Idx) (b.cast rfl)).val := by
  match b with
  | ⟨0, _⟩ => exact absurd rfl hb
  | ⟨1, _⟩ => rfl

section Concat

variable {α : Type} (v0 v1 v2 v3 v4 v5 v6 v7 : S1x1.Idx → α)
  (h : Shape.Concatenates [S1x1, S1x1, S1x1, S1x1, S1x1, S1x1, S1x1, S1x1] S8x1 0)

/-- Eight one-by-one arrays stacked along the first axis, read at row 0: the first of them. -/
theorem concat8_at0 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 0 0) = v0 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 0 (by simp) S1x1 v0 rfl rfl 0 rfl (ix2 0 0) (concat_hi _) rfl

/-- Eight one-by-one arrays stacked along the first axis, read at row 1: the second of them. -/
theorem concat8_at1 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 1 0) = v1 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 1 (by simp) S1x1 v1 rfl rfl 1 rfl (ix2 0 0) (concat_hi _) rfl

/-- Eight one-by-one arrays stacked along the first axis, read at row 2: the third of them. -/
theorem concat8_at2 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 2 0) = v2 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 2 (by simp) S1x1 v2 rfl rfl 2 rfl (ix2 0 0) (concat_hi _) rfl

/-- Eight one-by-one arrays stacked along the first axis, read at row 3: the fourth of them. -/
theorem concat8_at3 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 3 0) = v3 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 3 (by simp) S1x1 v3 rfl rfl 3 rfl (ix2 0 0) (concat_hi _) rfl

/-- Eight one-by-one arrays stacked along the first axis, read at row 4: the fifth of them. -/
theorem concat8_at4 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 4 0) = v4 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 4 (by simp) S1x1 v4 rfl rfl 4 rfl (ix2 0 0) (concat_hi _) rfl

/-- Eight one-by-one arrays stacked along the first axis, read at row 5: the sixth of them. -/
theorem concat8_at5 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 5 0) = v5 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 5 (by simp) S1x1 v5 rfl rfl 5 rfl (ix2 0 0) (concat_hi _) rfl

/-- Eight one-by-one arrays stacked along the first axis, read at row 6: the seventh of them. -/
theorem concat8_at6 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 6 0) = v6 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 6 (by simp) S1x1 v6 rfl rfl 6 rfl (ix2 0 0) (concat_hi _) rfl

/-- Eight one-by-one arrays stacked along the first axis, read at row 7: the eighth of them. -/
theorem concat8_at7 :
    concatenate S8x1 0 [⟨S1x1, v0⟩, ⟨S1x1, v1⟩, ⟨S1x1, v2⟩, ⟨S1x1, v3⟩, ⟨S1x1, v4⟩, ⟨S1x1, v5⟩, ⟨S1x1, v6⟩, ⟨S1x1, v7⟩] h (ix2 7 0) = v7 (ix2 0 0) :=
  concatenate_apply_piece (t := S8x1) 0 [⟨S1x1, v0⟩, ⟨S1x1, v1⟩, ⟨S1x1, v2⟩, ⟨S1x1, v3⟩, ⟨S1x1, v4⟩, ⟨S1x1, v5⟩, ⟨S1x1, v6⟩, ⟨S1x1, v7⟩] h _ 7 (by simp) S1x1 v7 rfl rfl 7 rfl (ix2 0 0) (concat_hi _) rfl

end Concat

/-! ## The payloads read at an index -/

/-- The product's dimension record is the plain `512 × 1024` by `1024 × 512` one. -/
theorem dot_plain : dot_S512x1024_S1024x512_S512x512_1_0_0_1_n_n = DotDims.plain 512 1024 512 := rfl

/-- The first distance array at `(p, q)`: one minus the inner product of row `p` of the first operand and row `q` of
    the second. -/
theorem pay4_at (x0 x1 : Vec Ideal S512x1024 .bf16) (p q : Fin 512) :
    k1_pay4 (F := Ideal) x0 x1 (ix2 p q)
      = Ideal.ofBits .f32 0x3F800000#32 - ∑ k : Fin 1024, x0 (ix2 p k) * x1 (ix2 q k) := by
  unfold k1_pay4 k1_pay3
  dsimp only
  rw [subf_apply, broadcast_apply, shapeCast_self, shapeCast_self]
  refine congrArg (fun z => Ideal.ofBits .f32 0x3F800000#32 - z) ?_
  refine (congrFun (Cert.Lib.PlainDot.matmul_zero_eq (φ₁ := .bf16) (φ₂ := .bf16) _ dot_plain none x0
    (transpose S1024x512 [1, 0] x1 Facts₀.transposes_S512x1024_p1_0_S1024x512)) (ix2 p q)).trans ?_
  rw [Cert.Lib.PlainDot.rowsByCols_apply]
  refine Finset.sum_congr rfl fun k _ => ?_
  rw [transpose_ix2_apply]

/-- The second distance array at `(p, q)`, likewise. -/
theorem pay5_at (x0 x2 : Vec Ideal S512x1024 .bf16) (p q : Fin 512) :
    k1_pay5 (F := Ideal) x0 x2 (ix2 p q)
      = Ideal.ofBits .f32 0x3F800000#32 - ∑ k : Fin 1024, x0 (ix2 p k) * x2 (ix2 q k) := by
  unfold k1_pay5 k1_pay3
  dsimp only
  rw [subf_apply, broadcast_apply, shapeCast_self, shapeCast_self]
  refine congrArg (fun z => Ideal.ofBits .f32 0x3F800000#32 - z) ?_
  refine (congrFun (Cert.Lib.PlainDot.matmul_zero_eq (φ₁ := .bf16) (φ₂ := .bf16) _ dot_plain none x0
    (transpose S1024x512 [1, 0] x2 Facts₀.transposes_S512x1024_p1_0_S1024x512)) (ix2 p q)).trans ?_
  rw [Cert.Lib.PlainDot.rowsByCols_apply]
  refine Finset.sum_congr rfl fun k _ => ?_
  rw [transpose_ix2_apply]

/-- The word `512 a + b` computed in 32 bits from a block number and an offset is the word of that number. -/
theorem word_eq (a : Fin 8) (b : Fin 512) :
    Scalar.muli (BitVec.ofNat 32 a.val) 512#32 + BitVec.ofNat 32 b.val = BitVec.ofNat 32 (a.val * 512 + b.val) := by
  have ha := a.isLt
  have hb := b.isLt
  apply BitVec.eq_of_toNat_eq
  show ((BitVec.ofNat 32 a.val * 512#32) + BitVec.ofNat 32 b.val).toNat = _
  simp only [BitVec.toNat_add, BitVec.toNat_mul, BitVec.toNat_ofNat]
  omega

/-- That word, read signed, is the number: it is below `2 ^ 31`. -/
theorem word_toInt (a : Fin 8) (b : Fin 512) :
    (BitVec.ofNat 32 (a.val * 512 + b.val)).toInt = ((a.val * 512 + b.val : ℕ) : ℤ) := by
  have ha := a.isLt
  have hb := b.isLt
  rw [BitVec.toInt_eq_toNat_cond, BitVec.toNat_ofNat]
  have : (a.val * 512 + b.val) % 2 ^ 32 = a.val * 512 + b.val := Nat.mod_eq_of_lt (by omega)
  rw [this, if_pos (by omega)]

/-- The mask at `(p, q)` of block `(i, j)` is set exactly when the global column comes after the global row. -/
theorem pay6_at (i j : Fin 8) (p q : Fin 512) :
    k1_pay6 (BitVec.ofNat 32 i.val) (BitVec.ofNat 32 j.val) (ix2 p q) = 1#1
      ↔ i.val * 512 + p.val < j.val * 512 + q.val := by
  unfold k1_pay6
  dsimp only
  show IntOp.cmpi .sgt
      (IntOp.addi (Scalar.muli (BitVec.ofNat 32 j.val) 512#32)
        (iota .tc S512x512 32 [1] Facts₀.iota_S512x512_d1_w32 (ix2 p q)))
      (IntOp.addi (Scalar.muli (BitVec.ofNat 32 i.val) 512#32)
        (iota .tc S512x512 32 [0] Facts₀.iota_S512x512_d0_w32 (ix2 p q))) = 1#1 ↔ _
  rw [IntOp.cmpi_sgt, iota_single_apply, iota_single_apply]
  show (Scalar.muli (BitVec.ofNat 32 i.val) 512#32 + BitVec.ofNat 32 p.val).toInt
      < (Scalar.muli (BitVec.ofNat 32 j.val) 512#32 + BitVec.ofNat 32 q.val).toInt ↔ _
  rw [word_eq, word_eq, word_toInt, word_toInt]
  exact Int.ofNat_lt

/-- The first label mask at `(p, q)`: the mask above, and the row's word equal to the column's. -/
theorem pay8_at (a0 a1 : BitVec 32) (x3 : Vec Ideal S512x1 .i32) (x4 : Vec Ideal S1x512 .i32) (p q : Fin 512) :
    k1_pay8 (F := Ideal) a0 a1 x3 x4 (ix2 p q) = 1#1
      ↔ k1_pay6 a0 a1 (ix2 p q) = 1#1 ∧ x3 (ix2 p 0) = x4 (ix2 0 q) := by
  unfold k1_pay8 k1_pay7
  dsimp only
  show IntOp.andi (k1_pay6 a0 a1 (ix2 p q))
      (IntOp.cmpi .eq
        (broadcastTo S512x512 (shapeCast S512x1 x3 Facts₀.shapeCasts_S512x1_S512x1) Facts₀.broadcasts_S512x1_S512x512
          (ix2 p q))
        (broadcastTo S512x512 (shapeCast S1x512 x4 Facts₀.shapeCasts_S1x512_S1x512) Facts₀.broadcasts_S1x512_S512x512
          (ix2 p q))) = 1#1 ↔ _
  rw [IntOp.andi_eq_one, IntOp.cmpi_eq, shapeCast_self, shapeCast_self, broadcastTo_1b_ab_apply, bcast_col]

/-- The second label mask at `(p, q)`, likewise. -/
theorem pay9_at (a0 a1 : BitVec 32) (x3 : Vec Ideal S512x1 .i32) (x5 : Vec Ideal S1x512 .i32) (p q : Fin 512) :
    k1_pay9 (F := Ideal) a0 a1 x3 x5 (ix2 p q) = 1#1
      ↔ k1_pay6 a0 a1 (ix2 p q) = 1#1 ∧ x3 (ix2 p 0) = x5 (ix2 0 q) := by
  unfold k1_pay9 k1_pay7
  dsimp only
  show IntOp.andi (k1_pay6 a0 a1 (ix2 p q))
      (IntOp.cmpi .eq
        (broadcastTo S512x512 (shapeCast S512x1 x3 Facts₀.shapeCasts_S512x1_S512x1) Facts₀.broadcasts_S512x1_S512x512
          (ix2 p q))
        (broadcastTo S512x512 (shapeCast S1x512 x5 Facts₀.shapeCasts_S1x512_S1x512) Facts₀.broadcasts_S1x512_S512x512
          (ix2 p q))) = 1#1 ↔ _
  rw [IntOp.andi_eq_one, IntOp.cmpi_eq, shapeCast_self, shapeCast_self, broadcastTo_1b_ab_apply, bcast_col]

/-- The count of the mask, as the reduction yields it: the double sum of ones under the mask. -/
theorem pay10_at (a0 a1 : BitVec 32) (j : S1.Idx) :
    k1_pay10 (F := Ideal) a0 a1 j = ∑ p : Fin 512, ∑ q : Fin 512, if k1_pay6 a0 a1 (ix2 p q) = 1#1 then (1 : EReal) else 0 := by
  unfold k1_pay10
  dsimp only
  refine (red_total _ _ _ _ _ j).trans ?_
  exact Finset.sum_congr rfl fun p _ => Finset.sum_congr rfl fun q _ => ones_at _ _ (ix2 p q)

/-! ## The stacked results, row by row -/

section Pay11

variable (v17 v19 : FVec Ideal S512x512 .f32) (v28 v41 v42 : IVec S512x512 1) (v46 : FVec Ideal S1 .f32)

/-- Row 0: the first distances under the first label mask. -/
theorem pay11_0 : k1_pay11 v17 v19 v28 v41 v42 v46 (ix2 0 0)
    = ∑ p : Fin 512, ∑ q : Fin 512, if v41 (ix2 p q) = 1#1 then v17 (ix2 p q) else 0 := by
  unfold k1_pay11
  dsimp only
  refine (concat8_at0 _ _ _ _ _ _ _ _ _).trans ?_
  rw [broadcast_apply]
  exact sel_cell _ _ _ _ (.inl rfl) rfl _ _

/-- Row 1: the ones under the first label mask. -/
theorem pay11_1 : k1_pay11 v17 v19 v28 v41 v42 v46 (ix2 1 0)
    = ∑ p : Fin 512, ∑ q : Fin 512, if v41 (ix2 p q) = 1#1 then (1 : EReal) else 0 := by
  unfold k1_pay11
  dsimp only
  refine (concat8_at1 _ _ _ _ _ _ _ _ _).trans ?_
  rw [broadcast_apply]
  exact one_cell _ _ _ _ (.inl rfl) rfl _ _

/-- Row 2: the first distances under the mask, minus row 0. -/
theorem pay11_2 : k1_pay11 v17 v19 v28 v41 v42 v46 (ix2 2 0)
    = (∑ p : Fin 512, ∑ q : Fin 512, if v28 (ix2 p q) = 1#1 then v17 (ix2 p q) else 0)
      - ∑ p : Fin 512, ∑ q : Fin 512, if v41 (ix2 p q) = 1#1 then v17 (ix2 p q) else 0 := by
  unfold k1_pay11
  dsimp only
  refine (concat8_at2 _ _ _ _ _ _ _ _ _).trans ?_
  rw [subf_apply, broadcast_apply, broadcast_apply]
  exact congrArg₂ (· - ·) (sel_cell _ _ _ _ (.inl rfl) rfl _ _) (sel_cell _ _ _ _ (.inl rfl) rfl _ _)

/-- Row 3: the count of the mask, minus row 1. -/
theorem pay11_3 : k1_pay11 v17 v19 v28 v41 v42 v46 (ix2 3 0)
    = v46 (ix1 0) - ∑ p : Fin 512, ∑ q : Fin 512, if v41 (ix2 p q) = 1#1 then (1 : EReal) else 0 := by
  unfold k1_pay11
  dsimp only
  refine (concat8_at3 _ _ _ _ _ _ _ _ _).trans ?_
  rw [subf_apply, broadcast_apply, broadcast_apply]
  exact congrArg₂ (· - ·) (cell_extract _ _ _) (one_cell _ _ _ _ (.inl rfl) rfl _ _)

/-- Row 4: the second distances under the second label mask. -/
theorem pay11_4 : k1_pay11 v17 v19 v28 v41 v42 v46 (ix2 4 0)
    = ∑ p : Fin 512, ∑ q : Fin 512, if v42 (ix2 p q) = 1#1 then v19 (ix2 p q) else 0 := by
  unfold k1_pay11
  dsimp only
  refine (concat8_at4 _ _ _ _ _ _ _ _ _).trans ?_
  rw [broadcast_apply]
  exact sel_cell _ _ _ _ (.inl rfl) rfl _ _

/-- Row 5: the ones under the second label mask. -/
theorem pay11_5 : k1_pay11 v17 v19 v28 v41 v42 v46 (ix2 5 0)
    = ∑ p : Fin 512, ∑ q : Fin 512, if v42 (ix2 p q) = 1#1 then (1 : EReal) else 0 := by
  unfold k1_pay11
  dsimp only
  refine (concat8_at5 _ _ _ _ _ _ _ _ _).trans ?_
  rw [broadcast_apply]
  exact one_cell _ _ _ _ (.inl rfl) rfl _ _

/-- Row 6: the second distances under the mask, minus row 4. -/
theorem pay11_6 : k1_pay11 v17 v19 v28 v41 v42 v46 (ix2 6 0)
    = (∑ p : Fin 512, ∑ q : Fin 512, if v28 (ix2 p q) = 1#1 then v19 (ix2 p q) else 0)
      - ∑ p : Fin 512, ∑ q : Fin 512, if v42 (ix2 p q) = 1#1 then v19 (ix2 p q) else 0 := by
  unfold k1_pay11
  dsimp only
  refine (concat8_at6 _ _ _ _ _ _ _ _ _).trans ?_
  rw [subf_apply, broadcast_apply, broadcast_apply]
  exact congrArg₂ (· - ·) (sel_cell _ _ _ _ (.inl rfl) rfl _ _) (sel_cell _ _ _ _ (.inl rfl) rfl _ _)

/-- Row 7: the count of the mask, minus row 5. -/
theorem pay11_7 : k1_pay11 v17 v19 v28 v41 v42 v46 (ix2 7 0)
    = v46 (ix1 0) - ∑ p : Fin 512, ∑ q : Fin 512, if v42 (ix2 p q) = 1#1 then (1 : EReal) else 0 := by
  unfold k1_pay11
  dsimp only
  refine (concat8_at7 _ _ _ _ _ _ _ _ _).trans ?_
  rw [subf_apply, broadcast_apply, broadcast_apply]
  exact congrArg₂ (· - ·) (cell_extract _ _ _) (one_cell _ _ _ _ (.inl rfl) rfl _ _)

end Pay11

/-! ## One block's eight numbers -/

section Block

variable (x : SFeat.Idx → EReal) (lab neg : SLab.Idx → BitVec 32) (i j : Fin 8)
variable (x0 x1 x2 : Vec Ideal S512x1024 .bf16) (x3 : Vec Ideal S512x1 .i32) (x4 x5 : Vec Ideal S1x512 .i32)

/-- The first distance array holds the anchor-to-anchor distances of the block. -/
theorem dA_eq (h0 : ∀ (p : Fin 512) (k : Fin 1024), x0 (ix2 p k) = dir x 0 (row i p) k)
    (h1 : ∀ (q : Fin 512) (k : Fin 1024), x1 (ix2 q k) = dir x 0 (row j q) k) (p q : Fin 512) :
    k1_pay4 (F := Ideal) x0 x1 (ix2 p q) = dA x i j p q := by
  rw [pay4_at]
  show _ = Cert.TripletSpec.one - ∑ k : Fin 1024, dir x 0 (row i p) k * dir x 0 (row j q) k
  exact congrArg (fun z => Ideal.ofBits .f32 0x3F800000#32 - z)
    (Finset.sum_congr rfl fun k _ => by rw [h0 p k, h1 q k])

/-- The second distance array holds the anchor-to-negative distances of the block. -/
theorem dG_eq (h0 : ∀ (p : Fin 512) (k : Fin 1024), x0 (ix2 p k) = dir x 0 (row i p) k)
    (h2 : ∀ (q : Fin 512) (k : Fin 1024), x2 (ix2 q k) = dir x 2 (row j q) k) (p q : Fin 512) :
    k1_pay5 (F := Ideal) x0 x2 (ix2 p q) = dG x i j p q := by
  rw [pay5_at]
  show _ = Cert.TripletSpec.one - ∑ k : Fin 1024, dir x 0 (row i p) k * dir x 2 (row j q) k
  exact congrArg (fun z => Ideal.ofBits .f32 0x3F800000#32 - z)
    (Finset.sum_congr rfl fun k _ => by rw [h0 p k, h2 q k])

/-- The mask is the block's "above the diagonal". -/
theorem U_iff (p q : Fin 512) :
    k1_pay6 (BitVec.ofNat 32 i.val) (BitVec.ofNat 32 j.val) (ix2 p q) = 1#1 ↔ U i j p q :=
  pay6_at i j p q

/-- The first label mask is "above the diagonal and equal labels". -/
theorem SL_iff (h3 : ∀ p : Fin 512, x3 (ix2 p 0) = lab (ix1 (row i p)))
    (h4 : ∀ q : Fin 512, x4 (ix2 0 q) = lab (ix1 (row j q))) (p q : Fin 512) :
    k1_pay8 (F := Ideal) (BitVec.ofNat 32 i.val) (BitVec.ofNat 32 j.val) x3 x4 (ix2 p q) = 1#1
      ↔ U i j p q ∧ SL lab i j p q := by
  rw [pay8_at, U_iff, h3 p, h4 q]
  exact Iff.rfl

/-- The second label mask is "above the diagonal and the row's label is the column's negative-label". -/
theorem SN_iff (h3 : ∀ p : Fin 512, x3 (ix2 p 0) = lab (ix1 (row i p)))
    (h5 : ∀ q : Fin 512, x5 (ix2 0 q) = neg (ix1 (row j q))) (p q : Fin 512) :
    k1_pay9 (F := Ideal) (BitVec.ofNat 32 i.val) (BitVec.ofNat 32 j.val) x3 x5 (ix2 p q) = 1#1
      ↔ U i j p q ∧ SN lab neg i j p q := by
  rw [pay9_at, U_iff, h3 p, h5 q]
  exact Iff.rfl

open Classical in
/-- The stacked results of block `(i, j)`, read at row `k`, are the block's eight numbers. -/
theorem block_vals (h0 : ∀ (p : Fin 512) (k : Fin 1024), x0 (ix2 p k) = dir x 0 (row i p) k)
    (h1 : ∀ (q : Fin 512) (k : Fin 1024), x1 (ix2 q k) = dir x 0 (row j q) k)
    (h2 : ∀ (q : Fin 512) (k : Fin 1024), x2 (ix2 q k) = dir x 2 (row j q) k)
    (h3 : ∀ p : Fin 512, x3 (ix2 p 0) = lab (ix1 (row i p))) (h4 : ∀ q : Fin 512, x4 (ix2 0 q) = lab (ix1 (row j q)))
    (h5 : ∀ q : Fin 512, x5 (ix2 0 q) = neg (ix1 (row j q))) (k : Fin 8) :
    k1_pay11 (k1_pay4 x0 x1) (k1_pay5 x0 x2) (k1_pay6 (BitVec.ofNat 32 i.val) (BitVec.ofNat 32 j.val))
        (k1_pay8 (BitVec.ofNat 32 i.val) (BitVec.ofNat 32 j.val) x3 x4)
        (k1_pay9 (BitVec.ofNat 32 i.val) (BitVec.ofNat 32 j.val) x3 x5)
        (k1_pay10 (F := Ideal) (BitVec.ofNat 32 i.val) (BitVec.ofNat 32 j.val)) (ix2 k 0)
      = vals x lab neg i j k := by
  have eA := dA_eq x i j x0 x1 h0 h1
  have eG := dG_eq x i j x0 x2 h0 h2
  have eU := U_iff i j
  have eL := SL_iff lab i j x3 x4 h3 h4
  have eN := SN_iff lab neg i j x3 x5 h3 h5
  match k with
  | ⟨0, _⟩ =>
    refine (pay11_0 _ _ _ _ _ _).trans ?_
    show _ = vals0 x lab i j
    unfold vals0
    exact Finset.sum_congr rfl fun p _ => Finset.sum_congr rfl fun q _ => if_congr (eL p q) (eA p q) rfl
  | ⟨1, _⟩ =>
    refine (pay11_1 _ _ _ _ _ _).trans ?_
    show _ = vals1 lab i j
    unfold vals1
    exact Finset.sum_congr rfl fun p _ => Finset.sum_congr rfl fun q _ => if_congr (eL p q) rfl rfl
  | ⟨2, _⟩ =>
    refine (pay11_2 _ _ _ _ _ _).trans ?_
    show _ = vals2 x lab i j
    unfold vals2 vals0
    exact congrArg₂ (· - ·)
      (Finset.sum_congr rfl fun p _ => Finset.sum_congr rfl fun q _ => if_congr (eU p q) (eA p q) rfl)
      (Finset.sum_congr rfl fun p _ => Finset.sum_congr rfl fun q _ => if_congr (eL p q) (eA p q) rfl)
  | ⟨3, _⟩ =>
    refine (pay11_3 _ _ _ _ _ _).trans ?_
    show _ = vals3 lab i j
    unfold vals3 vals1
    rw [pay10_at]
    exact congrArg₂ (· - ·)
      (Finset.sum_congr rfl fun p _ => Finset.sum_congr rfl fun q _ => if_congr (eU p q) rfl rfl)
      (Finset.sum_congr rfl fun p _ => Finset.sum_congr rfl fun q _ => if_congr (eL p q) rfl rfl)
  | ⟨4, _⟩ =>
    refine (pay11_4 _ _ _ _ _ _).trans ?_
    show _ = vals4 x lab neg i j
    unfold vals4
    exact Finset.sum_congr rfl fun p _ => Finset.sum_congr rfl fun q _ => if_congr (eN p q) (eG p q) rfl
  | ⟨5, _⟩ =>
    refine (pay11_5 _ _ _ _ _ _).trans ?_
    show _ = vals5 lab neg i j
    unfold vals5
    exact Finset.sum_congr rfl fun p _ => Finset.sum_congr rfl fun q _ => if_congr (eN p q) rfl rfl
  | ⟨6, _⟩ =>
    refine (pay11_6 _ _ _ _ _ _).trans ?_
    show _ = vals6 x lab neg i j
    unfold vals6 vals4
    exact congrArg₂ (· - ·)
      (Finset.sum_congr rfl fun p _ => Finset.sum_congr rfl fun q _ => if_congr (eU p q) (eG p q) rfl)
      (Finset.sum_congr rfl fun p _ => Finset.sum_congr rfl fun q _ => if_congr (eN p q) (eG p q) rfl)
  | ⟨7, _⟩ =>
    refine (pay11_7 _ _ _ _ _ _).trans ?_
    show _ = vals7 lab neg i j
    unfold vals7 vals5
    rw [pay10_at]
    exact congrArg₂ (· - ·)
      (Finset.sum_congr rfl fun p _ => Finset.sum_congr rfl fun q _ => if_congr (eU p q) rfl rfl)
      (Finset.sum_congr rfl fun p _ => Finset.sum_congr rfl fun q _ => if_congr (eN p q) rfl rfl)

end Block

/-! ## The accumulator's two stores -/

/-- The stored sum at `(0, k, l)`: the accumulator's entry plus row `k` of the block's results. -/
theorem add_at (v96 : FVec Ideal S8x1 .f32) (v97 : Vec Ideal S1x8x128 .f32) (k : Fin 8) (l : Fin 128) :
    k1_pay2 v96 v97 (ix3 0 k l) = v97 (ix3 0 k l) + v96 (ix2 k 0) := by
  unfold k1_pay2
  rw [shapeCast_ab_1ab_apply, addf_apply, shapeCast_1ab_ab_apply, shapeCast_self]
  refine congrArg (fun z => v97 (ix3 0 k l) + z) ?_
  refine broadcastTo_apply v96 _ (ix2 k l) (ix2 k 0) fun ax => ?_
  match ax with
  | ⟨0, _⟩ => rfl
  | ⟨1, _⟩ => rfl

/-- The stored zero at `(0, k, l)`. -/
theorem zero_at (k : Fin 8) (l : Fin 128) : k1_pay1 (F := Ideal) (ix3 0 k l) = 0 := by
  unfold k1_pay1
  rw [shapeCast_ab_1ab_apply, broadcast_apply]
  exact Ideal.ofBits_zero_f32

end Cert.KernelIdeal.Region1Payload

end
-- ==== Proof.Region1Value.lean ====
/-
  What the pairwise mining leaves in its accumulator's array, as a function of the specification's quantities.

  The grid is 8 × 8: point 8 i + j handles the pairs of a row of row block i with a row of column block j (512 rows a
  block). At each point the body computes the block's eight numbers from three blocks of directions and three blocks
  of labels; the accumulator of row block i — eight rows of 128 lanes, row k holding number k in every lane — is reset
  at the first column block, takes the block's numbers added along its rows at every column block not before the row
  block, is left alone at the others, and is written back to row block i of the array after the last column block.

  Three steps. For any float instance, what each of the body's three storing cases leaves in the accumulator is the
  body's payload: the zero block; the running contents plus the block's numbers; the zero block plus the block's
  numbers. Over the extended reals, when the arrays the region finds hold the directions and the labels, the fetched
  blocks are the rows and columns the specification's block arithmetic names, so the running contents after the
  eighth column block are the sum over the column blocks not before the row block: the row block's eight numbers.
  Since the eight write-backs tile the array, the array ends holding every row block's eight numbers.
-/
import proofs.«135219_j66666482368607_2_alg».proof.Proof.Region1
import proofs.«135219_j66666482368607_2_alg».proof.Proof.Region0Value
import proofs.«135219_j66666482368607_2_alg».proof.Proof.KernelAlgebra
import proofs.«135219_j66666482368607_2_alg».proof.Proof.Region1Payload
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Region1

open Cert.KernelIdeal Cert.KernelIdeal.Gen Cert.TripletSpec
open Idealize.ShloMosaic Idealize.ShloMosaic.TcCoe Idealize.ShloMosaic.Tactic Idealize.ShloMosaic.ValueIdx Idealize.SL.Sem
open Idealize.ShloMosaic.Pipeline (Dat)

section AnyFloat
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves in the accumulator, as the body's payloads -/

/-- The eight numbers of the block at grid coordinates `i`, as the body computes them from the three blocks of
    directions and the three blocks of labels: the two blocks of pairwise distances, the mask of the pairs above the
    diagonal, the two label masks, the count of the pairs above the diagonal, reduced to a column of eight. -/
def blockPay (i : grid1.Coords) (x0 x1 x2 : Vec F S512x1024 .bf16) (x3 : Vec F S512x1 .i32) (x4 x5 : Vec F S1x512 .i32) : FVec F S8x1 .f32 :=
  k1_pay11 (k1_pay4 x0 x1) (k1_pay5 x0 x2) (k1_pay6 (BitVec.ofNat 32 (i 0).val) (BitVec.ofNat 32 (i 1).val))
    (k1_pay8 (BitVec.ofNat 32 (i 0).val) (BitVec.ofNat 32 (i 1).val) x3 x4)
    (k1_pay9 (BitVec.ofNat 32 (i 0).val) (BitVec.ofNat 32 (i 1).val) x3 x5)
    (k1_pay10 (BitVec.ofNat 32 (i 0).val) (BitVec.ofNat 32 (i 1).val))

/-- The reset-only case leaves the zero block. -/
theorem out1_AB_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : ¬cond1_2 i) (x0 x1 x2 : Vec F S512x1024 .bf16) (x3 : Vec F S512x1 .i32) (x4 x5 : Vec F S1x512 .i32) :
    out1_AB_6 c i arg2 harg2 arg3 harg3 arg4 harg4 arg5 harg5 arg6 harg6 arg7 harg7 arg8 harg8 hc1 hc2 x0 x1 x2 x3 x4 x5 = k1_pay1 (F := F) := by
  unfold out1_AB_6
  rw [View.read_writes_eq_canon _ _ _ (cover1_AB_6 c i arg2 harg2 arg3 harg3 arg4 harg4 arg5 harg5 arg6 harg6 arg7 harg7 arg8 harg8 hc1 hc2 x0 x1 x2 x3 x4 x5)]
  unfold kernelRun1_AB
  dsimp only
  rw [View.canon_unit_zero (S := S1x8x128) hz3]

/-- The add-only case leaves the running contents with the block's eight numbers added, each along its row. -/
theorem out1_BA_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : ¬cond1_1 i) (hc2 : cond1_2 i) (x0 x1 x2 : Vec F S512x1024 .bf16) (x3 : Vec F S512x1 .i32) (x4 x5 : Vec F S1x512 .i32) (xo6 : Vec F S1x8x128 .f32) :
    out1_BA_6 c i arg2 harg2 arg3 harg3 arg4 harg4 arg5 harg5 arg6 harg6 arg7 harg7 arg8 harg8 hc1 hc2 x0 x1 x2 x3 x4 x5 xo6 = k1_pay2 (blockPay i x0 x1 x2 x3 x4 x5) xo6 := by
  unfold out1_BA_6
  rw [View.read_writes_eq_canon _ _ _ (cover1_BA_6 c i arg2 harg2 arg3 harg3 arg4 harg4 arg5 harg5 arg6 harg6 arg7 harg7 arg8 harg8 hc1 hc2 x0 x1 x2 x3 x4 x5 xo6)]
  unfold kernelRun1_BA
  dsimp only
  sl_unfold_words
  rw [View.canon_unit_zero (S := S1x8x128) hz3]
  simp only [View.readAt_eq_ld, harg2.read_unread, harg3.read_unread, harg4.read_unread, harg5.read_unread,
    harg6.read_unread, harg7.read_unread, harg8.read_unread, View.ld_unit_zero (S := S512x1024) hz2,
    View.ld_unit_zero (S := S512x1) hz2, View.ld_unit_zero (S := S1x512) hz2, View.ld_unit_zero (S := S1x8x128) hz3]
  rfl

/-- The reset-and-add case leaves the zero block with the block's eight numbers added: the load after the reset reads
    the zeros just stored. -/
theorem out1_AA_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x8x128 .f32) (harg8 : arg8.IsWhole) (hc1 : cond1_1 i) (hc2 : cond1_2 i) (x0 x1 x2 : Vec F S512x1024 .bf16) (x3 : Vec F S512x1 .i32) (x4 x5 : Vec F S1x512 .i32) :
    out1_AA_6 c i arg2 harg2 arg3 harg3 arg4 harg4 arg5 harg5 arg6 harg6 arg7 harg7 arg8 harg8 hc1 hc2 x0 x1 x2 x3 x4 x5 = k1_pay2 (blockPay i x0 x1 x2 x3 x4 x5) (k1_pay1 (F := F)) := by
  unfold out1_AA_6
  rw [View.read_writes_eq_canon _ _ _ (cover1_AA_6 c i arg2 harg2 arg3 harg3 arg4 harg4 arg5 harg5 arg6 harg6 arg7 harg7 arg8 harg8 hc1 hc2 x0 x1 x2 x3 x4 x5)]
  unfold kernelRun1_AA
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread,
    harg6.read_unread, harg7.read_unread, View.ld_unit_zero (S := S512x1024) hz2,
    View.ld_unit_zero (S := S512x1) hz2, View.ld_unit_zero (S := S1x512) hz2]
  rfl

end AnyFloat

/-! ## The fetched blocks as rows and columns of the arrays -/

/-- The grid's 64 points in row-major order: point `t` is row block `t / 8`, column block `t % 8`; and each window's
    block there (decided over the 64 points): the row block's rows of the anchors' directions and of the labels' column,
    the column block's rows of the anchors' and the negatives' directions and its columns of the two label rows, and row
    block `t / 8` of the accumulator's array. -/
theorem idx_facts1 : ∀ t : Fin cfg1.N,
    ((grid1.coords t 0).val = t.val / 8 ∧ (grid1.coords t 1).val = t.val % 8)
    ∧ (win1_0.index t (0 : Fin 2) = t.val / 8 ∧ win1_0.index t (1 : Fin 2) = 0)
    ∧ (win1_1.index t (0 : Fin 2) = t.val % 8 ∧ win1_1.index t (1 : Fin 2) = 0)
    ∧ (win1_2.index t (0 : Fin 2) = t.val % 8 ∧ win1_2.index t (1 : Fin 2) = 0)
    ∧ (win1_3.index t (0 : Fin 2) = t.val / 8 ∧ win1_3.index t (1 : Fin 2) = 0)
    ∧ (win1_4.index t (0 : Fin 2) = 0 ∧ win1_4.index t (1 : Fin 2) = t.val % 8)
    ∧ (win1_5.index t (0 : Fin 2) = 0 ∧ win1_5.index t (1 : Fin 2) = t.val % 8)
    ∧ (win1_6.index t (0 : Fin 3) = t.val / 8 ∧ win1_6.index t (1 : Fin 3) = 0 ∧ win1_6.index t (2 : Fin 3) = 0) :=
  (by decide +kernel : ∀ t : Fin grid1.N, _)

variable (V : (c : Dev nD) → (b : Ref sig .tc) → Buf (Elt Ideal) ((c : Thread nD τ).loc b))

/-- Window 0's block at point `t`: the rows of row block `t / 8` of the anchors' directions. -/
theorem iblk1_0_apply (c : Dev nD) (t : Fin cfg1.N) (j : S512x1024.Idx) (i : S4096x1024.Idx)
    (h0 : (i 0).val = 512 * (t.val / 8) + (j 0).val) (h1 : (i 1).val = (j 1).val) :
    (iblk1 V c 0 t : Vec Ideal S512x1024 .bf16) j = (V c main_v6_0 : S4096x1024.Idx → EReal) i := by
  unfold iblk1
  rw [View.read_apply]
  show V c main_v6_0 _ = V c main_v6_0 _
  congr 1
  funext a
  apply Fin.ext
  match a with
  | ⟨0, _⟩ => show win1_0.index t 0 * 512 + 1 * (j 0).val = (i 0).val; rw [(idx_facts1 t).2.1.1, h0]; omega
  | ⟨1, _⟩ => show win1_0.index t 1 * 1024 + 1 * (j 1).val = (i 1).val; rw [(idx_facts1 t).2.1.2, h1]; omega

/-- Window 1's block: the rows of column block `t % 8` of the anchors' directions. -/
theorem iblk1_1_apply (c : Dev nD) (t : Fin cfg1.N) (j : S512x1024.Idx) (i : S4096x1024.Idx)
    (h0 : (i 0).val = 512 * (t.val % 8) + (j 0).val) (h1 : (i 1).val = (j 1).val) :
    (iblk1 V c 1 t : Vec Ideal S512x1024 .bf16) j = (V c main_v6_0 : S4096x1024.Idx → EReal) i := by
  unfold iblk1
  rw [View.read_apply]
  show V c main_v6_0 _ = V c main_v6_0 _
  congr 1
  funext a
  apply Fin.ext
  match a with
  | ⟨0, _⟩ => show win1_1.index t 0 * 512 + 1 * (j 0).val = (i 0).val; rw [(idx_facts1 t).2.2.1.1, h0]; omega
  | ⟨1, _⟩ => show win1_1.index t 1 * 1024 + 1 * (j 1).val = (i 1).val; rw [(idx_facts1 t).2.2.1.2, h1]; omega

/-- Window 2's block: the rows of column block `t % 8` of the negatives' directions. -/
theorem iblk1_2_apply (c : Dev nD) (t : Fin cfg1.N) (j : S512x1024.Idx) (i : S4096x1024.Idx)
    (h0 : (i 0).val = 512 * (t.val % 8) + (j 0).val) (h1 : (i 1).val = (j 1).val) :
    (iblk1 V c 2 t : Vec Ideal S512x1024 .bf16) j = (V c main_v6_1 : S4096x1024.Idx → EReal) i := by
  unfold iblk1
  rw [View.read_apply]
  show V c main_v6_1 _ = V c main_v6_1 _
  congr 1
  funext a
  apply Fin.ext
  match a with
  | ⟨0, _⟩ => show win1_2.index t 0 * 512 + 1 * (j 0).val = (i 0).val; rw [(idx_facts1 t).2.2.2.1.1, h0]; omega
  | ⟨1, _⟩ => show win1_2.index t 1 * 1024 + 1 * (j 1).val = (i 1).val; rw [(idx_facts1 t).2.2.2.1.2, h1]; omega

/-- Window 3's block: the rows of row block `t / 8` of the labels' column. -/
theorem iblk1_3_apply (c : Dev nD) (t : Fin cfg1.N) (j : S512x1.Idx) (i : S4096x1.Idx)
    (h0 : (i 0).val = 512 * (t.val / 8) + (j 0).val) :
    (iblk1 V c 3 t : Vec Ideal S512x1 .i32) j = (V c main_v7 : S4096x1.Idx → BitVec 32) i := by
  have hi1 : (i 1).val < 1 := (i 1).isLt
  have hj1 : (j 1).val < 1 := (j 1).isLt
  unfold iblk1
  rw [View.read_apply]
  show V c main_v7 _ = V c main_v7 _
  congr 1
  funext a
  apply Fin.ext
  match a with
  | ⟨0, _⟩ => show win1_3.index t 0 * 512 + 1 * (j 0).val = (i 0).val; rw [(idx_facts1 t).2.2.2.2.1.1, h0]; omega
  | ⟨1, _⟩ => show win1_3.index t 1 * 1 + 1 * (j 1).val = (i 1).val; rw [(idx_facts1 t).2.2.2.2.1.2]; omega

/-- Window 4's block: the columns of column block `t % 8` of the labels' row. -/
theorem iblk1_4_apply (c : Dev nD) (t : Fin cfg1.N) (j : S1x512.Idx) (i : S1x4096.Idx)
    (h1 : (i 1).val = 512 * (t.val % 8) + (j 1).val) :
    (iblk1 V c 4 t : Vec Ideal S1x512 .i32) j = (V c main_v8 : S1x4096.Idx → BitVec 32) i := by
  have hi0 : (i 0).val < 1 := (i 0).isLt
  have hj0 : (j 0).val < 1 := (j 0).isLt
  unfold iblk1
  rw [View.read_apply]
  show V c main_v8 _ = V c main_v8 _
  congr 1
  funext a
  apply Fin.ext
  match a with
  | ⟨0, _⟩ => show win1_4.index t 0 * 1 + 1 * (j 0).val = (i 0).val; rw [(idx_facts1 t).2.2.2.2.2.1.1]; omega
  | ⟨1, _⟩ => show win1_4.index t 1 * 512 + 1 * (j 1).val = (i 1).val; rw [(idx_facts1 t).2.2.2.2.2.1.2, h1]; omega

/-- Window 5's block: the columns of column block `t % 8` of the negative-labels' row. -/
theorem iblk1_5_apply (c : Dev nD) (t : Fin cfg1.N) (j : S1x512.Idx) (i : S1x4096.Idx)
    (h1 : (i 1).val = 512 * (t.val % 8) + (j 1).val) :
    (iblk1 V c 5 t : Vec Ideal S1x512 .i32) j = (V c main_v9 : S1x4096.Idx → BitVec 32) i := by
  have hi0 : (i 0).val < 1 := (i 0).isLt
  have hj0 : (j 0).val < 1 := (j 0).isLt
  unfold iblk1
  rw [View.read_apply]
  show V c main_v9 _ = V c main_v9 _
  congr 1
  funext a
  apply Fin.ext
  match a with
  | ⟨0, _⟩ => show win1_5.index t 0 * 1 + 1 * (j 0).val = (i 0).val; rw [(idx_facts1 t).2.2.2.2.2.2.1.1]; omega
  | ⟨1, _⟩ => show win1_5.index t 1 * 512 + 1 * (j 1).val = (i 1).val; rw [(idx_facts1 t).2.2.2.2.2.2.1.2, h1]; omega

/-! ## The fetched blocks when the arrays hold the directions and the labels -/

section Blocks
variable (x : SFeat.Idx → EReal) (lab neg : SLab.Idx → BitVec 32) (c : Dev nD)

/-- The grid coordinates of point `8 i + j` are `(i, j)`. -/
theorem coords1_eq (t : Fin cfg1.N) (i j : Fin 8) (ht : t.val = 8 * i.val + j.val) :
    (grid1.coords t 0).val = i.val ∧ (grid1.coords t 1).val = j.val := by
  have hj := j.isLt
  refine ⟨(idx_facts1 t).1.1.trans ?_, (idx_facts1 t).1.2.trans ?_⟩ <;> omega

/-- Window 0 at point `8 i + j`: the anchors' directions of the rows of row block `i`. -/
theorem blk1_0_rows (hD0 : (V c main_v6_0 : S4096x1024.Idx → EReal) = Region0.dirArr x 0) (t : Fin cfg1.N) (i j : Fin 8) (ht : t.val = 8 * i.val + j.val) (p : Fin 512) (k : Fin 1024) :
    (iblk1 V c 0 t : Vec Ideal S512x1024 .bf16) (ix2 p k) = dir x 0 (KernelForm.row i p) k := by
  have hj := j.isLt
  refine (iblk1_0_apply V c t (ix2 p k) (ix2 (KernelForm.row i p) k) ?_ rfl).trans ?_
  · show i.val * 512 + p.val = 512 * (t.val / 8) + p.val
    omega
  · rw [hD0]; rfl

/-- Window 1: the anchors' directions of the rows of column block `j`. -/
theorem blk1_1_rows (hD0 : (V c main_v6_0 : S4096x1024.Idx → EReal) = Region0.dirArr x 0) (t : Fin cfg1.N) (i j : Fin 8) (ht : t.val = 8 * i.val + j.val) (q : Fin 512) (k : Fin 1024) :
    (iblk1 V c 1 t : Vec Ideal S512x1024 .bf16) (ix2 q k) = dir x 0 (KernelForm.row j q) k := by
  have hj := j.isLt
  refine (iblk1_1_apply V c t (ix2 q k) (ix2 (KernelForm.row j q) k) ?_ rfl).trans ?_
  · show j.val * 512 + q.val = 512 * (t.val % 8) + q.val
    omega
  · rw [hD0]; rfl

/-- Window 2: the negatives' directions of the rows of column block `j`. -/
theorem blk1_2_rows (hD2 : (V c main_v6_1 : S4096x1024.Idx → EReal) = Region0.dirArr x 2) (t : Fin cfg1.N) (i j : Fin 8) (ht : t.val = 8 * i.val + j.val) (q : Fin 512) (k : Fin 1024) :
    (iblk1 V c 2 t : Vec Ideal S512x1024 .bf16) (ix2 q k) = dir x 2 (KernelForm.row j q) k := by
  have hj := j.isLt
  refine (iblk1_2_apply V c t (ix2 q k) (ix2 (KernelForm.row j q) k) ?_ rfl).trans ?_
  · show j.val * 512 + q.val = 512 * (t.val % 8) + q.val
    omega
  · rw [hD2]; rfl

/-- Window 3: the labels of the rows of row block `i`. -/
theorem blk1_3_rows (hL3 : ∀ r : Fin 4096, (V c main_v7 : S4096x1.Idx → BitVec 32) (ix2 r (0 : Fin 1)) = lab (ix1 r)) (t : Fin cfg1.N) (i j : Fin 8) (ht : t.val = 8 * i.val + j.val) (p : Fin 512) :
    (iblk1 V c 3 t : Vec Ideal S512x1 .i32) (ix2 p (0 : Fin 1)) = lab (ix1 (KernelForm.row i p)) := by
  have hj := j.isLt
  refine (iblk1_3_apply V c t (ix2 p (0 : Fin 1)) (ix2 (KernelForm.row i p) (0 : Fin 1)) ?_).trans (hL3 _)
  show i.val * 512 + p.val = 512 * (t.val / 8) + p.val
  omega

/-- Window 4: the labels of the rows of column block `j`. -/
theorem blk1_4_cols (hL4 : ∀ q : Fin 4096, (V c main_v8 : S1x4096.Idx → BitVec 32) (ix2 (0 : Fin 1) q) = lab (ix1 q)) (t : Fin cfg1.N) (i j : Fin 8) (ht : t.val = 8 * i.val + j.val) (q : Fin 512) :
    (iblk1 V c 4 t : Vec Ideal S1x512 .i32) (ix2 (0 : Fin 1) q) = lab (ix1 (KernelForm.row j q)) := by
  have hj := j.isLt
  refine (iblk1_4_apply V c t (ix2 (0 : Fin 1) q) (ix2 (0 : Fin 1) (KernelForm.row j q)) ?_).trans (hL4 _)
  show j.val * 512 + q.val = 512 * (t.val % 8) + q.val
  omega

/-- Window 5: the negative-labels of the rows of column block `j`. -/
theorem blk1_5_cols (hL5 : ∀ q : Fin 4096, (V c main_v9 : S1x4096.Idx → BitVec 32) (ix2 (0 : Fin 1) q) = neg (ix1 q)) (t : Fin cfg1.N) (i j : Fin 8) (ht : t.val = 8 * i.val + j.val) (q : Fin 512) :
    (iblk1 V c 5 t : Vec Ideal S1x512 .i32) (ix2 (0 : Fin 1) q) = neg (ix1 (KernelForm.row j q)) := by
  have hj := j.isLt
  refine (iblk1_5_apply V c t (ix2 (0 : Fin 1) q) (ix2 (0 : Fin 1) (KernelForm.row j q)) ?_).trans (hL5 _)
  show j.val * 512 + q.val = 512 * (t.val % 8) + q.val
  omega

end Blocks

/-! ## The accumulation over a row block's eight column blocks -/

/-- The accumulation at a position does not depend on how the position is written. -/
theorem outsAt1_congr (c : Dev nD) {n n' : ℕ} (e : n = n') (h : n < cfg1.N) (h' : n' < cfg1.N) :
    outsAt1 V c n h = outsAt1 V c n' h' := by
  subst e; rfl

section Fold
variable (x : SFeat.Idx → EReal) (lab neg : SLab.Idx → BitVec 32)

/-- After the last column block of row block `i`, row `k` of the accumulator holds, in every lane, number `k` of the row
    block: the reset stores zeros, a column block not before the row block adds its number `k` along row `k`, a column
    block before the row block adds nothing. (The three facts about the body's arithmetic are hypotheses here.) -/
theorem outsAt1_slot (c : Dev nD)
    (hzero : ∀ (k : Fin 8) (l : Fin 128), (k1_pay1 (F := Ideal)) (ix3 (0 : Fin 1) k l) = 0)
    (hadd : ∀ (v : FVec Ideal S8x1 .f32) (w : Vec Ideal S1x8x128 .f32) (k : Fin 8) (l : Fin 128),
      k1_pay2 v w (ix3 (0 : Fin 1) k l) = w (ix3 (0 : Fin 1) k l) + v (ix2 k (0 : Fin 1)))
    (hvals : ∀ (t : Fin cfg1.N) (i j : Fin 8), t.val = 8 * i.val + j.val → i.val ≤ j.val → ∀ k : Fin 8,
      blockPay (F := Ideal) (grid1.coords t) (iblk1 V c 0 t) (iblk1 V c 1 t) (iblk1 V c 2 t) (iblk1 V c 3 t) (iblk1 V c 4 t) (iblk1 V c 5 t) (ix2 k (0 : Fin 1)) = KernelForm.vals x lab neg i j k)
    (i k : Fin 8) (l : Fin 128) (h : 8 * i.val + 7 < cfg1.N) :
    outsAt1 V c (8 * i.val + 7) h (ix3 (0 : Fin 1) k l) = KernelForm.slot x lab neg i k := by
  have hN : cfg1.N = 64 := N_1
  have hi : i.val < 8 := i.isLt
  let acc : ℕ → EReal := fun n =>
    if hn : 1 ≤ n ∧ n ≤ 8 then outsAt1 V c (8 * i.val + (n - 1)) (by omega) (ix3 (0 : Fin 1) k l) else 0
  have hacc : ∀ (n : ℕ) (hn : 1 ≤ n ∧ n ≤ 8) (h' : 8 * i.val + (n - 1) < cfg1.N),
      acc n = outsAt1 V c (8 * i.val + (n - 1)) h' (ix3 (0 : Fin 1) k l) := fun n hn h' => dif_pos hn
  have h8 : acc 8 = outsAt1 V c (8 * i.val + 7) h (ix3 (0 : Fin 1) k l) := hacc 8 ⟨by omega, le_refl 8⟩ h
  rw [← h8]
  refine KernelForm.slot_of_fold x lab neg i k acc (dif_neg (by omega)) fun j => ?_
  have hj : j.val < 8 := j.isLt
  have htN : 8 * i.val + j.val < cfg1.N := by omega
  have hdiv : (8 * i.val + j.val) / 8 = i.val := by omega
  have hmod : (8 * i.val + j.val) % 8 = j.val := by omega
  have hacc1 : acc (j.val + 1) = outsAt1 V c (8 * i.val + j.val) htN (ix3 (0 : Fin 1) k l) :=
    (hacc (j.val + 1) ⟨by omega, by omega⟩ (by omega)).trans (congrFun (outsAt1_congr V c (by omega) _ _) _)
  rw [hacc1]
  -- the point, by name
  generalize ht : (⟨8 * i.val + j.val, htN⟩ : Fin cfg1.N) = t
  have htv : t.val = 8 * i.val + j.val := by rw [← ht]
  have hout : outsAt1 V c (8 * i.val + j.val) htN = outsAt1 V c t.val t.isLt := outsAt1_congr V c htv.symm _ _
  rw [hout]
  by_cases hj0 : j.val = 0
  · have h1 : t.val % 8 = 0 := by omega
    have hacc0 : acc j.val = 0 := dif_neg (by omega)
    rw [hacc0]
    by_cases hij : i.val ≤ j.val
    · have h2 : t.val / 8 ≤ t.val % 8 := by omega
      rw [if_pos hij, (outsAt1_AA V c t h1 h2).trans
        (out1_AA_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) ((hcond1_2 t).mpr h2) (iblk1 V c 0 t) (iblk1 V c 1 t) (iblk1 V c 2 t) (iblk1 V c 3 t) (iblk1 V c 4 t) (iblk1 V c 5 t)),
        hadd, hzero, hvals t i j htv hij k]
    · have h2 : ¬ t.val / 8 ≤ t.val % 8 := by omega
      rw [if_neg hij, (outsAt1_AB V c t h1 h2).trans
        (out1_AB_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_1 t).mpr h1) (fun h => h2 ((hcond1_2 t).mp h)) (iblk1 V c 0 t) (iblk1 V c 1 t) (iblk1 V c 2 t) (iblk1 V c 3 t) (iblk1 V c 4 t) (iblk1 V c 5 t)),
        hzero, add_zero]
  · have h1 : ¬ t.val % 8 = 0 := by omega
    have haccj : acc j.val = outsAt1 V c (t.val - 1) (Nat.lt_of_le_of_lt (Nat.sub_le _ _) t.isLt) (ix3 (0 : Fin 1) k l) :=
      (hacc j.val ⟨by omega, by omega⟩ (by omega)).trans (congrFun (outsAt1_congr V c (by omega) _ _) _)
    rw [haccj]
    by_cases hij : i.val ≤ j.val
    · have h2 : t.val / 8 ≤ t.val % 8 := by omega
      rw [if_pos hij, (outsAt1_BA V c t h1 h2).trans
        (out1_BA_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h1 ((hcond1_1 t).mp h)) ((hcond1_2 t).mpr h2) (iblk1 V c 0 t) (iblk1 V c 1 t) (iblk1 V c 2 t) (iblk1 V c 3 t) (iblk1 V c 4 t) (iblk1 V c 5 t)
          (outsAt1 V c (t.val - 1) (Nat.lt_of_le_of_lt (Nat.sub_le _ _) t.isLt))),
        hadd, hvals t i j htv hij k]
    · have h2 : ¬ t.val / 8 ≤ t.val % 8 := by omega
      rw [if_neg hij, outsAt1_BB V c t h1 h2, add_zero]

end Fold

/-! ## The accumulator's array after the region -/

/-- The row blocks' eight numbers as one array: entry `(i, k, l)` is number `k` of row block `i`, in every lane `l`. -/
def slotArr (x : SFeat.Idx → EReal) (lab neg : SLab.Idx → BitVec 32) : S8x8x128.Idx → EReal :=
  fun a => KernelForm.slot x lab neg (a 0) (a 1)

/-- An index of the accumulator's array is in point `t`'s block iff each coordinate is in the block's range. -/
theorem mem_blk1_6 (t : Fin cfg1.N) (a : S8x8x128.Idx) :
    a ∈ ((cfg1.win 6).blk t).view.set ↔ ∀ d : Fin 3, win1_6.index t d * S1x8x128.size d ≤ (a d).val ∧ (a d).val < win1_6.index t d * S1x8x128.size d + S1x8x128.size d := by
  show a ∈ ((View.whole main_v10).slice (win1_6.rect t)).set ↔ _
  rw [View.set_slice_whole, Rect.mem_set_unit]
  exact Iff.rfl

/-- Row block `i` of the accumulator's array is the block of point `8 i + 7`, which writes back. -/
theorem cover1_6 (a : S8x8x128.Idx) :
    ∃ t : Fin cfg1.N, (cfg1.win 6).flush t = true ∧ a ∈ ((cfg1.win 6).blk t).view.set := by
  have ha0 : (a 0).val < 8 := (a 0).isLt
  have ha1 : (a 1).val < 8 := (a 1).isLt
  have ha2 : (a 2).val < 128 := (a 2).isLt
  have hN : cfg1.N = 64 := N_1
  refine ⟨⟨8 * (a 0).val + 7, by omega⟩, (flush1_6 _).mpr (by show (8 * (a 0).val + 7) % 8 = 7; omega), ?_⟩
  rw [mem_blk1_6]
  intro d
  match d with
  | ⟨0, _⟩ =>
    show win1_6.index _ (0 : Fin 3) * 1 ≤ (a 0).val ∧ (a 0).val < win1_6.index _ (0 : Fin 3) * 1 + 1
    rw [(idx_facts1 _).2.2.2.2.2.2.2.1]
    show (8 * (a 0).val + 7) / 8 * 1 ≤ (a 0).val ∧ (a 0).val < (8 * (a 0).val + 7) / 8 * 1 + 1
    omega
  | ⟨1, _⟩ =>
    show win1_6.index _ (1 : Fin 3) * 8 ≤ (a 1).val ∧ (a 1).val < win1_6.index _ (1 : Fin 3) * 8 + 8
    rw [(idx_facts1 _).2.2.2.2.2.2.2.2.1]
    omega
  | ⟨2, _⟩ =>
    show win1_6.index _ (2 : Fin 3) * 128 ≤ (a 2).val ∧ (a 2).val < win1_6.index _ (2 : Fin 3) * 128 + 128
    rw [(idx_facts1 _).2.2.2.2.2.2.2.2.2]
    omega

section Final
variable (x : SFeat.Idx → EReal) (lab neg : SLab.Idx → BitVec 32) (c : Dev nD)

/-- The accumulator after the last column block of a row block, at any index of its block. -/
theorem outsAt1_last
    (hzero : ∀ (k : Fin 8) (l : Fin 128), (k1_pay1 (F := Ideal)) (ix3 (0 : Fin 1) k l) = 0)
    (hadd : ∀ (v : FVec Ideal S8x1 .f32) (w : Vec Ideal S1x8x128 .f32) (k : Fin 8) (l : Fin 128),
      k1_pay2 v w (ix3 (0 : Fin 1) k l) = w (ix3 (0 : Fin 1) k l) + v (ix2 k (0 : Fin 1)))
    (hvals : ∀ (t : Fin cfg1.N) (i j : Fin 8), t.val = 8 * i.val + j.val → i.val ≤ j.val → ∀ k : Fin 8,
      blockPay (F := Ideal) (grid1.coords t) (iblk1 V c 0 t) (iblk1 V c 1 t) (iblk1 V c 2 t) (iblk1 V c 3 t) (iblk1 V c 4 t) (iblk1 V c 5 t) (ix2 k (0 : Fin 1)) = KernelForm.vals x lab neg i j k)
    (t : Fin cfg1.N) (h7 : t.val % 8 = 7) (i : Fin 8) (hi : i.val = t.val / 8) (y : S1x8x128.Idx) :
    outsAt1 V c t.val t.isLt y = KernelForm.slot x lab neg i (y 1) := by
  obtain ⟨u, k, l, rfl⟩ : ∃ (u : Fin 1) (k : Fin 8) (l : Fin 128), y = ix3 u k l := ⟨y 0, y 1, y 2, eq_ix3 y⟩
  obtain rfl : u = 0 := Subsingleton.elim _ _
  have hN : cfg1.N = 64 := N_1
  have htl := t.isLt
  have e : t.val = 8 * i.val + 7 := by omega
  rw [outsAt1_congr V c e t.isLt (by omega)]
  exact outsAt1_slot V x lab neg c hzero hadd hvals i k l (by omega)

/-- The one write-back of a row block writes the row block's eight numbers. -/
theorem flushed1_6_eq
    (hzero : ∀ (k : Fin 8) (l : Fin 128), (k1_pay1 (F := Ideal)) (ix3 (0 : Fin 1) k l) = 0)
    (hadd : ∀ (v : FVec Ideal S8x1 .f32) (w : Vec Ideal S1x8x128 .f32) (k : Fin 8) (l : Fin 128),
      k1_pay2 v w (ix3 (0 : Fin 1) k l) = w (ix3 (0 : Fin 1) k l) + v (ix2 k (0 : Fin 1)))
    (hvals : ∀ (t : Fin cfg1.N) (i j : Fin 8), t.val = 8 * i.val + j.val → i.val ≤ j.val → ∀ k : Fin 8,
      blockPay (F := Ideal) (grid1.coords t) (iblk1 V c 0 t) (iblk1 V c 1 t) (iblk1 V c 2 t) (iblk1 V c 3 t) (iblk1 V c 4 t) (iblk1 V c 5 t) (ix2 k (0 : Fin 1)) = KernelForm.vals x lab neg i j k)
    (t : Fin cfg1.N) (hf : (cfg1.win 6).flush t = true) :
    (dat1 V c).flushed 6 t = ((cfg1.win 6).blk t).view.read (Elt Ideal) (slotArr x lab neg) := by
  have hN : cfg1.N = 64 := N_1
  have htl := t.isLt
  have h7 : t.val % 8 = 7 := (flush1_6 t).mp hf
  show (cfg1.win 6).cut (grid1.coords t) ((dat1 V c).after 6 t) = _
  rw [after1_6]
  funext y
  show outsAt1 V c t.val t.isLt y
    = KernelForm.slot x lab neg ((((cfg1.win 6).blk t).view.emb y) 0) ((((cfg1.win 6).blk t).view.emb y) 1)
  have hy0 : (y 0).val < 1 := (y 0).isLt
  have e0 : (((cfg1.win 6).blk t).view.emb y) 0 = (⟨t.val / 8, by omega⟩ : Fin 8) := Fin.ext (by
    show win1_6.index t 0 * 1 + 1 * (y 0).val = t.val / 8
    rw [(idx_facts1 t).2.2.2.2.2.2.2.1]; omega)
  have e1 : (((cfg1.win 6).blk t).view.emb y) 1 = y 1 := Fin.ext (by
    show win1_6.index t 1 * 8 + 1 * (y 1).val = (y 1).val
    rw [(idx_facts1 t).2.2.2.2.2.2.2.2.1]; omega)
  rw [e0, e1]
  exact outsAt1_last V x lab neg c hzero hadd hvals t h7 ⟨t.val / 8, by omega⟩ rfl y

/-- After the region the accumulator's array holds, for every row block, its eight numbers. -/
theorem final1_6
    (hzero : ∀ (k : Fin 8) (l : Fin 128), (k1_pay1 (F := Ideal)) (ix3 (0 : Fin 1) k l) = 0)
    (hadd : ∀ (v : FVec Ideal S8x1 .f32) (w : Vec Ideal S1x8x128 .f32) (k : Fin 8) (l : Fin 128),
      k1_pay2 v w (ix3 (0 : Fin 1) k l) = w (ix3 (0 : Fin 1) k l) + v (ix2 k (0 : Fin 1)))
    (hvals : ∀ (t : Fin cfg1.N) (i j : Fin 8), t.val = 8 * i.val + j.val → i.val ≤ j.val → ∀ k : Fin 8,
      blockPay (F := Ideal) (grid1.coords t) (iblk1 V c 0 t) (iblk1 V c 1 t) (iblk1 V c 2 t) (iblk1 V c 3 t) (iblk1 V c 4 t) (iblk1 V c 5 t) (ix2 k (0 : Fin 1)) = KernelForm.vals x lab neg i j k) :
    (dat1 V c).arrAt 6 cfg1.N = slotArr x lab neg :=
  (dat1 V c).arrAt_eq_of_cover 6 (slotArr x lab neg) (fun t hf => flushed1_6_eq V x lab neg c hzero hadd hvals t hf) cover1_6

/-- The same, read at an index. -/
theorem arr1_6
    (hzero : ∀ (k : Fin 8) (l : Fin 128), (k1_pay1 (F := Ideal)) (ix3 (0 : Fin 1) k l) = 0)
    (hadd : ∀ (v : FVec Ideal S8x1 .f32) (w : Vec Ideal S1x8x128 .f32) (k : Fin 8) (l : Fin 128),
      k1_pay2 v w (ix3 (0 : Fin 1) k l) = w (ix3 (0 : Fin 1) k l) + v (ix2 k (0 : Fin 1)))
    (hvals : ∀ (t : Fin cfg1.N) (i j : Fin 8), t.val = 8 * i.val + j.val → i.val ≤ j.val → ∀ k : Fin 8,
      blockPay (F := Ideal) (grid1.coords t) (iblk1 V c 0 t) (iblk1 V c 1 t) (iblk1 V c 2 t) (iblk1 V c 3 t) (iblk1 V c 4 t) (iblk1 V c 5 t) (ix2 k (0 : Fin 1)) = KernelForm.vals x lab neg i j k)
    (i k : Fin 8) (l : Fin 128) :
    ((dat1 V c).arrAt 6 cfg1.N : S8x8x128.Idx → EReal) (ix3 i k l) = KernelForm.slot x lab neg i k := by
  rw [final1_6 V x lab neg c hzero hadd hvals]; rfl

end Final

/-! ## The same under the hypotheses on the arrays alone -/

section Closed
variable (x : SFeat.Idx → EReal) (lab neg : SLab.Idx → BitVec 32) (c : Dev nD)

/-- At point `8 i + j` the body's eight numbers, computed from the fetched blocks, are the specification's eight numbers of
    block `(i, j)`: the blocks are the rows and columns the block arithmetic names. -/
theorem blockPay_vals (hD0 : (V c main_v6_0 : S4096x1024.Idx → EReal) = Region0.dirArr x 0) (hD2 : (V c main_v6_1 : S4096x1024.Idx → EReal) = Region0.dirArr x 2)
    (hL3 : ∀ r : Fin 4096, (V c main_v7 : S4096x1.Idx → BitVec 32) (ix2 r (0 : Fin 1)) = lab (ix1 r))
    (hL4 : ∀ q : Fin 4096, (V c main_v8 : S1x4096.Idx → BitVec 32) (ix2 (0 : Fin 1) q) = lab (ix1 q))
    (hL5 : ∀ q : Fin 4096, (V c main_v9 : S1x4096.Idx → BitVec 32) (ix2 (0 : Fin 1) q) = neg (ix1 q))
    (t : Fin cfg1.N) (i j : Fin 8) (ht : t.val = 8 * i.val + j.val) (k : Fin 8) :
    blockPay (F := Ideal) (grid1.coords t) (iblk1 V c 0 t) (iblk1 V c 1 t) (iblk1 V c 2 t) (iblk1 V c 3 t) (iblk1 V c 4 t) (iblk1 V c 5 t) (ix2 k (0 : Fin 1)) = KernelForm.vals x lab neg i j k := by
  unfold blockPay
  rw [(coords1_eq t i j ht).1, (coords1_eq t i j ht).2]
  exact Region1Payload.block_vals x lab neg i j (iblk1 V c 0 t) (iblk1 V c 1 t) (iblk1 V c 2 t) (iblk1 V c 3 t) (iblk1 V c 4 t) (iblk1 V c 5 t)
    (blk1_0_rows V x c hD0 t i j ht) (blk1_1_rows V x c hD0 t i j ht) (blk1_2_rows V x c hD2 t i j ht)
    (blk1_3_rows V lab c hL3 t i j ht) (blk1_4_cols V lab c hL4 t i j ht) (blk1_5_cols V neg c hL5 t i j ht) k

/-- After the region the accumulator's array holds, for every row block, its eight numbers. -/
theorem final1_6' (hD0 : (V c main_v6_0 : S4096x1024.Idx → EReal) = Region0.dirArr x 0) (hD2 : (V c main_v6_1 : S4096x1024.Idx → EReal) = Region0.dirArr x 2)
    (hL3 : ∀ r : Fin 4096, (V c main_v7 : S4096x1.Idx → BitVec 32) (ix2 r (0 : Fin 1)) = lab (ix1 r))
    (hL4 : ∀ q : Fin 4096, (V c main_v8 : S1x4096.Idx → BitVec 32) (ix2 (0 : Fin 1) q) = lab (ix1 q))
    (hL5 : ∀ q : Fin 4096, (V c main_v9 : S1x4096.Idx → BitVec 32) (ix2 (0 : Fin 1) q) = neg (ix1 q)) :
    (dat1 V c).arrAt 6 cfg1.N = slotArr x lab neg :=
  final1_6 V x lab neg c Region1Payload.zero_at Region1Payload.add_at
    (fun t i j ht _ k => blockPay_vals V x lab neg c hD0 hD2 hL3 hL4 hL5 t i j ht k)

/-- The same, read at an index. -/
theorem arr1_6' (hD0 : (V c main_v6_0 : S4096x1024.Idx → EReal) = Region0.dirArr x 0) (hD2 : (V c main_v6_1 : S4096x1024.Idx → EReal) = Region0.dirArr x 2)
    (hL3 : ∀ r : Fin 4096, (V c main_v7 : S4096x1.Idx → BitVec 32) (ix2 r (0 : Fin 1)) = lab (ix1 r))
    (hL4 : ∀ q : Fin 4096, (V c main_v8 : S1x4096.Idx → BitVec 32) (ix2 (0 : Fin 1) q) = lab (ix1 q))
    (hL5 : ∀ q : Fin 4096, (V c main_v9 : S1x4096.Idx → BitVec 32) (ix2 (0 : Fin 1) q) = neg (ix1 q))
    (i k : Fin 8) (l : Fin 128) :
    ((dat1 V c).arrAt 6 cfg1.N : S8x8x128.Idx → EReal) (ix3 i k l) = KernelForm.slot x lab neg i k := by
  rw [final1_6' V x lab neg c hD0 hD2 hL3 hL4 hL5]; rfl

end Closed

end Cert.KernelIdeal.Region1

end
-- ==== Proof.KernelTail.lean ====
/-
  The host operations after the second kernel call, as one formula.

  The tail sums the eight partial blocks over their first axis, takes column 0 of the result as eight scalars t 0 … t 7,
  totals the two column arrays of per-row distances, and returns the maximum with zero of
  (S2 + t 0 + t 4) / (4096 + t 1 + t 5) - (S3 + t 2 + t 6) / (4096 + t 3 + t 7) + margin.
  The operations are first composed into one pure term of the three arrays they read, and that term is then read at
  its one index stage by stage.
-/
import proofs.«135219_j66666482368607_2_alg».proof.Proof.Gen.KernelIdeal.Launch
import proofs.«135219_j66666482368607_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

/-! ## The pieces of the tail as pure functions of the three arrays it reads -/

/-- Column 0 of the sum of the eight partial blocks over their first axis, as a vector of eight entries. -/
def colsum (a : (⟨S8x8x128, .f32⟩ : BufTy).Contents (Elt Ideal)) : (⟨S8, .f32⟩ : BufTy).Contents (Elt Ideal) :=
  shapeCast _ (extractStridedSlice S8x1 ![0, 0]
    (Host.reduceAdd (F := Ideal) a (constant (F := Ideal) S_ .f32 0x00000000#32) reducesTo_S8x8x128_S8x128_d0 h_S_) slices_S8x128_S8x1_0_0)
    shapeCasts_S8x1_S8

/-- Entry k of that vector is the sum over the eight blocks of their entry (k, 0). -/
theorem colsum_apply (a : (⟨S8x8x128, .f32⟩ : BufTy).Contents (Elt Ideal)) (k : Fin 8) :
    colsum a (ix1 k) = ∑ i : Fin 8, a (ix3 i k (0 : Fin 128)) := by
  unfold colsum
  rw [shapeCast_apply _ shapeCasts_S8x1_S8 (ix1 k) (ix2 k (0 : Fin 1))
    (by rw [Shape.rowMajor_val_two, Shape.rowMajor_val_one]; show k.val * 1 + 0 = k.val; omega)]
  rw [extractStridedSlice_apply ![0, 0] _ slices_S8x128_S8x1_0_0 (ix2 k (0 : Fin 1)) (ix2 k (0 : Fin 128)) (fun b =>
    match b with
    | ⟨0, _⟩ => by show k.val = 0 + k.val; omega
    | ⟨1, _⟩ => rfl)]
  simp only [Host.reduceAdd, Ideal.hostReduceAdd_def]
  rw [Ideal.hostReduceAdd_single reducesTo_S8x8x128_S8x128_d0 (by decide)]
  show Ideal.ofBits .f32 0x00000000#32 + _ = _
  rw [Ideal.ofBits_zero_f32, zero_add]
  refine Finset.sum_congr rfl fun i _ => ?_
  exact congrArg a (funext fun b => Fin.ext (by
    match b with
    | ⟨0, _⟩ => rfl
    | ⟨1, _⟩ => rfl
    | ⟨2, _⟩ => rfl))

/-- One entry of a vector of eight taken out as a scalar: a slice of length one at offset k, reshaped to rank zero. -/
theorem pick_apply (v : (⟨S8, .f32⟩ : BufTy).Contents (Elt Ideal)) (k : Fin 8) (h : S8.Slices ![k.val] S1)
    (j : S_.Idx) : shapeCast S_ (extractStridedSlice S1 ![k.val] v h) shapeCasts_S1_S_ j = v (ix1 k) := by
  rw [shapeCast_apply _ shapeCasts_S1_S_ j (ix1 (0 : Fin 1))
    ((Shape.rowMajor_val_one _).trans (Shape.rowMajorPi_zero _ _).symm)]
  exact extractStridedSlice_apply ![k.val] v h (ix1 (0 : Fin 1)) (ix1 k) (fun b =>
    match b with
    | ⟨0, _⟩ => rfl)

/-- The sum over both axes of a column array of 4096 entries is the sum of the entries. -/
theorem colTotal_apply (a : (⟨S4096x1, .f32⟩ : BufTy).Contents (Elt Ideal)) (j : S_.Idx) :
    Host.reduceAdd (F := Ideal) a (constant (F := Ideal) S_ .f32 0x00000000#32) reducesTo_S4096x1_S_d0_1 h_S_ j
      = ∑ r : Fin 4096, a (ix2 r (0 : Fin 1)) := by
  simp only [Host.reduceAdd, Ideal.hostReduceAdd_def]
  rw [Ideal.hostReduceAdd_total reducesTo_S4096x1_S_d0_1 (fun b => b.elim0)]
  show Ideal.ofBits .f32 0x00000000#32 + _ = _
  rw [Ideal.ofBits_zero_f32, zero_add, sum_idx2]
  exact Finset.sum_congr rfl fun r _ => Fin.sum_univ_one _

/-- The single-precision pattern of 4096 reads as the real number 4096. -/
theorem ofBits_4096 : Ideal.ofBits .f32 0x45800000#32 = ((4096 : ℝ) : EReal) := by
  simp [Ideal.ofBits, Ideal.ieee, -EReal.coe_mul]
  norm_num

/-- Entry k of the column totals as a scalar. -/
def pick (a : (⟨S8x8x128, .f32⟩ : BufTy).Contents (Elt Ideal)) (k : ℕ) (h : S8.Slices ![k] S1) :
    (⟨S_, .f32⟩ : BufTy).Contents (Elt Ideal) :=
  shapeCast S_ (extractStridedSlice S1 ![k] (colsum a) h) shapeCasts_S1_S_

/-- The total of a column array of 4096 entries. -/
def total (a : (⟨S4096x1, .f32⟩ : BufTy).Contents (Elt Ideal)) : (⟨S_, .f32⟩ : BufTy).Contents (Elt Ideal) :=
  Host.reduceAdd (F := Ideal) a (constant (F := Ideal) S_ .f32 0x00000000#32) reducesTo_S4096x1_S_d0_1 h_S_

/-- The host operations after the second kernel call, composed: two quotients of a sum by a count, their difference
    plus the margin, and the maximum with zero. -/
def tailTerm (a10 : (⟨S8x8x128, .f32⟩ : BufTy).Contents (Elt Ideal))
    (a62 a63 : (⟨S4096x1, .f32⟩ : BufTy).Contents (Elt Ideal)) : (⟨S_, .f32⟩ : BufTy).Contents (Elt Ideal) :=
  maximumf (F := Ideal)
    (addf (F := Ideal)
      (subf (F := Ideal)
        (Host.divf (F := Ideal)
          (addf (F := Ideal) (addf (F := Ideal) (total a62) (pick a10 0 slices_S8_S1_0)) (pick a10 4 slices_S8_S1_4))
          (addf (F := Ideal) (addf (F := Ideal) (constant (F := Ideal) S_ .f32 0x45800000#32) (pick a10 1 slices_S8_S1_1))
            (pick a10 5 slices_S8_S1_5)))
        (Host.divf (F := Ideal)
          (addf (F := Ideal) (addf (F := Ideal) (total a63) (pick a10 2 slices_S8_S1_2)) (pick a10 6 slices_S8_S1_6))
          (addf (F := Ideal) (addf (F := Ideal) (constant (F := Ideal) S_ .f32 0x45800000#32) (pick a10 3 slices_S8_S1_3))
            (pick a10 7 slices_S8_S1_7))))
      (constant (F := Ideal) S_ .f32 0x40A00000#32))
    (constant (F := Ideal) S_ .f32 0x00000000#32)

/-- What the result buffer holds after the two stretches of host operations, from any contents of the buffers. -/
theorem after_tail (Wv : Valuation τ sig (Elt Ideal)) :
    StableHlo.after (hostOps2_1 (F := Ideal)) (StableHlo.after (hostOps2 (F := Ideal)) Wv) (Proc.devRef .tc main_v44)
      = tailTerm (Wv (Proc.devRef .tc main_v10)) (Wv (Proc.devRef .tc main_v6_2)) (Wv (Proc.devRef .tc main_v6_3)) := by
  after_results_simp <;> rfl

/-! ## The tail read at its one index -/

/-- Entry k of the column totals, as a scalar, is the sum over the eight blocks of their entry (k, 0). -/
theorem pick_eq (a : (⟨S8x8x128, .f32⟩ : BufTy).Contents (Elt Ideal)) (k : Fin 8) (h : S8.Slices ![k.val] S1)
    (j : S_.Idx) : pick a k.val h j = ∑ i : Fin 8, a (ix3 i k (0 : Fin 128)) := by
  unfold pick
  rw [pick_apply, colsum_apply]

/-- The value of the tail as a closed formula of the three arrays: with S2, S3 the totals of the two column arrays and
    t k the sum over the eight blocks of their entry (k, 0), the maximum with zero of
    (S2 + t 0 + t 4) / (4096 + t 1 + t 5) - (S3 + t 2 + t 6) / (4096 + t 3 + t 7) + margin. -/
def tailValue (a10 : (⟨S8x8x128, .f32⟩ : BufTy).Contents (Elt Ideal))
    (a62 a63 : (⟨S4096x1, .f32⟩ : BufTy).Contents (Elt Ideal)) : EReal :=
  max (Ideal.div
        (((∑ r : Fin 4096, a62 (ix2 r (0 : Fin 1))) + ∑ i : Fin 8, a10 (ix3 i (0 : Fin 8) (0 : Fin 128)))
          + ∑ i : Fin 8, a10 (ix3 i (4 : Fin 8) (0 : Fin 128)))
        ((((4096 : ℝ) : EReal) + ∑ i : Fin 8, a10 (ix3 i (1 : Fin 8) (0 : Fin 128)))
          + ∑ i : Fin 8, a10 (ix3 i (5 : Fin 8) (0 : Fin 128)))
      - Ideal.div
        (((∑ r : Fin 4096, a63 (ix2 r (0 : Fin 1))) + ∑ i : Fin 8, a10 (ix3 i (2 : Fin 8) (0 : Fin 128)))
          + ∑ i : Fin 8, a10 (ix3 i (6 : Fin 8) (0 : Fin 128)))
        ((((4096 : ℝ) : EReal) + ∑ i : Fin 8, a10 (ix3 i (3 : Fin 8) (0 : Fin 128)))
          + ∑ i : Fin 8, a10 (ix3 i (7 : Fin 8) (0 : Fin 128)))
      + Cert.TripletSpec.margin) Cert.TripletSpec.zero

/-- The composed tail at its index is that formula. -/
theorem tailTerm_apply (a10 : (⟨S8x8x128, .f32⟩ : BufTy).Contents (Elt Ideal))
    (a62 a63 : (⟨S4096x1, .f32⟩ : BufTy).Contents (Elt Ideal)) :
    tailTerm a10 a62 a63 ix0 = tailValue a10 a62 a63 := by
  have e0 : pick a10 0 slices_S8_S1_0 ix0 = ∑ i : Fin 8, a10 (ix3 i (0 : Fin 8) (0 : Fin 128)) := pick_eq a10 0 slices_S8_S1_0 ix0
  have e1 : pick a10 1 slices_S8_S1_1 ix0 = ∑ i : Fin 8, a10 (ix3 i (1 : Fin 8) (0 : Fin 128)) := pick_eq a10 1 slices_S8_S1_1 ix0
  have e2 : pick a10 2 slices_S8_S1_2 ix0 = ∑ i : Fin 8, a10 (ix3 i (2 : Fin 8) (0 : Fin 128)) := pick_eq a10 2 slices_S8_S1_2 ix0
  have e3 : pick a10 3 slices_S8_S1_3 ix0 = ∑ i : Fin 8, a10 (ix3 i (3 : Fin 8) (0 : Fin 128)) := pick_eq a10 3 slices_S8_S1_3 ix0
  have e4 : pick a10 4 slices_S8_S1_4 ix0 = ∑ i : Fin 8, a10 (ix3 i (4 : Fin 8) (0 : Fin 128)) := pick_eq a10 4 slices_S8_S1_4 ix0
  have e5 : pick a10 5 slices_S8_S1_5 ix0 = ∑ i : Fin 8, a10 (ix3 i (5 : Fin 8) (0 : Fin 128)) := pick_eq a10 5 slices_S8_S1_5 ix0
  have e6 : pick a10 6 slices_S8_S1_6 ix0 = ∑ i : Fin 8, a10 (ix3 i (6 : Fin 8) (0 : Fin 128)) := pick_eq a10 6 slices_S8_S1_6 ix0
  have e7 : pick a10 7 slices_S8_S1_7 ix0 = ∑ i : Fin 8, a10 (ix3 i (7 : Fin 8) (0 : Fin 128)) := pick_eq a10 7 slices_S8_S1_7 ix0
  have s2 : total a62 ix0 = ∑ r : Fin 4096, a62 (ix2 r (0 : Fin 1)) := colTotal_apply a62 ix0
  have s3 : total a63 ix0 = ∑ r : Fin 4096, a63 (ix2 r (0 : Fin 1)) := colTotal_apply a63 ix0
  show max (Ideal.div ((total a62 ix0 + pick a10 0 slices_S8_S1_0 ix0) + pick a10 4 slices_S8_S1_4 ix0)
        ((Ideal.ofBits .f32 0x45800000#32 + pick a10 1 slices_S8_S1_1 ix0) + pick a10 5 slices_S8_S1_5 ix0)
      - Ideal.div ((total a63 ix0 + pick a10 2 slices_S8_S1_2 ix0) + pick a10 6 slices_S8_S1_6 ix0)
        ((Ideal.ofBits .f32 0x45800000#32 + pick a10 3 slices_S8_S1_3 ix0) + pick a10 7 slices_S8_S1_7 ix0)
      + Ideal.ofBits .f32 0x40A00000#32) (Ideal.ofBits .f32 0x00000000#32) = _
  rw [e0, e1, e2, e3, e4, e5, e6, e7, s2, s3, ofBits_4096]
  rfl

/-- The result after the two stretches of host operations, at its index, from any contents `Wv` of the buffers. -/
theorem tail_eq (Wv : Valuation τ sig (Elt Ideal)) :
    StableHlo.after (hostOps2_1 (F := Ideal)) (StableHlo.after (hostOps2 (F := Ideal)) Wv) (Proc.devRef .tc main_v44) ix0
      = tailValue (Wv (Proc.devRef .tc main_v10)) (Wv (Proc.devRef .tc main_v6_2)) (Wv (Proc.devRef .tc main_v6_3)) := by
  rw [after_tail]
  exact tailTerm_apply _ _ _

end Cert.KernelIdeal.Tail

end
-- ==== Proof.KernelValue.lean ====
/-
  The kernel program's result is the specification's loss.

  The result buffer at the end of the run is the closing host lines applied to what the second region left. Those lines
  compute one closed formula of three arrays: the second region's output, whose entries are the row blocks' eight
  numbers, and the first region's two columns of per-row distances. With those entries the formula is the loss as the
  blocked arithmetic computes it, and with real features that is the specification's loss.
-/
import proofs.«135219_j66666482368607_2_alg».proof.Proof.Entry
import proofs.«135219_j66666482368607_2_alg».proof.Proof.Region0Value
import proofs.«135219_j66666482368607_2_alg».proof.Proof.Region1Value
import proofs.«135219_j66666482368607_2_alg».proof.Proof.KernelAlgebra
import proofs.«135219_j66666482368607_2_alg».proof.Proof.KernelTail

noncomputable section

open scoped BigOperators

namespace Cert.KernelIdeal.Assemble

open Cert.KernelIdeal Cert.KernelIdeal.Gen Cert.KernelIdeal.Region0 Cert.KernelIdeal.Region1 Cert.TripletSpec
open Idealize.ShloMosaic Idealize.ShloMosaic.TcCoe Idealize.ShloMosaic.ValueIdx Idealize.SL.Sem
open Idealize.ShloMosaic.Pipeline (Dat)

/-- The closing formula over three arrays whose entries are the row blocks' eight numbers and the two per-row
    distances is the loss as the blocked arithmetic computes it. -/
theorem tailValue_eq_kernelLoss (x : SFeat.Idx → EReal) (lab neg : SLab.Idx → BitVec 32)
    (a10 : (⟨S8x8x128, .f32⟩ : BufTy).Contents (Elt Ideal)) (a62 a63 : (⟨S4096x1, .f32⟩ : BufTy).Contents (Elt Ideal))
    (h10 : ∀ (i k : Fin 8) (l : Fin 128), a10 (ix3 i k l) = KernelForm.slot x lab neg i k)
    (h62 : ∀ r : Fin 4096, a62 (ix2 r (0 : Fin 1)) = TripletSpec.dist x 1 r r)
    (h63 : ∀ r : Fin 4096, a63 (ix2 r (0 : Fin 1)) = TripletSpec.dist x 2 r r) :
    Tail.tailValue a10 a62 a63 = KernelForm.kernelLoss x lab neg := by
  unfold Tail.tailValue KernelForm.kernelLoss KernelForm.total
  simp only [h10, h62, h63]

variable (m : (ℓ : Loc nD τ sig) → Buf (Elt Ideal) ℓ) (c : Dev nD)

/-- The feature array a core is launched with. -/
abbrev feat : SFeat.Idx → EReal := m ((c : Thread nD τ).loc main_arg0)
/-- The label array a core is launched with. -/
abbrev labs : SLab.Idx → BitVec 32 := m ((c : Thread nD τ).loc main_arg1)
/-- The negative-label array a core is launched with. -/
abbrev negs : SLab.Idx → BitVec 32 := m ((c : Thread nD τ).loc main_arg2)

/-! ## What the second region finds -/

/-- The anchor directions the second region reads are the specification's. -/
theorem entry_anchor_dirs : (V3 m c main_v6_0 : S4096x1024.Idx → EReal) = dirArr (feat m c) 0 :=
  (W3_anchor_dirs m c).trans (final3 (V1 m) (feat m c) c (entry_v1 m c))

/-- The negative directions the second region reads are the specification's. -/
theorem entry_negative_dirs : (V3 m c main_v6_1 : S4096x1024.Idx → EReal) = dirArr (feat m c) 2 :=
  (W3_negative_dirs m c).trans (final4 (V1 m) (feat m c) c (entry_v5 m c))

/-- The label column the second region reads. -/
theorem entry_label_col (r : Fin 4096) :
    (V3 m c main_v7 : S4096x1.Idx → BitVec 32) (ix2 r (0 : Fin 1)) = labs m c (ix1 r) := entry_v7 m c r

/-- The label row the second region reads. -/
theorem entry_label_row (q : Fin 4096) :
    (V3 m c main_v8 : S1x4096.Idx → BitVec 32) (ix2 (0 : Fin 1) q) = labs m c (ix1 q) := entry_v8 m c q

/-- The negative-label row the second region reads. -/
theorem entry_neglabel_row (q : Fin 4096) :
    (V3 m c main_v9 : S1x4096.Idx → BitVec 32) (ix2 (0 : Fin 1) q) = negs m c (ix1 q) := entry_v9 m c q

/-! ## The result -/

/-- The two columns of per-row distances the closing lines total. -/
theorem pos_col_at (r : Fin 4096) :
    (W4 m c (Proc.devRef .tc main_v6_2) : S4096x1.Idx → EReal) (ix2 r (0 : Fin 1)) = TripletSpec.dist (feat m c) 1 r r := by
  rw [W4_pos_col]
  exact arr0_5 (V1 m) (feat m c) c (entry_v1 m c) (entry_v3 m c) r

theorem neg_col_at (r : Fin 4096) :
    (W4 m c (Proc.devRef .tc main_v6_3) : S4096x1.Idx → EReal) (ix2 r (0 : Fin 1)) = TripletSpec.dist (feat m c) 2 r r := by
  rw [W4_neg_col]
  exact arr0_6 (V1 m) (feat m c) c (entry_v1 m c) (entry_v5 m c) r

/-- The program's result is the specification's loss of the arrays it was launched with, when every feature is a real
    number and the second region leaves each row block's eight numbers in its output array. -/
theorem result_value_of_slot (hx : ∀ i, ∃ y : ℝ, feat m c i = (y : EReal))
    (hslot : ∀ (i k : Fin 8) (l : Fin 128),
      ((dat1 (V3 m) c).arrAt 6 cfg1.N : S8x8x128.Idx → EReal) (ix3 i k l) = KernelForm.slot (feat m c) (labs m c) (negs m c) i k) :
    W6 m c (Proc.devRef .tc main_v44) ValueIdx.ix0 = Cert.TripletSpec.loss (feat m c) (labs m c) (negs m c) := by
  refine (Tail.tail_eq (W4 m c)).trans ?_
  rw [tailValue_eq_kernelLoss (feat m c) (labs m c) (negs m c) _ _ _
    (fun i k l => by rw [W4_out]; exact hslot i k l) (pos_col_at m c) (neg_col_at m c)]
  exact KernelForm.kernelLoss_eq (feat m c) (labs m c) (negs m c) hx

/-- The program's result is the specification's loss of the arrays it was launched with, when every feature is a real
    number. -/
theorem result_value (hx : ∀ i, ∃ y : ℝ, feat m c i = (y : EReal)) :
    W6 m c (Proc.devRef .tc main_v44) ValueIdx.ix0 = Cert.TripletSpec.loss (feat m c) (labs m c) (negs m c) :=
  result_value_of_slot m c hx
    (arr1_6' (V3 m) (feat m c) (labs m c) (negs m c) c (entry_anchor_dirs m c) (entry_negative_dirs m c)
      (entry_label_col m c) (entry_label_row m c) (entry_neglabel_row m c))

end Cert.KernelIdeal.Assemble

end
-- ==== Proof.RefCounts.lean ====
/-
  Counting with 32-bit words: a two-axis integer sum of a zero-extended bit mask of 4096 x 4096 entries is the word
  whose value is the number of set entries, because that number is at most 2^24 and nothing wraps; the sum of 4096
  and two such counts, read as a signed integer, is the natural number 4096 + n1 + n2.
-/
import Idealize.ShloMosaic.PureOps.Reduce
import Idealize.ShloMosaic.PureOps.Ideal
import Idealize.ShloMosaic.Lib.ValueIdx
import proofs.«135219_j66666482368607_2_alg».proof.Proof.Spec

noncomputable section

open scoped BigOperators

namespace Cert.ReferenceIdeal.RefCounts

open Idealize.ShloMosaic Idealize.ShloMosaic.ValueIdx

/-- The shape of a mask over pairs of rows. -/
abbrev SMask : Shape := ⟨2, ![4096, 4096]⟩
/-- The scalar shape. -/
abbrev SScal : Shape := ⟨0, ![]⟩

/-- Folding 32-bit addition from zero over a finite set gives the word of the sum of the terms' values: the map from
    naturals to words respects addition, so no bound is needed here. -/
theorem fold_addi_eq_ofNat {ι : Type} [DecidableEq ι] (S : Finset ι) (x : ι → BitVec 32) :
    S.fold IntOp.addi 0#32 x = BitVec.ofNat 32 (∑ i ∈ S, (x i).toNat) := by
  induction S using Finset.induction_on with
  | empty => rfl
  | insert a S ha ih =>
    rw [Finset.fold_insert ha, Finset.sum_insert ha, ih, IntOp.addi, BitVec.ofNat_add, BitVec.ofNat_toNat,
      BitVec.setWidth_eq]

/-- A bit widened to 32 bits has value one when it is set and zero otherwise. -/
theorem toNat_setWidth_bit (b : BitVec 1) : (b.setWidth 32).toNat = if b = 1#1 then 1 else 0 := by
  by_cases h : b = 1#1
  · subst h; rfl
  · rw [if_neg h, eq_zero_of_ne_one h]; rfl

/-- The number of set entries of a mask, as a double sum over the two coordinates. -/
def ones (b : SMask.Idx → BitVec 1) : ℕ := ∑ r : Fin 4096, ∑ c : Fin 4096, if b (ix2 r c) = 1#1 then 1 else 0

/-- A mask of 4096 x 4096 entries has at most 2^24 set entries. -/
theorem ones_le (b : SMask.Idx → BitVec 1) : ones b ≤ 16777216 := by
  unfold ones
  calc (∑ r : Fin 4096, ∑ c : Fin 4096, if b (ix2 r c) = 1#1 then 1 else 0)
      ≤ ∑ _r : Fin 4096, ∑ _c : Fin 4096, 1 :=
        Finset.sum_le_sum fun r _ => Finset.sum_le_sum fun c _ => by split <;> omega
    _ = 16777216 := by simp only [Finset.sum_const, Finset.card_univ, Fintype.card_fin, smul_eq_mul]

/-- The two-axis 32-bit sum, from the zero word, of a zero-extended mask is the word whose value is the number of set
    entries: the fold over every index is the word of the sum of the entries' values, that sum is the number of set
    entries, and it is below 2^32. -/
theorem reduce_count (b : SMask.Idx → BitVec 1) (init : SScal.Idx → BitVec 32) (h : SMask.ReducesTo [0, 1] SScal)
    (hu : 0 < SScal.numel) (hinit : init (Shape.Idx.first hu) = 0#32) (h32 : 1 < 32) (j : SScal.Idx) :
    (Host.reduce IntOp.addi (extui 32 b h32) init h hu j).toNat = ones b := by
  rw [Host.reduce_eq_fold, hinit, Finset.filter_true_of_mem (fun i _ => Subsingleton.elim _ _), fold_addi_eq_ofNat]
  have hs : (∑ i : SMask.Idx, (extui 32 b h32 i).toNat) = ones b := by
    unfold ones
    rw [sum_idx2]
    exact Finset.sum_congr rfl fun r _ => Finset.sum_congr rfl fun c _ => toNat_setWidth_bit _
  rw [hs, BitVec.toNat_ofNat]
  exact Nat.mod_eq_of_lt (lt_of_le_of_lt (ones_le b) (by norm_num))

/-- The sum of 4096 and two counts, each at most 2^24, does not reach 2^31: read as a signed integer it is the natural
    number 4096 + n1 + n2. -/
theorem count_toInt (s1 s2 : BitVec 32) (n1 n2 : ℕ) (h1 : s1.toNat = n1) (h2 : s2.toNat = n2)
    (b1 : n1 ≤ 16777216) (b2 : n2 ≤ 16777216) :
    (IntOp.addi (IntOp.addi 4096#32 s1) s2).toInt = ((4096 + n1 + n2 : ℕ) : ℤ) := by
  have ht : (IntOp.addi (IntOp.addi 4096#32 s1) s2).toNat = 4096 + n1 + n2 := by
    simp only [IntOp.addi, BitVec.toNat_add, BitVec.toNat_ofNat, h1, h2]
    omega
  rw [BitVec.toInt_eq_toNat_of_lt (by rw [ht]; omega), ht]

/-- The conversion to a float of that word is, at the exact instance, the real number 4096 + n1 + n2. -/
theorem sitofp_count (s1 s2 : BitVec 32) (n1 n2 : ℕ) (h1 : s1.toNat = n1) (h2 : s2.toNat = n2)
    (b1 : n1 ≤ 16777216) (b2 : n2 ≤ 16777216) :
    FloatOps.sitofp (F := Ideal) .f32 (IntOp.addi (IntOp.addi 4096#32 s1) s2) = (((4096 + n1 + n2 : ℕ) : ℝ) : EReal) := by
  show (((IntOp.addi (IntOp.addi 4096#32 s1) s2).toInt : ℝ) : EReal) = _
  rw [count_toInt s1 s2 n1 n2 h1 h2 b1 b2, Int.cast_natCast]

open Classical in
/-- When a mask's entry at (r, c) is set exactly when `P r c` holds, its number of set entries is the specification's
    number of pairs selected by `P`. -/
theorem ones_eq_pairCount (b : SMask.Idx → BitVec 1) (P : Fin 4096 → Fin 4096 → Prop)
    (hb : ∀ r c, b (ix2 r c) = 1#1 ↔ P r c) : ones b = Cert.TripletSpec.pairCount P := by
  unfold ones Cert.TripletSpec.pairCount
  exact Finset.sum_congr rfl fun r _ => Finset.sum_congr rfl fun c _ => if_congr (hb r c) rfl rfl

end Cert.ReferenceIdeal.RefCounts

end
-- ==== Proof.RefValue.lean ====
/-
  The reference program computes the specification's loss.

  Each stage of the reference is read at explicit coordinates and identified with the quantity of the specification it
  computes: the three vectors of a row and their directions (a vector over its norm clamped below), the distance from
  an anchor to its own positive and negative (one minus an inner product over the 1024 entries) and to the anchor and
  the negative of another row (one minus an entry of a product against a transpose), the strict upper triangle and the
  two label comparisons, the four masks, the four masked sums as sums over pairs of rows, the two counts as natural
  numbers, and last the maximum of the difference of the two means plus the margin with zero.
-/
import proofs.«135219_j66666482368607_2_alg».proof.Proof.Gen.ReferenceIdeal.Read
import proofs.«135219_j66666482368607_2_alg».proof.Proof.Spec
import proofs.«135219_j66666482368607_2_alg».proof.Proof.RefCounts

noncomputable section

open scoped BigOperators

namespace Cert.ReferenceIdeal.RefValue

open Cert.ReferenceIdeal Cert.ReferenceIdeal.Gen Cert.ReferenceIdeal.Read Idealize.ShloMosaic Idealize.ShloMosaic.ValueIdx
open Cert.TripletSpec

variable (x : (⟨S4096x3x1024, .f32⟩ : BufTy).Contents (Elt Ideal)) (lab neg : (⟨S4096, .i32⟩ : BufTy).Contents (Elt Ideal))

/-! ## The three vectors of a row, their clamped norms and their directions -/

/-- The anchor slice, reshaped, at (r, k) is the feature array at (r, 0, k). -/
theorem v1_at (r : Fin 4096) (k : Fin 1024) : val_main_v1 (F := Ideal) x (ix2 r k) = ent x 0 r k := by
  rw [val_main_v1_apply, val_main_v0_apply]
  refine congrArg x (funext fun a => Fin.ext ?_)
  have hr := r.isLt; have hk := k.isLt
  match a with
  | ⟨0, _⟩ => show (r.val * 1024 + k.val) / 1024 = r.val; omega
  | ⟨1, _⟩ => rfl
  | ⟨2, _⟩ => show (r.val * 1024 + k.val) % 1024 = k.val; omega

/-- The anchor's sum of squares over the 1024 entries of row r. -/
theorem v7_at (r : Fin 4096) :
    val_main_v7 (F := Ideal) x (ix1 r) = ∑ k : Fin 1024, ent x 0 r k * ent x 0 r k := by
  rw [val_main_v7_apply, val_main_cst_apply]
  show Ideal.ofBits .f32 0x00000000#32 + _ = _
  rw [Ideal.ofBits_zero_f32, zero_add]
  refine Finset.sum_congr rfl fun k _ => ?_
  have hi : idx_main_v7 (ix1 r) k = ix2 r k := funext fun a => by
    match a with
    | ⟨0, _⟩ => rfl
    | ⟨1, _⟩ => rfl
  rw [hi, val_main_v6_apply, v1_at]
  rfl

/-- The anchor's norm clamped below, in the one column of the keep-dimension array. -/
theorem v11_at (r : Fin 4096) : val_main_v11 (F := Ideal) x (ix2 r (0 : Fin 1)) = clampNorm x 0 r := by
  rw [val_main_v11_apply, val_main_v9_apply, val_main_v8_apply, val_main_v10_apply, val_main_cst_0_apply]
  have hi : idx_main_v8 (ix2 r (0 : Fin 1)) = ix1 r := funext fun a => by
    match a with
    | ⟨0, _⟩ => rfl
  rw [hi, v7_at]
  rfl

/-- The anchor's direction at (r, k). -/
theorem v13_at (r : Fin 4096) (k : Fin 1024) : val_main_v13 (F := Ideal) x (ix2 r k) = dir x 0 r k := by
  rw [val_main_v13_apply, val_main_v12_apply, v1_at]
  have hi : idx_main_v12 (ix2 r k) = ix2 r (0 : Fin 1) := funext fun a => by
    match a with
    | ⟨0, _⟩ => rfl
    | ⟨1, _⟩ => rfl
  rw [hi, v11_at]
  rfl

/-- The positive slice, reshaped, at (r, k) is the feature array at (r, 1, k). -/
theorem v3_at (r : Fin 4096) (k : Fin 1024) : val_main_v3 (F := Ideal) x (ix2 r k) = ent x 1 r k := by
  rw [val_main_v3_apply, val_main_v2_apply]
  refine congrArg x (funext fun a => Fin.ext ?_)
  have hr := r.isLt; have hk := k.isLt
  match a with
  | ⟨0, _⟩ => show (r.val * 1024 + k.val) / 1024 = r.val; omega
  | ⟨1, _⟩ => rfl
  | ⟨2, _⟩ => show (r.val * 1024 + k.val) % 1024 = k.val; omega

/-- The positive's sum of squares over the 1024 entries of row r. -/
theorem v15_at (r : Fin 4096) :
    val_main_v15 (F := Ideal) x (ix1 r) = ∑ k : Fin 1024, ent x 1 r k * ent x 1 r k := by
  rw [val_main_v15_apply, val_main_cst_1_apply]
  show Ideal.ofBits .f32 0x00000000#32 + _ = _
  rw [Ideal.ofBits_zero_f32, zero_add]
  refine Finset.sum_congr rfl fun k _ => ?_
  have hi : idx_main_v15 (ix1 r) k = ix2 r k := funext fun a => by
    match a with
    | ⟨0, _⟩ => rfl
    | ⟨1, _⟩ => rfl
  rw [hi, val_main_v14_apply, v3_at]
  rfl

/-- The positive's norm clamped below, in the one column of the keep-dimension array. -/
theorem v19_at (r : Fin 4096) : val_main_v19 (F := Ideal) x (ix2 r (0 : Fin 1)) = clampNorm x 1 r := by
  rw [val_main_v19_apply, val_main_v17_apply, val_main_v16_apply, val_main_v18_apply, val_main_cst_2_apply]
  have hi : idx_main_v16 (ix2 r (0 : Fin 1)) = ix1 r := funext fun a => by
    match a with
    | ⟨0, _⟩ => rfl
  rw [hi, v15_at]
  rfl

/-- The positive's direction at (r, k). -/
theorem v21_at (r : Fin 4096) (k : Fin 1024) : val_main_v21 (F := Ideal) x (ix2 r k) = dir x 1 r k := by
  rw [val_main_v21_apply, val_main_v20_apply, v3_at]
  have hi : idx_main_v20 (ix2 r k) = ix2 r (0 : Fin 1) := funext fun a => by
    match a with
    | ⟨0, _⟩ => rfl
    | ⟨1, _⟩ => rfl
  rw [hi, v19_at]
  rfl

/-- The negative slice, reshaped, at (r, k) is the feature array at (r, 2, k). -/
theorem v5_at (r : Fin 4096) (k : Fin 1024) : val_main_v5 (F := Ideal) x (ix2 r k) = ent x 2 r k := by
  rw [val_main_v5_apply, val_main_v4_apply]
  refine congrArg x (funext fun a => Fin.ext ?_)
  have hr := r.isLt; have hk := k.isLt
  match a with
  | ⟨0, _⟩ => show (r.val * 1024 + k.val) / 1024 = r.val; omega
  | ⟨1, _⟩ => rfl
  | ⟨2, _⟩ => show (r.val * 1024 + k.val) % 1024 = k.val; omega

/-- The negative's sum of squares over the 1024 entries of row r. -/
theorem v23_at (r : Fin 4096) :
    val_main_v23 (F := Ideal) x (ix1 r) = ∑ k : Fin 1024, ent x 2 r k * ent x 2 r k := by
  rw [val_main_v23_apply, val_main_cst_3_apply]
  show Ideal.ofBits .f32 0x00000000#32 + _ = _
  rw [Ideal.ofBits_zero_f32, zero_add]
  refine Finset.sum_congr rfl fun k _ => ?_
  have hi : idx_main_v23 (ix1 r) k = ix2 r k := funext fun a => by
    match a with
    | ⟨0, _⟩ => rfl
    | ⟨1, _⟩ => rfl
  rw [hi, val_main_v22_apply, v5_at]
  rfl

/-- The negative's norm clamped below, in the one column of the keep-dimension array. -/
theorem v27_at (r : Fin 4096) : val_main_v27 (F := Ideal) x (ix2 r (0 : Fin 1)) = clampNorm x 2 r := by
  rw [val_main_v27_apply, val_main_v25_apply, val_main_v24_apply, val_main_v26_apply, val_main_cst_4_apply]
  have hi : idx_main_v24 (ix2 r (0 : Fin 1)) = ix1 r := funext fun a => by
    match a with
    | ⟨0, _⟩ => rfl
  rw [hi, v23_at]
  rfl

/-- The negative's direction at (r, k). -/
theorem v29_at (r : Fin 4096) (k : Fin 1024) : val_main_v29 (F := Ideal) x (ix2 r k) = dir x 2 r k := by
  rw [val_main_v29_apply, val_main_v28_apply, v5_at]
  have hi : idx_main_v28 (ix2 r k) = ix2 r (0 : Fin 1) := funext fun a => by
    match a with
    | ⟨0, _⟩ => rfl
    | ⟨1, _⟩ => rfl
  rw [hi, v27_at]
  rfl

/-! ## The four families of distances -/

/-- The distance from anchor r to its own positive. -/
theorem v33_at (r : Fin 4096) : val_main_v33 (F := Ideal) x (ix1 r) = TripletSpec.dist x 1 r r := by
  rw [val_main_v33_apply, val_main_v32_apply, val_main_cst_6_apply, val_main_v31_apply, val_main_cst_5_apply]
  show Ideal.ofBits .f32 0x3F800000#32 - (Ideal.ofBits .f32 0x00000000#32 + _) = _
  rw [Ideal.ofBits_zero_f32, zero_add]
  unfold TripletSpec.dist
  refine congrArg (one - ·) (Finset.sum_congr rfl fun k _ => ?_)
  have hi : idx_main_v31 (ix1 r) k = ix2 r k := funext fun a => by
    match a with
    | ⟨0, _⟩ => rfl
    | ⟨1, _⟩ => rfl
  rw [hi, val_main_v30_apply, v13_at, v21_at]
  rfl

/-- The distance from anchor r to its own negative. -/
theorem v37_at (r : Fin 4096) : val_main_v37 (F := Ideal) x (ix1 r) = TripletSpec.dist x 2 r r := by
  rw [val_main_v37_apply, val_main_v36_apply, val_main_cst_8_apply, val_main_v35_apply, val_main_cst_7_apply]
  show Ideal.ofBits .f32 0x3F800000#32 - (Ideal.ofBits .f32 0x00000000#32 + _) = _
  rw [Ideal.ofBits_zero_f32, zero_add]
  unfold TripletSpec.dist
  refine congrArg (one - ·) (Finset.sum_congr rfl fun k _ => ?_)
  have hi : idx_main_v35 (ix1 r) k = ix2 r k := funext fun a => by
    match a with
    | ⟨0, _⟩ => rfl
    | ⟨1, _⟩ => rfl
  rw [hi, val_main_v34_apply, v13_at, v29_at]
  rfl

/-- The distance from anchor r to the anchor of row c: the product against the transpose contracts the 1024 entries. -/
theorem v41_at (r c : Fin 4096) : val_main_v41 (F := Ideal) x (ix2 r c) = TripletSpec.dist x 0 r c := by
  rw [val_main_v41_apply, val_main_v40_apply, val_main_cst_9_apply, val_main_v39_apply]
  unfold TripletSpec.dist
  refine congrArg (one - ·) (Finset.sum_congr rfl fun k _ => ?_)
  have hl : lidx_main_v39 (ix2 r c) k = ix2 r k := funext fun a => by
    match a with
    | ⟨0, _⟩ => rfl
    | ⟨1, _⟩ => rfl
  have hr : idx_main_v38 (ridx_main_v39 (ix2 r c) k) = ix2 c k := funext fun a => by
    match a with
    | ⟨0, _⟩ => rfl
    | ⟨1, _⟩ => rfl
  rw [hl, val_main_v38_apply, hr, v13_at, v13_at]

/-- The distance from anchor r to the negative of row c: the product against the transpose contracts the 1024 entries. -/
theorem v45_at (r c : Fin 4096) : val_main_v45 (F := Ideal) x (ix2 r c) = TripletSpec.dist x 2 r c := by
  rw [val_main_v45_apply, val_main_v44_apply, val_main_cst_10_apply, val_main_v43_apply]
  unfold TripletSpec.dist
  refine congrArg (one - ·) (Finset.sum_congr rfl fun k _ => ?_)
  have hl : lidx_main_v43 (ix2 r c) k = ix2 r k := funext fun a => by
    match a with
    | ⟨0, _⟩ => rfl
    | ⟨1, _⟩ => rfl
  have hr : idx_main_v42 (ridx_main_v43 (ix2 r c) k) = ix2 c k := funext fun a => by
    match a with
    | ⟨0, _⟩ => rfl
    | ⟨1, _⟩ => rfl
  rw [hl, val_main_v42_apply, hr, v13_at, v29_at]

/-! ## The four masks -/

/-- A one-bit word made from a boolean is set exactly when the boolean is true. -/
theorem ofBool_eq_one (p : Bool) : BitVec.ofBool p = 1#1 ↔ p = true := by cases p <;> decide

/-- The conjunction of two bits is set exactly when both are. -/
theorem andi_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- The complement of a bit is set exactly when the bit is not. -/
theorem not_eq_one (a : BitVec 1) : ~~~a = 1#1 ↔ ¬ a = 1#1 := by
  rcases BitVec.eq_zero_or_eq_one a with rfl | rfl <;> decide

/-- The equality comparison of two words is set exactly when they are equal. -/
theorem cmpi_eq_one (a b : BitVec 32) : IntOp.cmpi .eq a b = 1#1 ↔ a = b := by
  show BitVec.ofBool (a == b) = 1#1 ↔ _
  rw [ofBool_eq_one, beq_iff_eq]

/-- A row number, as a 32-bit word read signed, is itself: it is below 2^31. -/
theorem toInt_ofNat_row (n : ℕ) (h : n < 4096) : (BitVec.ofNat 32 n).toInt = (n : ℤ) := by
  have hn : (BitVec.ofNat 32 n).toNat = n := by
    rw [BitVec.toNat_ofNat]
    exact Nat.mod_eq_of_lt (by omega)
  rw [BitVec.toInt_eq_toNat_of_lt (by rw [hn]; omega), hn]

/-- The signed comparison "row number (plus the zero offset) is at least column number" of the two counting arrays. -/
theorem sge_rows (r c : Fin 4096) :
    IntOp.cmpi .sge (IntOp.addi (BitVec.ofNat 32 r.val) 0#32) (BitVec.ofNat 32 c.val)
      = if r.val < c.val then 0#1 else 1#1 := by
  have hr := r.isLt
  have hc := c.isLt
  show BitVec.ofBool ((BitVec.ofNat 32 c.val).sle (BitVec.ofNat 32 r.val + 0#32)) = _
  rw [BitVec.add_zero, BitVec.sle_eq_decide, toInt_ofNat_row _ hc, toInt_ofNat_row _ hr]
  split
  · rw [decide_eq_false (by omega)]; rfl
  · rw [decide_eq_true (by omega)]; rfl

/-- The strict upper triangle: its entry at (r, c) is set exactly when r comes before c. -/
theorem v47_at (r c : Fin 4096) : val_main_v47 (F := Ideal) (ix2 r c) = 1#1 ↔ before r c := by
  rw [val_main_v47_apply, val_main_call0_v4_apply, val_main_call0_v2_apply, val_main_call0_v0_apply,
    val_main_call0_v1_apply, val_main_call0_c_apply, val_main_call0_v3_apply, val_main_call0_v5_apply,
    val_main_call0_c_0_apply, val_main_v46_apply, val_main_c_apply]
  show Scalar.select (IntOp.cmpi .sge (IntOp.addi (BitVec.ofNat 32 r.val) 0#32) (BitVec.ofNat 32 c.val)) 0#1 1#1 = 1#1
    ↔ r.val < c.val
  rw [sge_rows]
  split
  · rw [select_zero]; simp only [true_iff, *]
  · rw [select_one]; simp only [false_iff, *]; decide

/-- The label comparison: its entry at (r, c) is set exactly when rows r and c carry the same label. -/
theorem v52_at (r c : Fin 4096) : val_main_v52 (F := Ideal) lab (ix2 r c) = 1#1 ↔ sameLab lab r c := by
  rw [val_main_v52_apply, val_main_v50_apply, val_main_v48_apply, val_main_v51_apply, val_main_v49_apply, cmpi_eq_one]
  have h1 : idx_main_v48 (idx_main_v50 (ix2 r c)) = ix1 r := funext fun a => by
    match a with
    | ⟨0, _⟩ => rfl
  have h2 : idx_main_v49 (idx_main_v51 (ix2 r c)) = ix1 c := funext fun a => by
    match a with
    | ⟨0, _⟩ => rfl
  rw [h1, h2]
  exact Iff.rfl

/-- The negative-label comparison: its entry at (r, c) is set exactly when the label of r is the negative-label of c. -/
theorem v57_at (r c : Fin 4096) : val_main_v57 (F := Ideal) lab neg (ix2 r c) = 1#1 ↔ sameNeg lab neg r c := by
  rw [val_main_v57_apply, val_main_v55_apply, val_main_v53_apply, val_main_v56_apply, val_main_v54_apply, cmpi_eq_one]
  have h1 : idx_main_v53 (idx_main_v55 (ix2 r c)) = ix1 r := funext fun a => by
    match a with
    | ⟨0, _⟩ => rfl
  have h2 : idx_main_v54 (idx_main_v56 (ix2 r c)) = ix1 c := funext fun a => by
    match a with
    | ⟨0, _⟩ => rfl
  rw [h1, h2]
  exact Iff.rfl

/-- The mask of positive anchor-anchor pairs. -/
theorem v58_at (r c : Fin 4096) :
    val_main_v58 (F := Ideal) lab (ix2 r c) = 1#1 ↔ before r c ∧ sameLab lab r c := by
  rw [val_main_v58_apply, andi_eq_one, v47_at, v52_at]

/-- The mask of negative anchor-anchor pairs. -/
theorem v60_at (r c : Fin 4096) :
    val_main_v60 (F := Ideal) lab (ix2 r c) = 1#1 ↔ before r c ∧ ¬ sameLab lab r c := by
  rw [val_main_v60_apply, andi_eq_one, val_main_v59_apply, not_eq_one, v47_at, v52_at]

/-- The mask of positive anchor-negative pairs. -/
theorem v61_at (r c : Fin 4096) :
    val_main_v61 (F := Ideal) lab neg (ix2 r c) = 1#1 ↔ before r c ∧ sameNeg lab neg r c := by
  rw [val_main_v61_apply, andi_eq_one, v47_at, v57_at]

/-- The mask of negative anchor-negative pairs. -/
theorem v63_at (r c : Fin 4096) :
    val_main_v63 (F := Ideal) lab neg (ix2 r c) = 1#1 ↔ before r c ∧ ¬ sameNeg lab neg r c := by
  rw [val_main_v63_apply, andi_eq_one, val_main_v62_apply, not_eq_one, v47_at, v57_at]

/-! ## The sums of distances -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A select on a bit is the `if` on the bit being set. -/
theorem select_ite {α : Type} (b : BitVec 1) (a c : α) : Scalar.select b a c = if b = 1#1 then a else c := by
  by_cases h : b = 1#1
  · rw [if_pos h, h, select_one]
  · rw [if_neg h, eq_zero_of_ne_one h, select_zero]

/-- The sum over the rows of the distance from each anchor to its own positive. -/
theorem v64_at (j : S_.Idx) : val_main_v64 (F := Ideal) x j = ∑ r : Fin 4096, TripletSpec.dist x 1 r r := by
  rw [val_main_v64_apply, val_main_cst_11_apply]
  show Ideal.ofBits .f32 0x00000000#32 + _ = _
  rw [Ideal.ofBits_zero_f32, zero_add, sum_idx1]
  exact Finset.sum_congr rfl fun r _ => v33_at x r

/-- The sum over all pairs of the positive anchor-anchor distances kept by their mask, zero elsewhere. -/
theorem v66_at (j : S_.Idx) :
    val_main_v66 (F := Ideal) x lab j = pairSum x (fun r c => before r c ∧ sameLab lab r c) 0 := by
  rw [val_main_v66_apply, val_main_cst_13_apply]
  show Ideal.ofBits .f32 0x00000000#32 + _ = _
  rw [Ideal.ofBits_zero_f32, zero_add, sum_idx2]
  unfold pairSum
  refine Finset.sum_congr rfl fun r _ => Finset.sum_congr rfl fun c _ => ?_
  rw [val_main_v65_apply, select_ite, v41_at, val_main_call1_v0_apply, val_main_cst_12_apply]
  show (if _ then _ else Ideal.ofBits .f32 0x00000000#32) = _
  rw [Ideal.ofBits_zero_f32]
  by_cases hm : val_main_v58 (F := Ideal) lab (ix2 r c) = 1#1
  · rw [if_pos hm, if_pos ((v58_at lab r c).1 hm)]
  · rw [if_neg hm, if_neg fun hP => hm ((v58_at lab r c).2 hP)]

/-- The sum over all pairs of the positive anchor-negative distances kept by their mask, zero elsewhere. -/
theorem v69_at (j : S_.Idx) :
    val_main_v69 (F := Ideal) x lab neg j = pairSum x (fun r c => before r c ∧ sameNeg lab neg r c) 2 := by
  rw [val_main_v69_apply, val_main_cst_15_apply]
  show Ideal.ofBits .f32 0x00000000#32 + _ = _
  rw [Ideal.ofBits_zero_f32, zero_add, sum_idx2]
  unfold pairSum
  refine Finset.sum_congr rfl fun r _ => Finset.sum_congr rfl fun c _ => ?_
  rw [val_main_v68_apply, select_ite, v45_at, val_main_call2_v0_apply, val_main_cst_14_apply]
  show (if _ then _ else Ideal.ofBits .f32 0x00000000#32) = _
  rw [Ideal.ofBits_zero_f32]
  by_cases hm : val_main_v61 (F := Ideal) lab neg (ix2 r c) = 1#1
  · rw [if_pos hm, if_pos ((v61_at lab neg r c).1 hm)]
  · rw [if_neg hm, if_neg fun hP => hm ((v61_at lab neg r c).2 hP)]

/-- The sum of the distances of all positive pairs. -/
theorem v70_at (j : S_.Idx) : val_main_v70 (F := Ideal) x lab neg j = posSum x lab neg := by
  rw [val_main_v70_apply, val_main_v67_apply, v64_at, v66_at, v69_at]
  rfl

/-- The sum over the rows of the distance from each anchor to its own negative. -/
theorem v77_at (j : S_.Idx) : val_main_v77 (F := Ideal) x j = ∑ r : Fin 4096, TripletSpec.dist x 2 r r := by
  rw [val_main_v77_apply, val_main_cst_19_apply]
  show Ideal.ofBits .f32 0x00000000#32 + _ = _
  rw [Ideal.ofBits_zero_f32, zero_add, sum_idx1]
  exact Finset.sum_congr rfl fun r _ => v37_at x r

/-- The sum over all pairs of the negative anchor-anchor distances kept by their mask, zero elsewhere. -/
theorem v79_at (j : S_.Idx) :
    val_main_v79 (F := Ideal) x lab j = pairSum x (fun r c => before r c ∧ ¬ sameLab lab r c) 0 := by
  rw [val_main_v79_apply, val_main_cst_21_apply]
  show Ideal.ofBits .f32 0x00000000#32 + _ = _
  rw [Ideal.ofBits_zero_f32, zero_add, sum_idx2]
  unfold pairSum
  refine Finset.sum_congr rfl fun r _ => Finset.sum_congr rfl fun c _ => ?_
  rw [val_main_v78_apply, select_ite, v41_at, val_main_call3_v0_apply, val_main_cst_20_apply]
  show (if _ then _ else Ideal.ofBits .f32 0x00000000#32) = _
  rw [Ideal.ofBits_zero_f32]
  by_cases hm : val_main_v60 (F := Ideal) lab (ix2 r c) = 1#1
  · rw [if_pos hm, if_pos ((v60_at lab r c).1 hm)]
  · rw [if_neg hm, if_neg fun hP => hm ((v60_at lab r c).2 hP)]

/-- The sum over all pairs of the negative anchor-negative distances kept by their mask, zero elsewhere. -/
theorem v82_at (j : S_.Idx) :
    val_main_v82 (F := Ideal) x lab neg j = pairSum x (fun r c => before r c ∧ ¬ sameNeg lab neg r c) 2 := by
  rw [val_main_v82_apply, val_main_cst_23_apply]
  show Ideal.ofBits .f32 0x00000000#32 + _ = _
  rw [Ideal.ofBits_zero_f32, zero_add, sum_idx2]
  unfold pairSum
  refine Finset.sum_congr rfl fun r _ => Finset.sum_congr rfl fun c _ => ?_
  rw [val_main_v81_apply, select_ite, v45_at, val_main_call4_v0_apply, val_main_cst_22_apply]
  show (if _ then _ else Ideal.ofBits .f32 0x00000000#32) = _
  rw [Ideal.ofBits_zero_f32]
  by_cases hm : val_main_v63 (F := Ideal) lab neg (ix2 r c) = 1#1
  · rw [if_pos hm, if_pos ((v63_at lab neg r c).1 hm)]
  · rw [if_neg hm, if_neg fun hP => hm ((v63_at lab neg r c).2 hP)]

/-- The sum of the distances of all negative pairs. -/
theorem v83_at (j : S_.Idx) : val_main_v83 (F := Ideal) x lab neg j = negSum x lab neg := by
  rw [val_main_v83_apply, val_main_v80_apply, v77_at, v79_at, v82_at]
  rfl

/-! ## The two counts -/

/-- The word counting the positive anchor-anchor pairs has the number of set entries of their mask as its value. -/
theorem v72_toNat (j : S_.Idx) :
    (val_main_v72 (F := Ideal) lab j).toNat = RefCounts.ones (val_main_v58 (F := Ideal) lab) :=
  RefCounts.reduce_count (val_main_v58 (F := Ideal) lab) (val_main_c_16 (F := Ideal)) reducesTo_S4096x4096_S_d0_1 h_S_ rfl
    natLt_1_32 j

/-- The same for the positive anchor-negative pairs. -/
theorem v75_toNat (j : S_.Idx) :
    (val_main_v75 (F := Ideal) lab neg j).toNat = RefCounts.ones (val_main_v61 (F := Ideal) lab neg) :=
  RefCounts.reduce_count (val_main_v61 (F := Ideal) lab neg) (val_main_c_18 (F := Ideal)) reducesTo_S4096x4096_S_d0_1 h_S_ rfl
    natLt_1_32 j

/-- The same for the negative anchor-anchor pairs. -/
theorem v85_toNat (j : S_.Idx) :
    (val_main_v85 (F := Ideal) lab j).toNat = RefCounts.ones (val_main_v60 (F := Ideal) lab) :=
  RefCounts.reduce_count (val_main_v60 (F := Ideal) lab) (val_main_c_24 (F := Ideal)) reducesTo_S4096x4096_S_d0_1 h_S_ rfl
    natLt_1_32 j

/-- The same for the negative anchor-negative pairs. -/
theorem v88_toNat (j : S_.Idx) :
    (val_main_v88 (F := Ideal) lab neg j).toNat = RefCounts.ones (val_main_v63 (F := Ideal) lab neg) :=
  RefCounts.reduce_count (val_main_v63 (F := Ideal) lab neg) (val_main_c_26 (F := Ideal)) reducesTo_S4096x4096_S_d0_1 h_S_ rfl
    natLt_1_32 j

/-- The number of positive pairs, converted to a float. -/
theorem v90_at (j : S_.Idx) : val_main_v90 (F := Ideal) lab neg j = ((posCount lab neg : ℝ) : EReal) := by
  rw [val_main_v90_apply, val_main_v76_apply, val_main_v73_apply, val_main_c_17_apply,
    RefCounts.sitofp_count _ _ _ _ (v72_toNat lab j) (v75_toNat lab neg j) (RefCounts.ones_le _) (RefCounts.ones_le _),
    RefCounts.ones_eq_pairCount _ _ (v58_at lab), RefCounts.ones_eq_pairCount _ _ (v61_at lab neg)]
  rfl

/-- The number of negative pairs, converted to a float. -/
theorem v92_at (j : S_.Idx) : val_main_v92 (F := Ideal) lab neg j = ((negCount lab neg : ℝ) : EReal) := by
  rw [val_main_v92_apply, val_main_v89_apply, val_main_v86_apply, val_main_c_25_apply,
    RefCounts.sitofp_count _ _ _ _ (v85_toNat lab j) (v88_toNat lab neg j) (RefCounts.ones_le _) (RefCounts.ones_le _),
    RefCounts.ones_eq_pairCount _ _ (v60_at lab), RefCounts.ones_eq_pairCount _ _ (v63_at lab neg)]
  rfl

/-! ## The loss -/

/-- The reference's result is the specification's loss. -/
theorem result_eq (x : (⟨S4096x3x1024, .f32⟩ : BufTy).Contents (Elt Ideal))
    (lab neg : (⟨S4096, .i32⟩ : BufTy).Contents (Elt Ideal)) :
    Read.val_main_v96 (F := Ideal) x lab neg ValueIdx.ix0 = Cert.TripletSpec.loss x lab neg := by
  rw [val_main_v96_apply, val_main_v95_apply, val_main_v94_apply, val_main_v91_apply, val_main_v93_apply, v70_at, v83_at,
    v90_at, v92_at, val_main_cst_27_apply, val_main_call5_cst_apply]
  rfl

end Cert.ReferenceIdeal.RefValue

end
-- ==== Proof.FiniteInputs.lean ====
/-
  From the precondition to "every feature is a real number".

  The precondition's predicate is the conjunction, over all entries of the feature array, of "the absolute value of
  the entry is below plus infinity". A conjunction of bits that is set had every bit set, so each entry's absolute
  value, the larger of the entry and its negative, is below plus infinity; such an extended real is neither infinity.
-/
import proofs.«135219_j66666482368607_2_alg».proof.Defs
import Idealize.ShloMosaic.Lib.ReduceAll
import Idealize.ShloMosaic.Lib.ValueIdx
import Idealize.ShloMosaic.Lib.Pipeline.Value

noncomputable section

namespace Cert.KernelIdeal.Finite

open Idealize.ShloMosaic Idealize.ShloMosaic.ValueIdx

/-- The scalar shape has one index. -/
instance : Subsingleton Cert.Pre_finite_inputs.S_.Idx := ⟨fun _ _ => funext fun d => d.elim0⟩

/-- The single-precision pattern of plus infinity reads as the top element. -/
theorem ofBits_inf : Ideal.ofBits .f32 0x7F800000#32 = ⊤ := by simp [Ideal.ofBits, Ideal.ieee]

/-- An extended real whose absolute value is below the top element is a real number. -/
theorem real_of_abs_lt_top (a : EReal) (h : max a (-a) < ⊤) : ∃ y : ℝ, a = (y : EReal) := by
  induction a using EReal.rec with
  | bot => exact absurd h (by simp)
  | coe r => exact ⟨r, rfl⟩
  | top => exact absurd h (by simp)

/-- Under the precondition every feature is a real number. -/
theorem real_of_pre [Cert.Pre_finite_inputs.Facts]
    (x : (⟨Cert.Pre_finite_inputs.S4096x3x1024, .f32⟩ : BufTy).Contents (Elt Ideal))
    (lab neg : (⟨Cert.Pre_finite_inputs.S4096, .i32⟩ : BufTy).Contents (Elt Ideal))
    (h : Cert.Pre_finite_inputs.fn (F := Ideal) x lab neg = fun _ => 1#1) : ∀ i, ∃ y : ℝ, x i = (y : EReal) := by
  intro i
  have h0 := congrFun h ValueIdx.ix0
  dsimp only [Cert.Pre_finite_inputs.fn] at h0
  have hi := Host.reduce_andi_all _ _ _ _ _ h0 i
  have hb : broadcastInDim Cert.Pre_finite_inputs.S4096x3x1024 ![] Cert.Pre_finite_inputs.Facts.bcast_S_S4096x3x1024
      (constant (F := Ideal) Cert.Pre_finite_inputs.S_ .f32 0x7F800000#32) i = Ideal.ofBits .f32 0x7F800000#32 :=
    broadcastInDim_apply _ _ _ i ValueIdx.ix0 (fun a => a.elim0)
  have hc : Ideal.cmp .olt (max (x i) (-(x i))) (Ideal.ofBits .f32 0x7F800000#32) = 1#1 := by
    rw [← hb]
    exact hi
  rw [ofBits_inf] at hc
  refine real_of_abs_lt_top (x i) ?_
  by_contra hn
  have : Ideal.cmp .olt (max (x i) (-(x i))) ⊤ = 0#1 := by
    show BitVec.ofBool (decide (max (x i) (-(x i)) < ⊤)) = 0#1
    rw [decide_eq_false hn]
    rfl
  rw [this] at hc
  exact absurd hc (by decide)

end Cert.KernelIdeal.Finite

end
-- ==== Proof.lean ====
/-
  A triplet loss with pairwise mining, computed by two kernel regions — one that normalises the three vectors of every
  row and takes each anchor's distance to its own positive and negative, one that walks the upper triangle of an
  8 x 8 grid of 512 x 512 blocks of row pairs, accumulating per row block the sums and counts of positive and negative
  pairs — against the same loss written as whole-array operations.

  Both are the one closed formula of the three argument arrays that the specification module states. The reference is
  that formula stage by stage; its pair counts are integer sums that cannot wrap, being at most 4096 + 2 * 4096 * 4096
  below 2^31. The kernel's run is assembled from its two regions (the second reads one array through two windows, each
  holding half of it while the region runs); its value is the specification's once the 4096 x 4096 pair sums are cut
  into blocks, the blocks below the diagonal dropped (no pair there has its column after its row), each row block's
  eight column blocks folded in order, and the "all pairs minus positive pairs" differences recognised as the negative
  pairs' sums — a cancellation that needs every distance to be a real number, which holds because every feature is
  finite, every norm is clamped below by a positive constant, and so every direction and every inner product is real.

  The three frame claims are the three runs with the results dropped. The idealisation rewrote nothing, so the
  claim that it preserves the kernel is trivial.
-/
import proofs.«135219_j66666482368607_2_alg».proof.Defs
import proofs.«135219_j66666482368607_2_alg».proof.Proof.Gen.Kernel
import proofs.«135219_j66666482368607_2_alg».proof.Proof.Gen.KernelIdeal
import proofs.«135219_j66666482368607_2_alg».proof.Proof.Gen.ReferenceIdeal
import proofs.«135219_j66666482368607_2_alg».proof.Proof.Gen.Pre_finite_inputs
import proofs.«135219_j66666482368607_2_alg».proof.Proof.Gen.ReferenceIdeal.Run
import proofs.«135219_j66666482368607_2_alg».proof.Proof.Gen.ReferenceIdeal.Read
import proofs.«135219_j66666482368607_2_alg».proof.Proof.AssembleBits
import proofs.«135219_j66666482368607_2_alg».proof.Proof.Assemble
import proofs.«135219_j66666482368607_2_alg».proof.Proof.KernelValue
import proofs.«135219_j66666482368607_2_alg».proof.Proof.RefValue
import proofs.«135219_j66666482368607_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end, faulting nowhere, and leaves its three arguments as launched. -/
theorem frame_kernel : Cert.frame_Kernel := fun m ρ _ =>
  (θ_run Cert.Kernel.defs _ _).mono (fun r h c =>
    ⟨(h c _ (Cert.Kernel.Assemble.mem_uc Cert.Kernel.main_arg0 (by decide))).trans (Cert.Kernel.Assemble.W6_main_arg0 m c),
     (h c _ (Cert.Kernel.Assemble.mem_uc Cert.Kernel.main_arg1 (by decide))).trans (Cert.Kernel.Assemble.W6_main_arg1 m c),
     (h c _ (Cert.Kernel.Assemble.mem_uc Cert.Kernel.main_arg2 (by decide))).trans (Cert.Kernel.Assemble.W6_main_arg2 m c)⟩)
    (Cert.Kernel.Assemble.run_all (F := Bits) m ρ)

/-- So does the idealised kernel program. -/
theorem frame_kernelIdeal : Cert.frame_KernelIdeal := fun m ρ _ =>
  (θ_run Cert.KernelIdeal.defs _ _).mono (fun r h c =>
    ⟨(h c _ (Cert.KernelIdeal.Assemble.mem_uc Cert.KernelIdeal.main_arg0 (by decide))).trans (Cert.KernelIdeal.Assemble.W6_main_arg0 m c),
     (h c _ (Cert.KernelIdeal.Assemble.mem_uc Cert.KernelIdeal.main_arg1 (by decide))).trans (Cert.KernelIdeal.Assemble.W6_main_arg1 m c),
     (h c _ (Cert.KernelIdeal.Assemble.mem_uc Cert.KernelIdeal.main_arg2 (by decide))).trans (Cert.KernelIdeal.Assemble.W6_main_arg2 m c)⟩)
    (Cert.KernelIdeal.Assemble.run_all (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the three arguments, every feature finite, both programs end with the loss of those
    arguments in their result buffer, and the arguments unchanged. -/
theorem algebraic : Cert.algebraic_KernelIdeal_ReferenceIdeal := by
  intro m ρ m' ρ' hpre hagree
  refine ⟨fun c => fun _ => Cert.TripletSpec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_,
      (h c _ (Cert.KernelIdeal.Assemble.mem_uc Cert.KernelIdeal.main_arg0 (by decide))).trans (Cert.KernelIdeal.Assemble.W6_main_arg0 m c),
      (h c _ (Cert.KernelIdeal.Assemble.mem_uc Cert.KernelIdeal.main_arg1 (by decide))).trans (Cert.KernelIdeal.Assemble.W6_main_arg1 m c),
      (h c _ (Cert.KernelIdeal.Assemble.mem_uc Cert.KernelIdeal.main_arg2 (by decide))).trans (Cert.KernelIdeal.Assemble.W6_main_arg2 m c)⟩)
      (Cert.KernelIdeal.Assemble.run_all (F := Ideal) m ρ)
    refine (h c _ (Cert.KernelIdeal.Assemble.mem_uc Cert.KernelIdeal.main_v44 (by decide))).trans ?_
    funext j
    rw [eq_ix0 j]
    exact Cert.KernelIdeal.Assemble.result_value m c (Cert.KernelIdeal.Finite.real_of_pre _ _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v96_eq, (hagree c).1, (hagree c).2.1, (hagree c).2.2]
    funext j
    rw [eq_ix0 j]
    exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
